-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v379) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256x3 : Shape := ⟨3, ![8192, 256, 3]⟩
abbrev S2x3 : Shape := ⟨2, ![2, 3]⟩
abbrev S8x256x256 : Shape := ⟨3, ![8, 256, 256]⟩
abbrev S64x8 : Shape := ⟨2, ![64, 8]⟩
abbrev S1x64 : Shape := ⟨2, ![1, 64]⟩
abbrev S_ : Shape := ⟨0, ![]⟩

class Facts : Prop where
  bcast_S_S8192x256x3 : S_.BroadcastsInDim S8192x256x3 (![] : Fin 0 → Fin S8192x256x3.rank)
  reducesTo_S8192x256x3_S_d0_1_2 : S8192x256x3.ReducesTo [0, 1, 2] S_
  h_S_ : 0 < S_.numel
  bcast_S_S2x3 : S_.BroadcastsInDim S2x3 (![] : Fin 0 → Fin S2x3.rank)
  reducesTo_S2x3_S_d0_1 : S2x3.ReducesTo [0, 1] S_
  bcast_S_S8x256x256 : S_.BroadcastsInDim S8x256x256 (![] : Fin 0 → Fin S8x256x256.rank)
  reducesTo_S8x256x256_S_d0_1_2 : S8x256x256.ReducesTo [0, 1, 2] S_
  bcast_S_S64x8 : S_.BroadcastsInDim S64x8 (![] : Fin 0 → Fin S64x8.rank)
  reducesTo_S64x8_S_d0_1 : S64x8.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S8x256x256 .f32) (main_arg5 : FVec F S64x8 .f32) (main_arg6 : FVec F S1x64 .f32) (main_v13 : IVec S_ 1) (main_v16 : IVec S8x256x256 1) : IVec S_ 1 :=
  let main_c_5 : IVec S_ 1 := constantI S_ 1 1#1
  let main_v17 : IVec S_ 1 := (fun x v => Host.reduce IntOp.andi x v reducesTo_S8x256x256_S_d0_1_2 h_S_) main_v16 main_c_5
  let main_v18 : IVec S_ 1 := andi main_v13 main_v17
  let main_v19 : FVec F S8x256x256 .f32 := Host.absf main_arg4
  let main_cst_6 : FVec F S_ .f32 := constant S_ .f32 0x7F800000#32
  let main_v20 : FVec F S8x256x256 .f32 := broadcastInDim S8x256x256 ![] bcast_S_S8x256x256 main_cst_6
  let main_v21 : IVec S8x256x256 1 := cmpf .olt main_v19 main_v20
  let main_c_7 : IVec S_ 1 := constantI S_ 1 1#1
  let main_v22 : IVec S_ 1 := (fun x v => Host.reduce IntOp.andi x v reducesTo_S8x256x256_S_d0_1_2 h_S_) main_v21 main_c_7
  let main_v23 : IVec S_ 1 := andi main_v18 main_v22
  let main_v24 : FVec F S64x8 .f32 := Host.absf main_arg5
  let main_cst_8 : FVec F S_ .f32 := constant S_ .f32 0x7F800000#32
  let main_v25 : FVec F S64x8 .f32 := broadcastInDim S64x8 ![] bcast_S_S64x8 main_cst_8
  let main_v26 : IVec S64x8 1 := cmpf .olt main_v24 main_v25
  let main_c_9 : IVec S_ 1 := constantI S_ 1 1#1
  let main_v27 : IVec S_ 1 := (fun x v => Host.reduce IntOp.andi x v reducesTo_S64x8_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S8192x256x3 .f32) (main_arg1 : FVec F S2x3 .f32) (main_arg2 : FVec F S8x256x256 .f32) (main_arg3 : FVec F S8x256x256 .f32) (main_arg4 : FVec F S8x256x256 .f32) (main_arg5 : FVec F S64x8 .f32) (main_arg6 : FVec F S1x64 .f32) : IVec S_ 1 :=
  let main_v0 : FVec F S8192x256x3 .f32 := Host.absf main_arg0
  let main_cst : FVec F S_ .f32 := constant S_ .f32 0x7F800000#32
  let main_v1 : FVec F S8192x256x3 .f32 := broadcastInDim S8192x256x3 ![] bcast_S_S8192x256x3 main_cst
  let main_v2 : IVec S8192x256x3 1 := cmpf .olt main_v0 main_v1
  let main_c : IVec S_ 1 := constantI S_ 1 1#1
  let main_v3 : IVec S_ 1 := (fun x v => Host.reduce IntOp.andi x v reducesTo_S8192x256x3_S_d0_1_2 h_S_) main_v2 main_c
  let main_v4 : FVec F S2x3 .f32 := Host.absf main_arg1
  let main_cst_0 : FVec F S_ .f32 := constant S_ .f32 0x7F800000#32
  let main_v5 : FVec F S2x3 .f32 := broadcastInDim S2x3 ![] bcast_S_S2x3 main_cst_0
  let main_v6 : IVec S2x3 1 := cmpf .olt main_v4 main_v5
  let main_c_1 : IVec S_ 1 := constantI S_ 1 1#1
  let main_v7 : IVec S_ 1 := (fun x v => Host.reduce IntOp.andi x v reducesTo_S2x3_S_d0_1 h_S_) main_v6 main_c_1
  let main_v8 : IVec S_ 1 := andi main_v3 main_v7
  let main_v9 : FVec F S8x256x256 .f32 := Host.absf main_arg2
  let main_cst_2 : FVec F S_ .f32 := constant S_ .f32 0x7F800000#32
  let main_v10 : FVec F S8x256x256 .f32 := broadcastInDim S8x256x256 ![] bcast_S_S8x256x256 main_cst_2
  let main_v11 : IVec S8x256x256 1 := cmpf .olt main_v9 main_v10
  let main_c_3 : IVec S_ 1 := constantI S_ 1 1#1
  let main_v12 : IVec S_ 1 := (fun x v => Host.reduce IntOp.andi x v reducesTo_S8x256x256_S_d0_1_2 h_S_) main_v11 main_c_3
  let main_v13 : IVec S_ 1 := andi main_v8 main_v12
  let main_v14 : FVec F S8x256x256 .f32 := Host.absf main_arg3
  let main_cst_4 : FVec F S_ .f32 := constant S_ .f32 0x7F800000#32
  let main_v15 : FVec F S8x256x256 .f32 := broadcastInDim S8x256x256 ![] bcast_S_S8x256x256 main_cst_4
  let main_v16 : IVec S8x256x256 1 := cmpf .olt main_v14 main_v15
  fn_part1 (F := F) main_arg4 main_arg5 main_arg6 main_v13 main_v16
-- ==== Kernel.lean ====
abbrev S8192x256x3 : Shape := ⟨3, ![8192, 256, 3]⟩
abbrev S2x3 : Shape := ⟨2, ![2, 3]⟩
abbrev S8x256x256 : Shape := ⟨3, ![8, 256, 256]⟩
abbrev S64x8 : Shape := ⟨2, ![64, 8]⟩
abbrev S1x64 : Shape := ⟨2, ![1, 64]⟩
abbrev S2097152x3 : Shape := ⟨2, ![2097152, 3]⟩
abbrev S1x3 : Shape := ⟨2, ![1, 3]⟩
abbrev S3 : Shape := ⟨1, ![3]⟩
abbrev S_ : Shape := ⟨0, ![]⟩
abbrev S3x2097152 : Shape := ⟨2, ![3, 2097152]⟩
abbrev S2048x256 : Shape := ⟨2, ![2048, 256]⟩
abbrev S2097152 : Shape := ⟨1, ![2097152]⟩
abbrev S3x2048 : Shape := ⟨2, ![3, 2048]⟩
abbrev S2048 : Shape := ⟨1, ![2048]⟩
abbrev S2048x2048 : Shape := ⟨2, ![2048, 2048]⟩
abbrev S8x2048 : Shape := ⟨2, ![8, 2048]⟩
abbrev S1x2048 : Shape := ⟨2, ![1, 2048]⟩
abbrev S256x2048 : Shape := ⟨2, ![256, 2048]⟩
abbrev S64x2048 : Shape := ⟨2, ![64, 2048]⟩
abbrev S8192x256x1 : Shape := ⟨3, ![8192, 256, 1]⟩

abbrev nBuf : Space → Nat
  | .hbm => 36
  | .vmem => 11
  | .smem => 0
  | _ => 0

abbrev bufTy : (tb : Table) → Fin (tcTables nBuf tb) → BufTy
  | .hbm, ⟨0, _⟩ => ⟨S8192x256x3, .f32⟩
  | .hbm, ⟨1, _⟩ => ⟨S2x3, .f32⟩
  | .hbm, ⟨2, _⟩ => ⟨S8x256x256, .f32⟩
  | .hbm, ⟨3, _⟩ => ⟨S8x256x256, .f32⟩
  | .hbm, ⟨4, _⟩ => ⟨S8x256x256, .f32⟩
  | .hbm, ⟨5, _⟩ => ⟨S64x8, .f32⟩
  | .hbm, ⟨6, _⟩ => ⟨S1x64, .f32⟩
  | .hbm, ⟨7, _⟩ => ⟨S2097152x3, .f32⟩
  | .hbm, ⟨8, _⟩ => ⟨S1x3, .f32⟩
  | .hbm, ⟨9, _⟩ => ⟨S3, .f32⟩
  | .hbm, ⟨10, _⟩ => ⟨S1x3, .f32⟩
  | .hbm, ⟨11, _⟩ => ⟨S3, .f32⟩
  | .hbm, ⟨12, _⟩ => ⟨S3, .f32⟩
  | .hbm, ⟨13, _⟩ => ⟨S_, .f32⟩
  | .hbm, ⟨14, _⟩ => ⟨S3, .f32⟩
  | .hbm, ⟨15, _⟩ => ⟨S3, .f32⟩
  | .hbm, ⟨16, _⟩ => ⟨S1x3, .f32⟩
  | .hbm, ⟨17, _⟩ => ⟨S2097152x3, .f32⟩
  | .hbm, ⟨18, _⟩ => ⟨S2097152x3, .f32⟩
  | .hbm, ⟨19, _⟩ => ⟨S1x3, .f32⟩
  | .hbm, ⟨20, _⟩ => ⟨S2097152x3, .f32⟩
  | .hbm, ⟨21, _⟩ => ⟨S2097152x3, .f32⟩
  | .hbm, ⟨22, _⟩ => ⟨S_, .f32⟩
  | .hbm, ⟨23, _⟩ => ⟨S2097152x3, .f32⟩
  | .hbm, ⟨24, _⟩ => ⟨S2097152x3, .f32⟩
  | .hbm, ⟨25, _⟩ => ⟨S3x2097152, .f32⟩
  | .hbm, ⟨26, _⟩ => ⟨S2048x256, .f32⟩
  | .hbm, ⟨27, _⟩ => ⟨S2048x256, .bf16⟩
  | .hbm, ⟨28, _⟩ => ⟨S2048x256, .f32⟩
  | .hbm, ⟨29, _⟩ => ⟨S2048x256, .bf16⟩
  | .hbm, ⟨30, _⟩ => ⟨S2048x256, .f32⟩
  | .hbm, ⟨31, _⟩ => ⟨S2048x256, .bf16⟩
  | .hbm, ⟨32, _⟩ => ⟨S64x8, .bf16⟩
  | .hbm, ⟨33, _⟩ => ⟨S1x64, .bf16⟩
  | .hbm, ⟨34, _⟩ => ⟨S2097152, .f32⟩
  | .hbm, ⟨35, _⟩ => ⟨S8192x256x1, .f32⟩
  | .local _ .vmem, ⟨0, _⟩ => ⟨S3x2048, .f32⟩
  | .local _ .vmem, ⟨1, _⟩ => ⟨S3x2048, .f32⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S64x8, .bf16⟩
  | .local _ .vmem, ⟨6, _⟩ => ⟨S1x64, .bf16⟩
  | .local _ .vmem, ⟨7, _⟩ => ⟨S2048, .f32⟩
  | .local _ .vmem, ⟨8, _⟩ => ⟨S2048, .f32⟩
  | .local _ .vmem, ⟨9, _⟩ => ⟨S2048x2048, .f32⟩
  | .local _ .vmem, ⟨10, _⟩ => ⟨S8x2048, .f32⟩
  | _, _ => ⟨S8192x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8192x256x3_S2097152x3 : S8192x256x3.ShapeCasts S2097152x3
  slices_S2x3_S1x3_0_0 : S2x3.Slices ![0, 0] S1x3
  shapeCasts_S1x3_S3 : S1x3.ShapeCasts S3
  slices_S2x3_S1x3_1_0 : S2x3.Slices ![1, 0] S1x3
  bcast_S_S3 : S_.BroadcastsInDim S3 (![] : Fin 0 → Fin S3.rank)
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  bcast_S_S2097152x3 : S_.BroadcastsInDim S2097152x3 (![] : Fin 0 → Fin S2097152x3.rank)
  transposes_S2097152x3_S3x2097152_1_0 : S2097152x3.Transposes [1, 0] S3x2097152
  shapeCasts_S8x256x256_S2048x256 : S8x256x256.ShapeCasts S2048x256
  bitsLt_bf16_f32 : FTy.bits .bf16 < FTy.bits .f32
  inb_S3x2048_S1x2048_0_0 : ∀ a, (![0, 0] : Fin 2 → Nat) a + S1x2048.size a ≤ S3x2048.size a
  h_S1x2048 : 0 < S1x2048.numel
  shapeCasts_S1x2048_S1x2048 : S1x2048.ShapeCasts S1x2048
  inb_S3x2048_S1x2048_1_0 : ∀ a, (![1, 0] : Fin 2 → Nat) a + S1x2048.size a ≤ S3x2048.size a
  inb_S3x2048_S1x2048_2_0 : ∀ a, (![2, 0] : Fin 2 → Nat) a + S1x2048.size a ≤ S3x2048.size a
  iota_S256x2048_d0_w32 : S256x2048.Iotas .tc 32 [0]
  broadcasts_S1x2048_S256x2048 : S1x2048.Broadcasts S256x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x2048_S256x2048_0_0 : ∀ a, (![0, 0] : Fin 2 → Nat) a + S256x2048.size a ≤ S2048x2048.size a
  h_S256x2048 : 0 < S256x2048.numel
  reduces_S256x2048_S2048 : S256x2048.Reduces [0] S2048
  shapeCasts_S2048_S1x2048 : S2048.ShapeCasts S1x2048
  inb_S8x2048_S1x2048_0_0 : ∀ a, (![0, 0] : Fin 2 → Nat) a + S1x2048.size a ≤ S8x2048.size a
  inb_S2048x2048_S256x2048_256_0 : ∀ a, (![256, 0] : Fin 2 → Nat) a + S256x2048.size a ≤ S2048x2048.size a
  inb_S8x2048_S1x2048_1_0 : ∀ a, (![1, 0] : Fin 2 → Nat) a + S1x2048.size a ≤ S8x2048.size a
  inb_S2048x2048_S256x2048_512_0 : ∀ a, (![512, 0] : Fin 2 → Nat) a + S256x2048.size a ≤ S2048x2048.size a
  inb_S8x2048_S1x2048_2_0 : ∀ a, (![2, 0] : Fin 2 → Nat) a + S1x2048.size a ≤ S8x2048.size a
  inb_S2048x2048_S256x2048_768_0 : ∀ a, (![768, 0] : Fin 2 → Nat) a + S256x2048.size a ≤ S2048x2048.size a
  inb_S8x2048_S1x2048_3_0 : ∀ a, (![3, 0] : Fin 2 → Nat) a + S1x2048.size a ≤ S8x2048.size a
  inb_S2048x2048_S256x2048_1024_0 : ∀ a, (![1024, 0] : Fin 2 → Nat) a + S256x2048.size a ≤ S2048x2048.size a
  inb_S8x2048_S1x2048_4_0 : ∀ a, (![4, 0] : Fin 2 → Nat) a + S1x2048.size a ≤ S8x2048.size a
  inb_S2048x2048_S256x2048_1280_0 : ∀ a, (![1280, 0] : Fin 2 → Nat) a + S256x2048.size a ≤ S2048x2048.size a
  inb_S8x2048_S1x2048_5_0 : ∀ a, (![5, 0] : Fin 2 → Nat) a + S1x2048.size a ≤ S8x2048.size a
  inb_S2048x2048_S256x2048_1536_0 : ∀ a, (![1536, 0] : Fin 2 → Nat) a + S256x2048.size a ≤ S2048x2048.size a
  inb_S8x2048_S1x2048_6_0 : ∀ a, (![6, 0] : Fin 2 → Nat) a + S1x2048.size a ≤ S8x2048.size a
  inb_S2048x2048_S256x2048_1792_0 : ∀ a, (![1792, 0] : Fin 2 → Nat) a + S256x2048.size a ≤ S2048x2048.size a
  inb_S8x2048_S1x2048_7_0 : ∀ a, (![7, 0] : Fin 2 → Nat) a + S1x2048.size a ≤ S8x2048.size a
  inb_S8x2048_S8x2048_0_0 : ∀ a, (![0, 0] : Fin 2 → Nat) a + S8x2048.size a ≤ S8x2048.size a
  h_S8x2048 : 0 < S8x2048.numel
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x2048_S2048 : S1x2048.ShapeCasts S2048
  inb_S2048_S2048_0 : ∀ a, (![0] : Fin 1 → Nat) a + S2048.size a ≤ S2048.size a
  h_S2048 : 0 < S2048.numel
  shapeCasts_S2097152_S8192x256x1 : S2097152.ShapeCasts S8192x256x1
  dot_S2048x256_S256x2048_S2048x2048_1_0_0_1_n_n_wf : DotDims.WF S2048x256 S256x2048 S2048x2048 [1] [0] [0] [1] [] []
  dot_S64x8_S8x2048_S64x2048_1_0_0_1_n_n_wf : DotDims.WF S64x8 S8x2048 S64x2048 [1] [0] [0] [1] [] []
  dot_S1x64_S64x2048_S1x2048_1_0_0_1_n_n_wf : DotDims.WF S1x64 S64x2048 S1x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x2048.size a ≤ S3x2097152.size a
  hwx0_0 : ∀ i : grid0.Coords, EltTy.bits .f32 = 32 ∨ (Rect.block (s := S3x2097152) S3x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .bf16 = 32 ∨ (Rect.block (s := S2048x256) S2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .bf16 = 32 ∨ (Rect.block (s := S2048x256) S2048x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x256.size a
  hwx0_3 : ∀ i : grid0.Coords, EltTy.bits .bf16 = 32 ∨ (Rect.block (s := S2048x256) S2048x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x8.size a ≤ S64x8.size a
  hwx0_4 : ∀ i : grid0.Coords, EltTy.bits .bf16 = 32 ∨ (Rect.block (s := S64x8) S64x8.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .bf16 = 32 ∨ (Rect.block (s := S1x64) S1x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2097152.size a
  hwx0_6 : ∀ i : grid0.Coords, EltTy.bits .f32 = 32 ∨ (Rect.block (s := S2097152) S2048.size (cc0_transform_6 i) (hinb0_6 i)).WholeWords (EltTy.packing .f32)

variable [Facts₀]

def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def dot_S64x8_S8x2048_S64x2048_1_0_0_1_n_n : DotDims S64x8 S8x2048 S64x2048 where
  lhsContracting := [1]
  rhsContracting := [0]
  lhsNonContracting := [0]
  rhsNonContracting := [1]
  lhsBatch := []
  rhsBatch := []
  wf := dot_S64x8_S8x2048_S64x2048_1_0_0_1_n_n_wf
def dot_S1x64_S64x2048_S1x2048_1_0_0_1_n_n : DotDims S1x64 S64x2048 S1x2048 where
  lhsContracting := [1]
  rhsContracting := [0]
  lhsNonContracting := [0]
  rhsNonContracting := [1]
  lhsBatch := []
  rhsBatch := []
  wf := dot_S1x64_S64x2048_S1x2048_1_0_0_1_n_n_wf

abbrev win0_0 : Pipeline.Window sig grid0 :=
  Pipeline.Window.ofSpec (Memref.whole main_v16) S3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S2048x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S64x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x256x3 : Shape := ⟨3, ![8192, 256, 3]⟩
abbrev S2x3 : Shape := ⟨2, ![2, 3]⟩
abbrev S8x256x256 : Shape := ⟨3, ![8, 256, 256]⟩
abbrev S64x8 : Shape := ⟨2, ![64, 8]⟩
abbrev S1x64 : Shape := ⟨2, ![1, 64]⟩
abbrev S2097152x3 : Shape := ⟨2, ![2097152, 3]⟩
abbrev S1x3 : Shape := ⟨2, ![1, 3]⟩
abbrev S3 : Shape := ⟨1, ![3]⟩
abbrev S_ : Shape := ⟨0, ![]⟩
abbrev S2097152x1 : Shape := ⟨2, ![2097152, 1]⟩
abbrev S2097152 : Shape := ⟨1, ![2097152]⟩
abbrev S2097152x2 : Shape := ⟨2, ![2097152, 2]⟩
abbrev S8x2097152 : Shape := ⟨2, ![8, 2097152]⟩
abbrev S1x2097152 : Shape := ⟨2, ![1, 2097152]⟩
abbrev S2097152x8 : Shape := ⟨2, ![2097152, 8]⟩
abbrev S8x64 : Shape := ⟨2, ![8, 64]⟩
abbrev S2097152x64 : Shape := ⟨2, ![2097152, 64]⟩
abbrev S64x1 : Shape := ⟨2, ![64, 1]⟩
abbrev S8192x256x1 : Shape := ⟨3, ![8192, 256, 1]⟩

abbrev nBuf : Space → Nat
  | .hbm => 518
  | .vmem => 0
  | .smem => 0
  | _ => 0

abbrev hbmTy0_0 (i : Nat) : BufTy := match i % 128 with
  | 0 => ⟨S8192x256x3, .f32⟩
  | 1 => ⟨S2x3, .f32⟩
  | 2 => ⟨S8x256x256, .f32⟩
  | 3 => ⟨S8x256x256, .f32⟩
  | 4 => ⟨S8x256x256, .f32⟩
  | 5 => ⟨S64x8, .f32⟩
  | 6 => ⟨S1x64, .f32⟩
  | 7 => ⟨S2097152x3, .f32⟩
  | 8 => ⟨S1x3, .f32⟩
  | 9 => ⟨S3, .f32⟩
  | 10 => ⟨S1x3, .f32⟩
  | 11 => ⟨S2097152x3, .f32⟩
  | 12 => ⟨S2097152x3, .f32⟩
  | 13 => ⟨S1x3, .f32⟩
  | 14 => ⟨S3, .f32⟩
  | 15 => ⟨S1x3, .f32⟩
  | 16 => ⟨S3, .f32⟩
  | 17 => ⟨S3, .f32⟩
  | 18 => ⟨S_, .f32⟩
  | 19 => ⟨S3, .f32⟩
  | 20 => ⟨S3, .f32⟩
  | 21 => ⟨S1x3, .f32⟩
  | 22 => ⟨S2097152x3, .f32⟩
  | 23 => ⟨S2097152x3, .f32⟩
  | 24 => ⟨S_, .f32⟩
  | 25 => ⟨S2097152x3, .f32⟩
  | 26 => ⟨S2097152x3, .f32⟩
  | 27 => ⟨S2097152x1, .f32⟩
  | 28 => ⟨S2097152, .f32⟩
  | 29 => ⟨S2097152x1, .f32⟩
  | 30 => ⟨S2097152, .f32⟩
  | 31 => ⟨S_, .f32⟩
  | 32 => ⟨S2097152, .f32⟩
  | 33 => ⟨S2097152, .f32⟩
  | 34 => ⟨S_, .f32⟩
  | 35 => ⟨S2097152, .f32⟩
  | 36 => ⟨S2097152, .f32⟩
  | 37 => ⟨S_, .f32⟩
  | 38 => ⟨S2097152, .f32⟩
  | 39 => ⟨S2097152, .f32⟩
  | 40 => ⟨S_, .f32⟩
  | 41 => ⟨S_, .i32⟩
  | 42 => ⟨S_, .f32⟩
  | 43 => ⟨S2097152, .f32⟩
  | 44 => ⟨S2097152, .f32⟩
  | 45 => ⟨S_, .f32⟩
  | 46 => ⟨S2097152, .f32⟩
  | 47 => ⟨S2097152, .f32⟩
  | 48 => ⟨S_, .f32⟩
  | 49 => ⟨S2097152, .f32⟩
  | 50 => ⟨S2097152, .f32⟩
  | 51 => ⟨S_, .f32⟩
  | 52 => ⟨S2097152, .f32⟩
  | 53 => ⟨S2097152, .f32⟩
  | 54 => ⟨S_, .f32⟩
  | 55 => ⟨S2097152, .f32⟩
  | 56 => ⟨S2097152, .f32⟩
  | 57 => ⟨S_, .f32⟩
  | 58 => ⟨S_, .i32⟩
  | 59 => ⟨S_, .f32⟩
  | 60 => ⟨S2097152, .f32⟩
  | 61 => ⟨S2097152, .f32⟩
  | 62 => ⟨S_, .f32⟩
  | 63 => ⟨S2097152, .f32⟩
  | 64 => ⟨S2097152, .f32⟩
  | 65 => ⟨S2097152, .f32⟩
  | 66 => ⟨S2097152, .i32⟩
  | 67 => ⟨S2097152, .f32⟩
  | 68 => ⟨S2097152, .i32⟩
  | 69 => ⟨S_, .i32⟩
  | 70 => ⟨S2097152, .i32⟩
  | 71 => ⟨S2097152, .i32⟩
  | 72 => ⟨S_, .i32⟩
  | 73 => ⟨S2097152, .i32⟩
  | 74 => ⟨S2097152, .i32⟩
  | 75 => ⟨S_, .i32⟩
  | 76 => ⟨S2097152, .i32⟩
  | 77 => ⟨S2097152, .i32⟩
  | 78 => ⟨S_, .i32⟩
  | 79 => ⟨S2097152, .i32⟩
  | 80 => ⟨S2097152, .i32⟩
  | 81 => ⟨S2097152, .f32⟩
  | 82 => ⟨S2097152, .f32⟩
  | 83 => ⟨S2097152, .f32⟩
  | 84 => ⟨S2097152, .f32⟩
  | 85 => ⟨S_, .i32⟩
  | 86 => ⟨S2097152, .i32⟩
  | 87 => ⟨S2097152, .i1⟩
  | 88 => ⟨S_, .i32⟩
  | 89 => ⟨S2097152, .i32⟩
  | 90 => ⟨S2097152, .i32⟩
  | 91 => ⟨S2097152, .i32⟩
  | 92 => ⟨S_, .i32⟩
  | 93 => ⟨S2097152, .i32⟩
  | 94 => ⟨S2097152, .i1⟩
  | 95 => ⟨S_, .i32⟩
  | 96 => ⟨S2097152, .i32⟩
  | 97 => ⟨S2097152, .i32⟩
  | 98 => ⟨S2097152, .i32⟩
  | 99 => ⟨S2097152x1, .i32⟩
  | 100 => ⟨S2097152x1, .i32⟩
  | 101 => ⟨S2097152x2, .i32⟩
  | 102 => ⟨S8x2097152, .f32⟩
  | 103 => ⟨S_, .i32⟩
  | 104 => ⟨S2097152, .i32⟩
  | 105 => ⟨S2097152, .i1⟩
  | 106 => ⟨S_, .i32⟩
  | 107 => ⟨S2097152, .i32⟩
  | 108 => ⟨S2097152, .i32⟩
  | 109 => ⟨S2097152, .i32⟩
  | 110 => ⟨S_, .i32⟩
  | 111 => ⟨S2097152, .i32⟩
  | 112 => ⟨S2097152, .i1⟩
  | 113 => ⟨S_, .i32⟩
  | 114 => ⟨S2097152, .i32⟩
  | 115 => ⟨S2097152, .i32⟩
  | 116 => ⟨S2097152, .i32⟩
  | 117 => ⟨S2097152x1, .i32⟩
  | 118 => ⟨S2097152x1, .i32⟩
  | 119 => ⟨S2097152x2, .i32⟩
  | 120 => ⟨S8x2097152, .f32⟩
  | 121 => ⟨S_, .i32⟩
  | 122 => ⟨S2097152, .i32⟩
  | 123 => ⟨S2097152, .i1⟩
  | 124 => ⟨S_, .i32⟩
  | 125 => ⟨S2097152, .i32⟩
  | 126 => ⟨S2097152, .i32⟩
  | 127 => ⟨S2097152, .i32⟩
  | _ => ⟨S8192x256x3, .f32⟩

abbrev hbmTy0_1 (i : Nat) : BufTy := match i % 128 with
  | 0 => ⟨S_, .i32⟩
  | 1 => ⟨S2097152, .i32⟩
  | 2 => ⟨S2097152, .i1⟩
  | 3 => ⟨S_, .i32⟩
  | 4 => ⟨S2097152, .i32⟩
  | 5 => ⟨S2097152, .i32⟩
  | 6 => ⟨S2097152, .i32⟩
  | 7 => ⟨S2097152x1, .i32⟩
  | 8 => ⟨S2097152x1, .i32⟩
  | 9 => ⟨S2097152x2, .i32⟩
  | 10 => ⟨S8x2097152, .f32⟩
  | 11 => ⟨S_, .i32⟩
  | 12 => ⟨S2097152, .i32⟩
  | 13 => ⟨S2097152, .i1⟩
  | 14 => ⟨S_, .i32⟩
  | 15 => ⟨S2097152, .i32⟩
  | 16 => ⟨S2097152, .i32⟩
  | 17 => ⟨S2097152, .i32⟩
  | 18 => ⟨S_, .i32⟩
  | 19 => ⟨S2097152, .i32⟩
  | 20 => ⟨S2097152, .i1⟩
  | 21 => ⟨S_, .i32⟩
  | 22 => ⟨S2097152, .i32⟩
  | 23 => ⟨S2097152, .i32⟩
  | 24 => ⟨S2097152, .i32⟩
  | 25 => ⟨S2097152x1, .i32⟩
  | 26 => ⟨S2097152x1, .i32⟩
  | 27 => ⟨S2097152x2, .i32⟩
  | 28 => ⟨S8x2097152, .f32⟩
  | 29 => ⟨S_, .f32⟩
  | 30 => ⟨S2097152, .f32⟩
  | 31 => ⟨S2097152, .f32⟩
  | 32 => ⟨S1x2097152, .f32⟩
  | 33 => ⟨S8x2097152, .f32⟩
  | 34 => ⟨S8x2097152, .f32⟩
  | 35 => ⟨S1x2097152, .f32⟩
  | 36 => ⟨S8x2097152, .f32⟩
  | 37 => ⟨S8x2097152, .f32⟩
  | 38 => ⟨S8x2097152, .f32⟩
  | 39 => ⟨S_, .f32⟩
  | 40 => ⟨S2097152, .f32⟩
  | 41 => ⟨S2097152, .f32⟩
  | 42 => ⟨S1x2097152, .f32⟩
  | 43 => ⟨S8x2097152, .f32⟩
  | 44 => ⟨S8x2097152, .f32⟩
  | 45 => ⟨S1x2097152, .f32⟩
  | 46 => ⟨S8x2097152, .f32⟩
  | 47 => ⟨S8x2097152, .f32⟩
  | 48 => ⟨S8x2097152, .f32⟩
  | 49 => ⟨S_, .f32⟩
  | 50 => ⟨S2097152, .f32⟩
  | 51 => ⟨S2097152, .f32⟩
  | 52 => ⟨S1x2097152, .f32⟩
  | 53 => ⟨S8x2097152, .f32⟩
  | 54 => ⟨S8x2097152, .f32⟩
  | 55 => ⟨S1x2097152, .f32⟩
  | 56 => ⟨S8x2097152, .f32⟩
  | 57 => ⟨S8x2097152, .f32⟩
  | 58 => ⟨S8x2097152, .f32⟩
  | 59 => ⟨S2097152x8, .f32⟩
  | 60 => ⟨S2097152x1, .f32⟩
  | 61 => ⟨S2097152, .f32⟩
  | 62 => ⟨S2097152x1, .f32⟩
  | 63 => ⟨S2097152, .f32⟩
  | 64 => ⟨S_, .f32⟩
  | 65 => ⟨S2097152, .f32⟩
  | 66 => ⟨S2097152, .f32⟩
  | 67 => ⟨S_, .f32⟩
  | 68 => ⟨S2097152, .f32⟩
  | 69 => ⟨S2097152, .f32⟩
  | 70 => ⟨S_, .f32⟩
  | 71 => ⟨S2097152, .f32⟩
  | 72 => ⟨S2097152, .f32⟩
  | 73 => ⟨S_, .f32⟩
  | 74 => ⟨S_, .i32⟩
  | 75 => ⟨S_, .f32⟩
  | 76 => ⟨S2097152, .f32⟩
  | 77 => ⟨S2097152, .f32⟩
  | 78 => ⟨S_, .f32⟩
  | 79 => ⟨S2097152, .f32⟩
  | 80 => ⟨S2097152, .f32⟩
  | 81 => ⟨S_, .f32⟩
  | 82 => ⟨S2097152, .f32⟩
  | 83 => ⟨S2097152, .f32⟩
  | 84 => ⟨S_, .f32⟩
  | 85 => ⟨S2097152, .f32⟩
  | 86 => ⟨S2097152, .f32⟩
  | 87 => ⟨S_, .f32⟩
  | 88 => ⟨S2097152, .f32⟩
  | 89 => ⟨S2097152, .f32⟩
  | 90 => ⟨S_, .f32⟩
  | 91 => ⟨S_, .i32⟩
  | 92 => ⟨S_, .f32⟩
  | 93 => ⟨S2097152, .f32⟩
  | 94 => ⟨S2097152, .f32⟩
  | 95 => ⟨S_, .f32⟩
  | 96 => ⟨S2097152, .f32⟩
  | 97 => ⟨S2097152, .f32⟩
  | 98 => ⟨S2097152, .f32⟩
  | 99 => ⟨S2097152, .i32⟩
  | 100 => ⟨S2097152, .f32⟩
  | 101 => ⟨S2097152, .i32⟩
  | 102 => ⟨S_, .i32⟩
  | 103 => ⟨S2097152, .i32⟩
  | 104 => ⟨S2097152, .i32⟩
  | 105 => ⟨S_, .i32⟩
  | 106 => ⟨S2097152, .i32⟩
  | 107 => ⟨S2097152, .i32⟩
  | 108 => ⟨S_, .i32⟩
  | 109 => ⟨S2097152, .i32⟩
  | 110 => ⟨S2097152, .i32⟩
  | 111 => ⟨S_, .i32⟩
  | 112 => ⟨S2097152, .i32⟩
  | 113 => ⟨S2097152, .i32⟩
  | 114 => ⟨S2097152, .f32⟩
  | 115 => ⟨S2097152, .f32⟩
  | 116 => ⟨S2097152, .f32⟩
  | 117 => ⟨S2097152, .f32⟩
  | 118 => ⟨S_, .i32⟩
  | 119 => ⟨S2097152, .i32⟩
  | 120 => ⟨S2097152, .i1⟩
  | 121 => ⟨S_, .i32⟩
  | 122 => ⟨S2097152, .i32⟩
  | 123 => ⟨S2097152, .i32⟩
  | 124 => ⟨S2097152, .i32⟩
  | 125 => ⟨S_, .i32⟩
  | 126 => ⟨S2097152, .i32⟩
  | 127 => ⟨S2097152, .i1⟩
  | _ => ⟨S8192x256x3, .f32⟩

abbrev hbmTy0_2 (i : Nat) : BufTy := match i % 128 with
  | 0 => ⟨S_, .i32⟩
  | 1 => ⟨S2097152, .i32⟩
  | 2 => ⟨S2097152, .i32⟩
  | 3 => ⟨S2097152, .i32⟩
  | 4 => ⟨S2097152x1, .i32⟩
  | 5 => ⟨S2097152x1, .i32⟩
  | 6 => ⟨S2097152x2, .i32⟩
  | 7 => ⟨S8x2097152, .f32⟩
  | 8 => ⟨S_, .i32⟩
  | 9 => ⟨S2097152, .i32⟩
  | 10 => ⟨S2097152, .i1⟩
  | 11 => ⟨S_, .i32⟩
  | 12 => ⟨S2097152, .i32⟩
  | 13 => ⟨S2097152, .i32⟩
  | 14 => ⟨S2097152, .i32⟩
  | 15 => ⟨S_, .i32⟩
  | 16 => ⟨S2097152, .i32⟩
  | 17 => ⟨S2097152, .i1⟩
  | 18 => ⟨S_, .i32⟩
  | 19 => ⟨S2097152, .i32⟩
  | 20 => ⟨S2097152, .i32⟩
  | 21 => ⟨S2097152, .i32⟩
  | 22 => ⟨S2097152x1, .i32⟩
  | 23 => ⟨S2097152x1, .i32⟩
  | 24 => ⟨S2097152x2, .i32⟩
  | 25 => ⟨S8x2097152, .f32⟩
  | 26 => ⟨S_, .i32⟩
  | 27 => ⟨S2097152, .i32⟩
  | 28 => ⟨S2097152, .i1⟩
  | 29 => ⟨S_, .i32⟩
  | 30 => ⟨S2097152, .i32⟩
  | 31 => ⟨S2097152, .i32⟩
  | 32 => ⟨S2097152, .i32⟩
  | 33 => ⟨S_, .i32⟩
  | 34 => ⟨S2097152, .i32⟩
  | 35 => ⟨S2097152, .i1⟩
  | 36 => ⟨S_, .i32⟩
  | 37 => ⟨S2097152, .i32⟩
  | 38 => ⟨S2097152, .i32⟩
  | 39 => ⟨S2097152, .i32⟩
  | 40 => ⟨S2097152x1, .i32⟩
  | 41 => ⟨S2097152x1, .i32⟩
  | 42 => ⟨S2097152x2, .i32⟩
  | 43 => ⟨S8x2097152, .f32⟩
  | 44 => ⟨S_, .i32⟩
  | 45 => ⟨S2097152, .i32⟩
  | 46 => ⟨S2097152, .i1⟩
  | 47 => ⟨S_, .i32⟩
  | 48 => ⟨S2097152, .i32⟩
  | 49 => ⟨S2097152, .i32⟩
  | 50 => ⟨S2097152, .i32⟩
  | 51 => ⟨S_, .i32⟩
  | 52 => ⟨S2097152, .i32⟩
  | 53 => ⟨S2097152, .i1⟩
  | 54 => ⟨S_, .i32⟩
  | 55 => ⟨S2097152, .i32⟩
  | 56 => ⟨S2097152, .i32⟩
  | 57 => ⟨S2097152, .i32⟩
  | 58 => ⟨S2097152x1, .i32⟩
  | 59 => ⟨S2097152x1, .i32⟩
  | 60 => ⟨S2097152x2, .i32⟩
  | 61 => ⟨S8x2097152, .f32⟩
  | 62 => ⟨S_, .f32⟩
  | 63 => ⟨S2097152, .f32⟩
  | 64 => ⟨S2097152, .f32⟩
  | 65 => ⟨S1x2097152, .f32⟩
  | 66 => ⟨S8x2097152, .f32⟩
  | 67 => ⟨S8x2097152, .f32⟩
  | 68 => ⟨S1x2097152, .f32⟩
  | 69 => ⟨S8x2097152, .f32⟩
  | 70 => ⟨S8x2097152, .f32⟩
  | 71 => ⟨S8x2097152, .f32⟩
  | 72 => ⟨S_, .f32⟩
  | 73 => ⟨S2097152, .f32⟩
  | 74 => ⟨S2097152, .f32⟩
  | 75 => ⟨S1x2097152, .f32⟩
  | 76 => ⟨S8x2097152, .f32⟩
  | 77 => ⟨S8x2097152, .f32⟩
  | 78 => ⟨S1x2097152, .f32⟩
  | 79 => ⟨S8x2097152, .f32⟩
  | 80 => ⟨S8x2097152, .f32⟩
  | 81 => ⟨S8x2097152, .f32⟩
  | 82 => ⟨S_, .f32⟩
  | 83 => ⟨S2097152, .f32⟩
  | 84 => ⟨S2097152, .f32⟩
  | 85 => ⟨S1x2097152, .f32⟩
  | 86 => ⟨S8x2097152, .f32⟩
  | 87 => ⟨S8x2097152, .f32⟩
  | 88 => ⟨S1x2097152, .f32⟩
  | 89 => ⟨S8x2097152, .f32⟩
  | 90 => ⟨S8x2097152, .f32⟩
  | 91 => ⟨S8x2097152, .f32⟩
  | 92 => ⟨S2097152x8, .f32⟩
  | 93 => ⟨S2097152x8, .f32⟩
  | 94 => ⟨S2097152x1, .f32⟩
  | 95 => ⟨S2097152, .f32⟩
  | 96 => ⟨S2097152x1, .f32⟩
  | 97 => ⟨S2097152, .f32⟩
  | 98 => ⟨S_, .f32⟩
  | 99 => ⟨S2097152, .f32⟩
  | 100 => ⟨S2097152, .f32⟩
  | 101 => ⟨S_, .f32⟩
  | 102 => ⟨S2097152, .f32⟩
  | 103 => ⟨S2097152, .f32⟩
  | 104 => ⟨S_, .f32⟩
  | 105 => ⟨S2097152, .f32⟩
  | 106 => ⟨S2097152, .f32⟩
  | 107 => ⟨S_, .f32⟩
  | 108 => ⟨S_, .i32⟩
  | 109 => ⟨S_, .f32⟩
  | 110 => ⟨S2097152, .f32⟩
  | 111 => ⟨S2097152, .f32⟩
  | 112 => ⟨S_, .f32⟩
  | 113 => ⟨S2097152, .f32⟩
  | 114 => ⟨S2097152, .f32⟩
  | 115 => ⟨S_, .f32⟩
  | 116 => ⟨S2097152, .f32⟩
  | 117 => ⟨S2097152, .f32⟩
  | 118 => ⟨S_, .f32⟩
  | 119 => ⟨S2097152, .f32⟩
  | 120 => ⟨S2097152, .f32⟩
  | 121 => ⟨S_, .f32⟩
  | 122 => ⟨S2097152, .f32⟩
  | 123 => ⟨S2097152, .f32⟩
  | 124 => ⟨S_, .f32⟩
  | 125 => ⟨S_, .i32⟩
  | 126 => ⟨S_, .f32⟩
  | 127 => ⟨S2097152, .f32⟩
  | _ => ⟨S8192x256x3, .f32⟩

abbrev hbmTy0_3 (i : Nat) : BufTy := match i % 128 with
  | 0 => ⟨S2097152, .f32⟩
  | 1 => ⟨S_, .f32⟩
  | 2 => ⟨S2097152, .f32⟩
  | 3 => ⟨S2097152, .f32⟩
  | 4 => ⟨S2097152, .f32⟩
  | 5 => ⟨S2097152, .i32⟩
  | 6 => ⟨S2097152, .f32⟩
  | 7 => ⟨S2097152, .i32⟩
  | 8 => ⟨S_, .i32⟩
  | 9 => ⟨S2097152, .i32⟩
  | 10 => ⟨S2097152, .i32⟩
  | 11 => ⟨S_, .i32⟩
  | 12 => ⟨S2097152, .i32⟩
  | 13 => ⟨S2097152, .i32⟩
  | 14 => ⟨S_, .i32⟩
  | 15 => ⟨S2097152, .i32⟩
  | 16 => ⟨S2097152, .i32⟩
  | 17 => ⟨S_, .i32⟩
  | 18 => ⟨S2097152, .i32⟩
  | 19 => ⟨S2097152, .i32⟩
  | 20 => ⟨S2097152, .f32⟩
  | 21 => ⟨S2097152, .f32⟩
  | 22 => ⟨S2097152, .f32⟩
  | 23 => ⟨S2097152, .f32⟩
  | 24 => ⟨S_, .i32⟩
  | 25 => ⟨S2097152, .i32⟩
  | 26 => ⟨S2097152, .i1⟩
  | 27 => ⟨S_, .i32⟩
  | 28 => ⟨S2097152, .i32⟩
  | 29 => ⟨S2097152, .i32⟩
  | 30 => ⟨S2097152, .i32⟩
  | 31 => ⟨S_, .i32⟩
  | 32 => ⟨S2097152, .i32⟩
  | 33 => ⟨S2097152, .i1⟩
  | 34 => ⟨S_, .i32⟩
  | 35 => ⟨S2097152, .i32⟩
  | 36 => ⟨S2097152, .i32⟩
  | 37 => ⟨S2097152, .i32⟩
  | 38 => ⟨S2097152x1, .i32⟩
  | 39 => ⟨S2097152x1, .i32⟩
  | 40 => ⟨S2097152x2, .i32⟩
  | 41 => ⟨S8x2097152, .f32⟩
  | 42 => ⟨S_, .i32⟩
  | 43 => ⟨S2097152, .i32⟩
  | 44 => ⟨S2097152, .i1⟩
  | 45 => ⟨S_, .i32⟩
  | 46 => ⟨S2097152, .i32⟩
  | 47 => ⟨S2097152, .i32⟩
  | 48 => ⟨S2097152, .i32⟩
  | 49 => ⟨S_, .i32⟩
  | 50 => ⟨S2097152, .i32⟩
  | 51 => ⟨S2097152, .i1⟩
  | 52 => ⟨S_, .i32⟩
  | 53 => ⟨S2097152, .i32⟩
  | 54 => ⟨S2097152, .i32⟩
  | 55 => ⟨S2097152, .i32⟩
  | 56 => ⟨S2097152x1, .i32⟩
  | 57 => ⟨S2097152x1, .i32⟩
  | 58 => ⟨S2097152x2, .i32⟩
  | 59 => ⟨S8x2097152, .f32⟩
  | 60 => ⟨S_, .i32⟩
  | 61 => ⟨S2097152, .i32⟩
  | 62 => ⟨S2097152, .i1⟩
  | 63 => ⟨S_, .i32⟩
  | 64 => ⟨S2097152, .i32⟩
  | 65 => ⟨S2097152, .i32⟩
  | 66 => ⟨S2097152, .i32⟩
  | 67 => ⟨S_, .i32⟩
  | 68 => ⟨S2097152, .i32⟩
  | 69 => ⟨S2097152, .i1⟩
  | 70 => ⟨S_, .i32⟩
  | 71 => ⟨S2097152, .i32⟩
  | 72 => ⟨S2097152, .i32⟩
  | 73 => ⟨S2097152, .i32⟩
  | 74 => ⟨S2097152x1, .i32⟩
  | 75 => ⟨S2097152x1, .i32⟩
  | 76 => ⟨S2097152x2, .i32⟩
  | 77 => ⟨S8x2097152, .f32⟩
  | 78 => ⟨S_, .i32⟩
  | 79 => ⟨S2097152, .i32⟩
  | 80 => ⟨S2097152, .i1⟩
  | 81 => ⟨S_, .i32⟩
  | 82 => ⟨S2097152, .i32⟩
  | 83 => ⟨S2097152, .i32⟩
  | 84 => ⟨S2097152, .i32⟩
  | 85 => ⟨S_, .i32⟩
  | 86 => ⟨S2097152, .i32⟩
  | 87 => ⟨S2097152, .i1⟩
  | 88 => ⟨S_, .i32⟩
  | 89 => ⟨S2097152, .i32⟩
  | 90 => ⟨S2097152, .i32⟩
  | 91 => ⟨S2097152, .i32⟩
  | 92 => ⟨S2097152x1, .i32⟩
  | 93 => ⟨S2097152x1, .i32⟩
  | 94 => ⟨S2097152x2, .i32⟩
  | 95 => ⟨S8x2097152, .f32⟩
  | 96 => ⟨S_, .f32⟩
  | 97 => ⟨S2097152, .f32⟩
  | 98 => ⟨S2097152, .f32⟩
  | 99 => ⟨S1x2097152, .f32⟩
  | 100 => ⟨S8x2097152, .f32⟩
  | 101 => ⟨S8x2097152, .f32⟩
  | 102 => ⟨S1x2097152, .f32⟩
  | 103 => ⟨S8x2097152, .f32⟩
  | 104 => ⟨S8x2097152, .f32⟩
  | 105 => ⟨S8x2097152, .f32⟩
  | 106 => ⟨S_, .f32⟩
  | 107 => ⟨S2097152, .f32⟩
  | 108 => ⟨S2097152, .f32⟩
  | 109 => ⟨S1x2097152, .f32⟩
  | 110 => ⟨S8x2097152, .f32⟩
  | 111 => ⟨S8x2097152, .f32⟩
  | 112 => ⟨S1x2097152, .f32⟩
  | 113 => ⟨S8x2097152, .f32⟩
  | 114 => ⟨S8x2097152, .f32⟩
  | 115 => ⟨S8x2097152, .f32⟩
  | 116 => ⟨S_, .f32⟩
  | 117 => ⟨S2097152, .f32⟩
  | 118 => ⟨S2097152, .f32⟩
  | 119 => ⟨S1x2097152, .f32⟩
  | 120 => ⟨S8x2097152, .f32⟩
  | 121 => ⟨S8x2097152, .f32⟩
  | 122 => ⟨S1x2097152, .f32⟩
  | 123 => ⟨S8x2097152, .f32⟩
  | 124 => ⟨S8x2097152, .f32⟩
  | 125 => ⟨S8x2097152, .f32⟩
  | 126 => ⟨S2097152x8, .f32⟩
  | 127 => ⟨S2097152x8, .f32⟩
  | _ => ⟨S8192x256x3, .f32⟩

abbrev hbmTy0_4 (i : Nat) : BufTy := match i % 128 with
  | 0 => ⟨S8x64, .f32⟩
  | 1 => ⟨S2097152x64, .f32⟩
  | 2 => ⟨S64x1, .f32⟩
  | 3 => ⟨S2097152x1, .f32⟩
  | 4 => ⟨S2097152x1, .f32⟩
  | 5 => ⟨S8192x256x1, .f32⟩
  | _ => ⟨S8192x256x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x256x3, .f32⟩

abbrev bufTy : (tb : Table) → Fin (tcTables nBuf tb) → BufTy
  | .hbm, ⟨i, _⟩ => hbmTy i
  | _, _ => ⟨S8192x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_c_9 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_10 : Ref sig .tc := ⟨.hbm, 69, rfl⟩
abbrev main_v40 : Ref sig .tc := ⟨.hbm, 70, rfl⟩
abbrev main_v41 : Ref sig .tc := ⟨.hbm, 71, rfl⟩
abbrev main_c_11 : Ref sig .tc := ⟨.hbm, 72, rfl⟩
abbrev main_v42 : Ref sig .tc := ⟨.hbm, 73, rfl⟩
abbrev main_v43 : Ref sig .tc := ⟨.hbm, 74, rfl⟩
abbrev main_c_12 : Ref sig .tc := ⟨.hbm, 75, rfl⟩
abbrev main_v44 : Ref sig .tc := ⟨.hbm, 76, rfl⟩
abbrev main_v45 : Ref sig .tc := ⟨.hbm, 77, rfl⟩
abbrev main_c_13 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_c_14 : Ref sig .tc := ⟨.hbm, 85, rfl⟩
abbrev main_v52 : Ref sig .tc := ⟨.hbm, 86, rfl⟩
abbrev main_v53 : Ref sig .tc := ⟨.hbm, 87, rfl⟩
abbrev main_c_15 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_16 : Ref sig .tc := ⟨.hbm, 92, rfl⟩
abbrev main_v57 : Ref sig .tc := ⟨.hbm, 93, rfl⟩
abbrev main_v58 : Ref sig .tc := ⟨.hbm, 94, rfl⟩
abbrev main_c_17 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_18 : Ref sig .tc := ⟨.hbm, 103, rfl⟩
abbrev main_v66 : Ref sig .tc := ⟨.hbm, 104, rfl⟩
abbrev main_v67 : Ref sig .tc := ⟨.hbm, 105, rfl⟩
abbrev main_c_19 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_20 : Ref sig .tc := ⟨.hbm, 110, rfl⟩
abbrev main_v71 : Ref sig .tc := ⟨.hbm, 111, rfl⟩
abbrev main_v72 : Ref sig .tc := ⟨.hbm, 112, rfl⟩
abbrev main_c_21 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_22 : Ref sig .tc := ⟨.hbm, 121, rfl⟩
abbrev main_v80 : Ref sig .tc := ⟨.hbm, 122, rfl⟩
abbrev main_v81 : Ref sig .tc := ⟨.hbm, 123, rfl⟩
abbrev main_c_23 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_24 : Ref sig .tc := ⟨.hbm, 128, rfl⟩
abbrev main_v85 : Ref sig .tc := ⟨.hbm, 129, rfl⟩
abbrev main_v86 : Ref sig .tc := ⟨.hbm, 130, rfl⟩
abbrev main_c_25 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_c_26 : Ref sig .tc := ⟨.hbm, 139, rfl⟩
abbrev main_v94 : Ref sig .tc := ⟨.hbm, 140, rfl⟩
abbrev main_v95 : Ref sig .tc := ⟨.hbm, 141, rfl⟩
abbrev main_c_27 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_c_28 : Ref sig .tc := ⟨.hbm, 146, rfl⟩
abbrev main_v99 : Ref sig .tc := ⟨.hbm, 147, rfl⟩
abbrev main_v100 : Ref sig .tc := ⟨.hbm, 148, rfl⟩
abbrev main_c_29 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_30 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_31 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_32 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_33 : Ref sig .tc := ⟨.hbm, 192, rfl⟩
abbrev main_v140 : Ref sig .tc := ⟨.hbm, 193, rfl⟩
abbrev main_v141 : Ref sig .tc := ⟨.hbm, 194, rfl⟩
abbrev main_cst_34 : Ref sig .tc := ⟨.hbm, 195, rfl⟩
abbrev main_v142 : Ref sig .tc := ⟨.hbm, 196, rfl⟩
abbrev main_v143 : Ref sig .tc := ⟨.hbm, 197, rfl⟩
abbrev main_cst_35 : Ref sig .tc := ⟨.hbm, 198, rfl⟩
abbrev main_v144 : Ref sig .tc := ⟨.hbm, 199, rfl⟩
abbrev main_v145 : Ref sig .tc := ⟨.hbm, 200, rfl⟩
abbrev main_cst_36 : Ref sig .tc := ⟨.hbm, 201, rfl⟩
abbrev main_c_37 : Ref sig .tc := ⟨.hbm, 202, rfl⟩
abbrev main_call2_v0 : Ref sig .tc := ⟨.hbm, 203, rfl⟩
abbrev main_call2_v1 : Ref sig .tc := ⟨.hbm, 204, rfl⟩
abbrev main_call2_v2 : Ref sig .tc := ⟨.hbm, 205, rfl⟩
abbrev main_call2_v3 : Ref sig .tc := ⟨.hbm, 206, rfl⟩
abbrev main_call2_v4 : Ref sig .tc := ⟨.hbm, 207, rfl⟩
abbrev main_v146 : Ref sig .tc := ⟨.hbm, 208, rfl⟩
abbrev main_cst_38 : Ref sig .tc := ⟨.hbm, 209, rfl⟩
abbrev main_v147 : Ref sig .tc := ⟨.hbm, 210, rfl⟩
abbrev main_v148 : Ref sig .tc := ⟨.hbm, 211, rfl⟩
abbrev main_cst_39 : Ref sig .tc := ⟨.hbm, 212, rfl⟩
abbrev main_v149 : Ref sig .tc := ⟨.hbm, 213, rfl⟩
abbrev main_v150 : Ref sig .tc := ⟨.hbm, 214, rfl⟩
abbrev main_cst_40 : Ref sig .tc := ⟨.hbm, 215, rfl⟩
abbrev main_v151 : Ref sig .tc := ⟨.hbm, 216, rfl⟩
abbrev main_v152 : Ref sig .tc := ⟨.hbm, 217, rfl⟩
abbrev main_cst_41 : Ref sig .tc := ⟨.hbm, 218, rfl⟩
abbrev main_c_42 : Ref sig .tc := ⟨.hbm, 219, rfl⟩
abbrev main_call3_v0 : Ref sig .tc := ⟨.hbm, 220, rfl⟩
abbrev main_call3_v1 : Ref sig .tc := ⟨.hbm, 221, rfl⟩
abbrev main_call3_v2 : Ref sig .tc := ⟨.hbm, 222, rfl⟩
abbrev main_call3_v3 : Ref sig .tc := ⟨.hbm, 223, rfl⟩
abbrev main_call3_v4 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_c_43 : Ref sig .tc := ⟨.hbm, 230, rfl⟩
abbrev main_v158 : Ref sig .tc := ⟨.hbm, 231, rfl⟩
abbrev main_v159 : Ref sig .tc := ⟨.hbm, 232, rfl⟩
abbrev main_c_44 : Ref sig .tc := ⟨.hbm, 233, rfl⟩
abbrev main_v160 : Ref sig .tc := ⟨.hbm, 234, rfl⟩
abbrev main_v161 : Ref sig .tc := ⟨.hbm, 235, rfl⟩
abbrev main_c_45 : Ref sig .tc := ⟨.hbm, 236, rfl⟩
abbrev main_v162 : Ref sig .tc := ⟨.hbm, 237, rfl⟩
abbrev main_v163 : Ref sig .tc := ⟨.hbm, 238, rfl⟩
abbrev main_c_46 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_c_47 : Ref sig .tc := ⟨.hbm, 246, rfl⟩
abbrev main_v170 : Ref sig .tc := ⟨.hbm, 247, rfl⟩
abbrev main_v171 : Ref sig .tc := ⟨.hbm, 248, rfl⟩
abbrev main_c_48 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_c_49 : Ref sig .tc := ⟨.hbm, 253, rfl⟩
abbrev main_v175 : Ref sig .tc := ⟨.hbm, 254, rfl⟩
abbrev main_v176 : Ref sig .tc := ⟨.hbm, 255, rfl⟩
abbrev main_c_50 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_c_51 : Ref sig .tc := ⟨.hbm, 264, rfl⟩
abbrev main_v184 : Ref sig .tc := ⟨.hbm, 265, rfl⟩
abbrev main_v185 : Ref sig .tc := ⟨.hbm, 266, rfl⟩
abbrev main_c_52 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_c_53 : Ref sig .tc := ⟨.hbm, 271, rfl⟩
abbrev main_v189 : Ref sig .tc := ⟨.hbm, 272, rfl⟩
abbrev main_v190 : Ref sig .tc := ⟨.hbm, 273, rfl⟩
abbrev main_c_54 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_c_55 : Ref sig .tc := ⟨.hbm, 282, rfl⟩
abbrev main_v198 : Ref sig .tc := ⟨.hbm, 283, rfl⟩
abbrev main_v199 : Ref sig .tc := ⟨.hbm, 284, rfl⟩
abbrev main_c_56 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_c_57 : Ref sig .tc := ⟨.hbm, 289, rfl⟩
abbrev main_v203 : Ref sig .tc := ⟨.hbm, 290, rfl⟩
abbrev main_v204 : Ref sig .tc := ⟨.hbm, 291, rfl⟩
abbrev main_c_58 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_c_59 : Ref sig .tc := ⟨.hbm, 300, rfl⟩
abbrev main_v212 : Ref sig .tc := ⟨.hbm, 301, rfl⟩
abbrev main_v213 : Ref sig .tc := ⟨.hbm, 302, rfl⟩
abbrev main_c_60 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_c_61 : Ref sig .tc := ⟨.hbm, 307, rfl⟩
abbrev main_v217 : Ref sig .tc := ⟨.hbm, 308, rfl⟩
abbrev main_v218 : Ref sig .tc := ⟨.hbm, 309, rfl⟩
abbrev main_c_62 : Ref sig .tc := ⟨.hbm, 310, rfl⟩
abbrev main_v219 : Ref sig .tc := ⟨.hbm, 311, rfl⟩
abbrev main_v220 : Ref sig .tc := ⟨.hbm, 312, rfl⟩
abbrev main_v221 : Ref sig .tc := ⟨.hbm, 313, rfl⟩
abbrev main_v222 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_cst_63 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_v232 : Ref sig .tc := ⟨.hbm, 325, rfl⟩
abbrev main_v233 : Ref sig .tc := ⟨.hbm, 326, rfl⟩
abbrev main_v234 : Ref sig .tc := ⟨.hbm, 327, rfl⟩
abbrev main_cst_64 : Ref sig .tc := ⟨.hbm, 328, rfl⟩
abbrev main_v235 : Ref sig .tc := ⟨.hbm, 329, rfl⟩
abbrev main_v236 : Ref sig .tc := ⟨.hbm, 330, rfl⟩
abbrev main_v237 : Ref sig .tc := ⟨.hbm, 331, rfl⟩
abbrev main_v238 : Ref sig .tc := ⟨.hbm, 332, rfl⟩
abbrev main_v239 : Ref sig .tc := ⟨.hbm, 333, rfl⟩
abbrev main_v240 : Ref sig .tc := ⟨.hbm, 334, rfl⟩
abbrev main_v241 : Ref sig .tc := ⟨.hbm, 335, rfl⟩
abbrev main_v242 : Ref sig .tc := ⟨.hbm, 336, rfl⟩
abbrev main_v243 : Ref sig .tc := ⟨.hbm, 337, rfl⟩
abbrev main_cst_65 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_v252 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_v256 : Ref sig .tc := ⟨.hbm, 351, rfl⟩
abbrev main_v257 : Ref sig .tc := ⟨.hbm, 352, rfl⟩
abbrev main_v258 : Ref sig .tc := ⟨.hbm, 353, rfl⟩
abbrev main_cst_66 : Ref sig .tc := ⟨.hbm, 354, rfl⟩
abbrev main_v259 : Ref sig .tc := ⟨.hbm, 355, rfl⟩
abbrev main_v260 : Ref sig .tc := ⟨.hbm, 356, rfl⟩
abbrev main_cst_67 : Ref sig .tc := ⟨.hbm, 357, rfl⟩
abbrev main_v261 : Ref sig .tc := ⟨.hbm, 358, rfl⟩
abbrev main_v262 : Ref sig .tc := ⟨.hbm, 359, rfl⟩
abbrev main_cst_68 : Ref sig .tc := ⟨.hbm, 360, rfl⟩
abbrev main_v263 : Ref sig .tc := ⟨.hbm, 361, rfl⟩
abbrev main_v264 : Ref sig .tc := ⟨.hbm, 362, rfl⟩
abbrev main_cst_69 : Ref sig .tc := ⟨.hbm, 363, rfl⟩
abbrev main_c_70 : Ref sig .tc := ⟨.hbm, 364, rfl⟩
abbrev main_call4_v0 : Ref sig .tc := ⟨.hbm, 365, rfl⟩
abbrev main_call4_v1 : Ref sig .tc := ⟨.hbm, 366, rfl⟩
abbrev main_call4_v2 : Ref sig .tc := ⟨.hbm, 367, rfl⟩
abbrev main_call4_v3 : Ref sig .tc := ⟨.hbm, 368, rfl⟩
abbrev main_call4_v4 : Ref sig .tc := ⟨.hbm, 369, rfl⟩
abbrev main_v265 : Ref sig .tc := ⟨.hbm, 370, rfl⟩
abbrev main_cst_71 : Ref sig .tc := ⟨.hbm, 371, rfl⟩
abbrev main_v266 : Ref sig .tc := ⟨.hbm, 372, rfl⟩
abbrev main_v267 : Ref sig .tc := ⟨.hbm, 373, rfl⟩
abbrev main_cst_72 : Ref sig .tc := ⟨.hbm, 374, rfl⟩
abbrev main_v268 : Ref sig .tc := ⟨.hbm, 375, rfl⟩
abbrev main_v269 : Ref sig .tc := ⟨.hbm, 376, rfl⟩
abbrev main_cst_73 : Ref sig .tc := ⟨.hbm, 377, rfl⟩
abbrev main_v270 : Ref sig .tc := ⟨.hbm, 378, rfl⟩
abbrev main_v271 : Ref sig .tc := ⟨.hbm, 379, rfl⟩
abbrev main_cst_74 : Ref sig .tc := ⟨.hbm, 380, rfl⟩
abbrev main_c_75 : Ref sig .tc := ⟨.hbm, 381, rfl⟩
abbrev main_call5_v0 : Ref sig .tc := ⟨.hbm, 382, rfl⟩
abbrev main_call5_v1 : Ref sig .tc := ⟨.hbm, 383, rfl⟩
abbrev main_call5_v2 : Ref sig .tc := ⟨.hbm, 384, rfl⟩
abbrev main_call5_v3 : Ref sig .tc := ⟨.hbm, 385, rfl⟩
abbrev main_call5_v4 : Ref sig .tc := ⟨.hbm, 386, rfl⟩
abbrev main_v272 : Ref sig .tc := ⟨.hbm, 387, rfl⟩
abbrev main_v273 : Ref sig .tc := ⟨.hbm, 388, rfl⟩
abbrev main_v274 : Ref sig .tc := ⟨.hbm, 389, rfl⟩
abbrev main_v275 : Ref sig .tc := ⟨.hbm, 390, rfl⟩
abbrev main_v276 : Ref sig .tc := ⟨.hbm, 391, rfl⟩
abbrev main_c_76 : Ref sig .tc := ⟨.hbm, 392, rfl⟩
abbrev main_v277 : Ref sig .tc := ⟨.hbm, 393, rfl⟩
abbrev main_v278 : Ref sig .tc := ⟨.hbm, 394, rfl⟩
abbrev main_c_77 : Ref sig .tc := ⟨.hbm, 395, rfl⟩
abbrev main_v279 : Ref sig .tc := ⟨.hbm, 396, rfl⟩
abbrev main_v280 : Ref sig .tc := ⟨.hbm, 397, rfl⟩
abbrev main_c_78 : Ref sig .tc := ⟨.hbm, 398, rfl⟩
abbrev main_v281 : Ref sig .tc := ⟨.hbm, 399, rfl⟩
abbrev main_v282 : Ref sig .tc := ⟨.hbm, 400, rfl⟩
abbrev main_c_79 : Ref sig .tc := ⟨.hbm, 401, rfl⟩
abbrev main_v283 : Ref sig .tc := ⟨.hbm, 402, rfl⟩
abbrev main_v284 : Ref sig .tc := ⟨.hbm, 403, rfl⟩
abbrev main_v285 : Ref sig .tc := ⟨.hbm, 404, rfl⟩
abbrev main_v286 : Ref sig .tc := ⟨.hbm, 405, rfl⟩
abbrev main_v287 : Ref sig .tc := ⟨.hbm, 406, rfl⟩
abbrev main_v288 : Ref sig .tc := ⟨.hbm, 407, rfl⟩
abbrev main_c_80 : Ref sig .tc := ⟨.hbm, 408, rfl⟩
abbrev main_v289 : Ref sig .tc := ⟨.hbm, 409, rfl⟩
abbrev main_v290 : Ref sig .tc := ⟨.hbm, 410, rfl⟩
abbrev main_c_81 : Ref sig .tc := ⟨.hbm, 411, rfl⟩
abbrev main_v291 : Ref sig .tc := ⟨.hbm, 412, rfl⟩
abbrev main_v292 : Ref sig .tc := ⟨.hbm, 413, rfl⟩
abbrev main_v293 : Ref sig .tc := ⟨.hbm, 414, rfl⟩
abbrev main_c_82 : Ref sig .tc := ⟨.hbm, 415, rfl⟩
abbrev main_v294 : Ref sig .tc := ⟨.hbm, 416, rfl⟩
abbrev main_v295 : Ref sig .tc := ⟨.hbm, 417, rfl⟩
abbrev main_c_83 : Ref sig .tc := ⟨.hbm, 418, rfl⟩
abbrev main_v296 : Ref sig .tc := ⟨.hbm, 419, rfl⟩
abbrev main_v297 : Ref sig .tc := ⟨.hbm, 420, rfl⟩
abbrev main_v298 : Ref sig .tc := ⟨.hbm, 421, rfl⟩
abbrev main_v299 : Ref sig .tc := ⟨.hbm, 422, rfl⟩
abbrev main_v300 : Ref sig .tc := ⟨.hbm, 423, rfl⟩
abbrev main_v301 : Ref sig .tc := ⟨.hbm, 424, rfl⟩
abbrev main_v302 : Ref sig .tc := ⟨.hbm, 425, rfl⟩
abbrev main_c_84 : Ref sig .tc := ⟨.hbm, 426, rfl⟩
abbrev main_v303 : Ref sig .tc := ⟨.hbm, 427, rfl⟩
abbrev main_v304 : Ref sig .tc := ⟨.hbm, 428, rfl⟩
abbrev main_c_85 : Ref sig .tc := ⟨.hbm, 429, rfl⟩
abbrev main_v305 : Ref sig .tc := ⟨.hbm, 430, rfl⟩
abbrev main_v306 : Ref sig .tc := ⟨.hbm, 431, rfl⟩
abbrev main_v307 : Ref sig .tc := ⟨.hbm, 432, rfl⟩
abbrev main_c_86 : Ref sig .tc := ⟨.hbm, 433, rfl⟩
abbrev main_v308 : Ref sig .tc := ⟨.hbm, 434, rfl⟩
abbrev main_v309 : Ref sig .tc := ⟨.hbm, 435, rfl⟩
abbrev main_c_87 : Ref sig .tc := ⟨.hbm, 436, rfl⟩
abbrev main_v310 : Ref sig .tc := ⟨.hbm, 437, rfl⟩
abbrev main_v311 : Ref sig .tc := ⟨.hbm, 438, rfl⟩
abbrev main_v312 : Ref sig .tc := ⟨.hbm, 439, rfl⟩
abbrev main_v313 : Ref sig .tc := ⟨.hbm, 440, rfl⟩
abbrev main_v314 : Ref sig .tc := ⟨.hbm, 441, rfl⟩
abbrev main_v315 : Ref sig .tc := ⟨.hbm, 442, rfl⟩
abbrev main_v316 : Ref sig .tc := ⟨.hbm, 443, rfl⟩
abbrev main_c_88 : Ref sig .tc := ⟨.hbm, 444, rfl⟩
abbrev main_v317 : Ref sig .tc := ⟨.hbm, 445, rfl⟩
abbrev main_v318 : Ref sig .tc := ⟨.hbm, 446, rfl⟩
abbrev main_c_89 : Ref sig .tc := ⟨.hbm, 447, rfl⟩
abbrev main_v319 : Ref sig .tc := ⟨.hbm, 448, rfl⟩
abbrev main_v320 : Ref sig .tc := ⟨.hbm, 449, rfl⟩
abbrev main_v321 : Ref sig .tc := ⟨.hbm, 450, rfl⟩
abbrev main_c_90 : Ref sig .tc := ⟨.hbm, 451, rfl⟩
abbrev main_v322 : Ref sig .tc := ⟨.hbm, 452, rfl⟩
abbrev main_v323 : Ref sig .tc := ⟨.hbm, 453, rfl⟩
abbrev main_c_91 : Ref sig .tc := ⟨.hbm, 454, rfl⟩
abbrev main_v324 : Ref sig .tc := ⟨.hbm, 455, rfl⟩
abbrev main_v325 : Ref sig .tc := ⟨.hbm, 456, rfl⟩
abbrev main_v326 : Ref sig .tc := ⟨.hbm, 457, rfl⟩
abbrev main_v327 : Ref sig .tc := ⟨.hbm, 458, rfl⟩
abbrev main_v328 : Ref sig .tc := ⟨.hbm, 459, rfl⟩
abbrev main_v329 : Ref sig .tc := ⟨.hbm, 460, rfl⟩
abbrev main_v330 : Ref sig .tc := ⟨.hbm, 461, rfl⟩
abbrev main_c_92 : Ref sig .tc := ⟨.hbm, 462, rfl⟩
abbrev main_v331 : Ref sig .tc := ⟨.hbm, 463, rfl⟩
abbrev main_v332 : Ref sig .tc := ⟨.hbm, 464, rfl⟩
abbrev main_c_93 : Ref sig .tc := ⟨.hbm, 465, rfl⟩
abbrev main_v333 : Ref sig .tc := ⟨.hbm, 466, rfl⟩
abbrev main_v334 : Ref sig .tc := ⟨.hbm, 467, rfl⟩
abbrev main_v335 : Ref sig .tc := ⟨.hbm, 468, rfl⟩
abbrev main_c_94 : Ref sig .tc := ⟨.hbm, 469, rfl⟩
abbrev main_v336 : Ref sig .tc := ⟨.hbm, 470, rfl⟩
abbrev main_v337 : Ref sig .tc := ⟨.hbm, 471, rfl⟩
abbrev main_c_95 : Ref sig .tc := ⟨.hbm, 472, rfl⟩
abbrev main_v338 : Ref sig .tc := ⟨.hbm, 473, rfl⟩
abbrev main_v339 : Ref sig .tc := ⟨.hbm, 474, rfl⟩
abbrev main_v340 : Ref sig .tc := ⟨.hbm, 475, rfl⟩
abbrev main_v341 : Ref sig .tc := ⟨.hbm, 476, rfl⟩
abbrev main_v342 : Ref sig .tc := ⟨.hbm, 477, rfl⟩
abbrev main_v343 : Ref sig .tc := ⟨.hbm, 478, rfl⟩
abbrev main_v344 : Ref sig .tc := ⟨.hbm, 479, rfl⟩
abbrev main_cst_96 : Ref sig .tc := ⟨.hbm, 480, rfl⟩
abbrev main_v345 : Ref sig .tc := ⟨.hbm, 481, rfl⟩
abbrev main_v346 : Ref sig .tc := ⟨.hbm, 482, rfl⟩
abbrev main_v347 : Ref sig .tc := ⟨.hbm, 483, rfl⟩
abbrev main_v348 : Ref sig .tc := ⟨.hbm, 484, rfl⟩
abbrev main_v349 : Ref sig .tc := ⟨.hbm, 485, rfl⟩
abbrev main_v350 : Ref sig .tc := ⟨.hbm, 486, rfl⟩
abbrev main_v351 : Ref sig .tc := ⟨.hbm, 487, rfl⟩
abbrev main_v352 : Ref sig .tc := ⟨.hbm, 488, rfl⟩
abbrev main_v353 : Ref sig .tc := ⟨.hbm, 489, rfl⟩
abbrev main_cst_97 : Ref sig .tc := ⟨.hbm, 490, rfl⟩
abbrev main_v354 : Ref sig .tc := ⟨.hbm, 491, rfl⟩
abbrev main_v355 : Ref sig .tc := ⟨.hbm, 492, rfl⟩
abbrev main_v356 : Ref sig .tc := ⟨.hbm, 493, rfl⟩
abbrev main_v357 : Ref sig .tc := ⟨.hbm, 494, rfl⟩
abbrev main_v358 : Ref sig .tc := ⟨.hbm, 495, rfl⟩
abbrev main_v359 : Ref sig .tc := ⟨.hbm, 496, rfl⟩
abbrev main_v360 : Ref sig .tc := ⟨.hbm, 497, rfl⟩
abbrev main_v361 : Ref sig .tc := ⟨.hbm, 498, rfl⟩
abbrev main_v362 : Ref sig .tc := ⟨.hbm, 499, rfl⟩
abbrev main_cst_98 : Ref sig .tc := ⟨.hbm, 500, rfl⟩
abbrev main_v363 : Ref sig .tc := ⟨.hbm, 501, rfl⟩
abbrev main_v364 : Ref sig .tc := ⟨.hbm, 502, rfl⟩
abbrev main_v365 : Ref sig .tc := ⟨.hbm, 503, rfl⟩
abbrev main_v366 : Ref sig .tc := ⟨.hbm, 504, rfl⟩
abbrev main_v367 : Ref sig .tc := ⟨.hbm, 505, rfl⟩
abbrev main_v368 : Ref sig .tc := ⟨.hbm, 506, rfl⟩
abbrev main_v369 : Ref sig .tc := ⟨.hbm, 507, rfl⟩
abbrev main_v370 : Ref sig .tc := ⟨.hbm, 508, rfl⟩
abbrev main_v371 : Ref sig .tc := ⟨.hbm, 509, rfl⟩
abbrev main_v372 : Ref sig .tc := ⟨.hbm, 510, rfl⟩
abbrev main_v373 : Ref sig .tc := ⟨.hbm, 511, rfl⟩
abbrev main_v374 : Ref sig .tc := ⟨.hbm, 512, rfl⟩
abbrev main_v375 : Ref sig .tc := ⟨.hbm, 513, rfl⟩
abbrev main_v376 : Ref sig .tc := ⟨.hbm, 514, rfl⟩
abbrev main_v377 : Ref sig .tc := ⟨.hbm, 515, rfl⟩
abbrev main_v378 : Ref sig .tc := ⟨.hbm, 516, rfl⟩
abbrev main_v379 : Ref sig .tc := ⟨.hbm, 517, rfl⟩

abbrev nD : Nat := 1
abbrev τ : Topo := Topo.v7x

variable {F : FTy → Type} [FloatOps F]

class Facts₀ : Prop where
  shapeCasts_S8192x256x3_S2097152x3 : S8192x256x3.ShapeCasts S2097152x3
  slices_S2x3_S1x3_0_0 : S2x3.Slices ![0, 0] S1x3
  shapeCasts_S1x3_S3 : S1x3.ShapeCasts S3
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  slices_S2x3_S1x3_1_0 : S2x3.Slices ![1, 0] S1x3
  bcast_S_S3 : S_.BroadcastsInDim S3 (![] : Fin 0 → Fin S3.rank)
  bcast_S_S2097152x3 : S_.BroadcastsInDim S2097152x3 (![] : Fin 0 → Fin S2097152x3.rank)
  slices_S2097152x3_S2097152x1_0_0 : S2097152x3.Slices ![0, 0] S2097152x1
  shapeCasts_S2097152x1_S2097152 : S2097152x1.ShapeCasts S2097152
  slices_S2097152x3_S2097152x1_0_1 : S2097152x3.Slices ![0, 1] S2097152x1
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  bcast_S2097152_S1x2097152_1 : S2097152.BroadcastsInDim S1x2097152 (![1] : Fin 1 → Fin S1x2097152.rank)
  bcast_S1x2097152_S8x2097152_0_1 : S1x2097152.BroadcastsInDim S8x2097152 (![0, 1] : Fin 2 → Fin S8x2097152.rank)
  transposes_S8x2097152_S2097152x8_1_0 : S8x2097152.Transposes [1, 0] S2097152x8
  slices_S2097152x3_S2097152x1_0_2 : S2097152x3.Slices ![0, 2] S2097152x1
  transposes_S64x8_S8x64_1_0 : S64x8.Transposes [1, 0] S8x64
  transposes_S1x64_S64x1_1_0 : S1x64.Transposes [1, 0] S64x1
  shapeCasts_S2097152x1_S8192x256x1 : S2097152x1.ShapeCasts S8192x256x1
  gather_S8x256x256_S2097152x2_S8x2097152_0_12_n_n_12_1_811_wf : GatherDims.WF S8x256x256 S2097152x2 S8x2097152 [0] [1, 2] [] [1, 2] [] 1 ![8, 1, 1]
  dot_S2097152x8_S8x64_S2097152x64_1_0_0_1_n_n_wf : DotDims.WF S2097152x8 S8x64 S2097152x64 [1] [0] [0] [1] [] []
  dot_S2097152x64_S64x1_S2097152x1_1_0_0_1_n_n_wf : DotDims.WF S2097152x64 S64x1 S2097152x1 [1] [0] [0] [1] [] []

variable [Facts₀]

def gather_S8x256x256_S2097152x2_S8x2097152_0_12_n_n_12_1_811 : GatherDims S8x256x256 S2097152x2 S8x2097152 where
  offsetDims := [0]
  collapsedSliceDims := [1, 2]
  operandBatchingDims := []
  startIndicesBatchingDims := []
  startIndexMap := [1, 2]
  indexVectorDim := 1
  sliceSizes := ![8, 1, 1]
  wf := gather_S8x256x256_S2097152x2_S8x2097152_0_12_n_n_12_1_811_wf
def dot_S2097152x8_S8x64_S2097152x64_1_0_0_1_n_n : DotDims S2097152x8 S8x64 S2097152x64 where
  lhsContracting := [1]
  rhsContracting := [0]
  lhsNonContracting := [0]
  rhsNonContracting := [1]
  lhsBatch := []
  rhsBatch := []
  wf := dot_S2097152x8_S8x64_S2097152x64_1_0_0_1_n_n_wf
def dot_S2097152x64_S64x1_S2097152x1_1_0_0_1_n_n : DotDims S2097152x64 S64x1 S2097152x1 where
  lhsContracting := [1]
  rhsContracting := [0]
  lhsNonContracting := [0]
  rhsNonContracting := [1]
  lhsBatch := []
  rhsBatch := []
  wf := dot_S2097152x64_S64x1_S2097152x1_1_0_0_1_n_n_wf

class Facts : Prop extends Facts₀ where

variable [Facts]
-- ==== Proof.TwoHot.lean ====
/-
  Two-hot sums on the extended reals.

  A bilinear sample of a table along one axis is the table's entries at two neighbouring positions weighted
  by `1 - w` and `w`.  Written as a contraction of the whole axis against a weight row that is zero except
  at those two positions, it is the same number: every other term is a product with zero, and where the two
  positions coincide the two weights add inside one term, which distributes because both are nonnegative.
-/
import Mathlib

noncomputable section

namespace Cert.TwoHot

open Finset

/-- The weight row: `u` at position `i0` plus `v` at position `i1`, zero elsewhere. -/
def row {n : Nat} (i0 i1 : Fin n) (u v : EReal) (w : Fin n) : EReal :=
  (if w = i0 then u else 0) + (if w = i1 then v else 0)

/-- Contracting `a` against the two-hot row picks `a i0 * u + a i1 * v`, for nonnegative weights. -/
theorem sum_mul_row {n : Nat} (a : Fin n → EReal) (i0 i1 : Fin n) (u v : EReal) (hu : 0 ≤ u) (hv : 0 ≤ v) :
    ∑ w : Fin n, a w * row i0 i1 u v w = a i0 * u + a i1 * v := by
  have h : ∀ w : Fin n, a w * row i0 i1 u v w
      = a w * (if w = i0 then u else 0) + a w * (if w = i1 then v else 0) := by
    intro w
    unfold row
    apply EReal.left_distrib_of_nonneg
    · split_ifs <;> simp [hu]
    · split_ifs <;> simp [hv]
  simp only [h, Finset.sum_add_distrib, mul_ite, mul_zero, Finset.sum_ite_eq', Finset.mem_univ, if_true]

end Cert.TwoHot

end
-- ==== Proof.Spec.lean ====
/-
  The density field both programs compute, as one function of the argument arrays.

  A point's three coordinates are normalised against the bounding box; each coordinate `c` is mapped to the
  position `pos c = min 255 (max 0 ((c + 1) * 127.5))` on a 256-cell axis, which is always a real number in
  [0, 255] whatever extended real `c` is.  `cell c` is the integer part of the position, `next c` the cell
  after it (kept at 255), `frac c` the fractional part.  A plane of features is sampled bilinearly at a pair of
  coordinates, the three planes' samples are multiplied, and two small linear maps and an exponential follow.
-/
import Mathlib
import Idealize.ShloMosaic.PureOps.Ideal
import Idealize.ShloMosaic.Lib.ValueIdx
import proofs.«108864_j88381837017835_2_alg».proof.Proof.TwoHot

noncomputable section

namespace Cert.Spec

open Idealize.ShloMosaic Idealize.ShloMosaic.ValueIdx Finset

/-- The position of a normalised coordinate on an axis of 256 cells. -/
def pos (c : EReal) : EReal := min ((255 : ℝ) : EReal) (max 0 ((c + 1) * ((127.5 : ℝ) : EReal)))

/-- The cell a coordinate falls in: the integer part of its position (a number from 0 to 255). -/
def cell (c : EReal) : ℕ := min ⌊(pos c).toReal⌋₊ 255

/-- The neighbouring cell, kept on the axis. -/
def next (c : EReal) : ℕ := min (cell c + 1) 255

theorem cell_lt (c : EReal) : cell c < 256 := by unfold cell; omega
theorem next_lt (c : EReal) : next c < 256 := by unfold next; omega

def cellF (c : EReal) : Fin 256 := ⟨cell c, cell_lt c⟩
def nextF (c : EReal) : Fin 256 := ⟨next c, next_lt c⟩

/-- The fractional part of the position. -/
def frac (c : EReal) : EReal := pos c - Ideal.liftRound Int.floor (pos c)

/-- One bilinear sample of a 256 × 256 table `g` (rows indexed by the second coordinate, columns by the
    first): the four neighbours weighted by the fractional parts. -/
def bilerp (g : Fin 256 → Fin 256 → EReal) (cx cy : EReal) : EReal :=
  (g (cellF cy) (cellF cx) * (1 - frac cx) + g (cellF cy) (nextF cx) * frac cx) * (1 - frac cy)
    + (g (nextF cy) (cellF cx) * (1 - frac cx) + g (nextF cy) (nextF cx) * frac cx) * frac cy

/-- The weight row of a coordinate: `1 - frac` at its cell plus `frac` at the next one. -/
def weights (c : EReal) (w : Fin 256) : EReal := Cert.TwoHot.row (cellF c) (nextF c) (1 - frac c) (frac c) w

/-- The same sample written as two contractions against weight rows. -/
def bilerpDense (g : Fin 256 → Fin 256 → EReal) (cx cy : EReal) : EReal :=
  ∑ h : Fin 256, (∑ w : Fin 256, g h w * weights cx w) * weights cy h

/-- Row `f * 256 + h` of a stack of eight 256 × 256 planes laid out as one 2048 × 256 matrix. -/
def planeRow (f : Fin 8) (h : Fin 256) : Fin 2048 := ⟨f.val * 256 + h.val, by omega⟩

/-- A coordinate normalised against the bounding box `[a0, a1]`: `(p - a0) * (2 / (a1 - a0)) - 1`. -/
def coord (p a0 a1 : EReal) : EReal :=
  (p - a0) * Ideal.div (Ideal.ofBits .f32 0x40000000#32) (a1 - a0) - Ideal.ofBits .f32 0x3F800000#32

/-- Point `n` of the flattened list of points is sample `n % 256` of ray `n / 256`. -/
def ptRow (n : Fin 2097152) : Fin 8192 := ⟨n.val / 256, by omega⟩
def ptCol (n : Fin 2097152) : Fin 256 := ⟨n.val % 256, Nat.mod_lt _ (by norm_num)⟩

/-- Coordinate `k` of point `n`, normalised against the bounding box. -/
def coords (pts : (⟨3, ![8192, 256, 3]⟩ : Shape).Idx → EReal) (aabb : (⟨2, ![2, 3]⟩ : Shape).Idx → EReal)
    (k : Fin 3) (n : Fin 2097152) : EReal :=
  coord (pts (ix3 (ptRow n) (ptCol n) k)) (aabb (ix2 0 k)) (aabb (ix2 1 k))

/-- The density at a point with normalised coordinates `c0 c1 c2`. -/
def density (g01 g02 g12 : Fin 8 → Fin 256 → Fin 256 → EReal) (w1 : Fin 64 → Fin 8 → EReal) (w2 : Fin 64 → EReal)
    (c0 c1 c2 : EReal) : EReal :=
  Ideal.exp (∑ j : Fin 64, w2 j * ∑ f : Fin 8, w1 j f *
    ((bilerp (g01 f) c0 c1 * bilerp (g02 f) c0 c2) * bilerp (g12 f) c1 c2))

/-- The whole result array as a function of the seven argument arrays. -/
def G (pts : (⟨3, ![8192, 256, 3]⟩ : Shape).Idx → EReal) (aabb : (⟨2, ![2, 3]⟩ : Shape).Idx → EReal)
    (g01 g02 g12 : (⟨3, ![8, 256, 256]⟩ : Shape).Idx → EReal) (w1 : (⟨2, ![64, 8]⟩ : Shape).Idx → EReal)
    (w2 : (⟨2, ![1, 64]⟩ : Shape).Idx → EReal) : (⟨3, ![8192, 256, 1]⟩ : Shape).Idx → EReal := fun i =>
  let c : Fin 3 → EReal := fun k => coord (pts (ix3 (i 0) (i 1) k)) (aabb (ix2 0 k)) (aabb (ix2 1 k))
  density (fun f h w => g01 (ix3 f h w)) (fun f h w => g02 (ix3 f h w)) (fun f h w => g12 (ix3 f h w))
    (fun j f => w1 (ix2 j f)) (fun j => w2 (ix2 0 j)) (c 0) (c 1) (c 2)

/-! ## Facts about positions -/

/-- The position is a real number between 0 and 255. -/
theorem pos_real (c : EReal) : ∃ r : ℝ, pos c = (r : EReal) ∧ 0 ≤ r ∧ r ≤ 255 := by
  have h0 : (0 : EReal) ≤ pos c :=
    le_min (by exact_mod_cast (by norm_num : (0 : ℝ) ≤ 255)) (le_max_left _ _)
  have h1 : pos c ≤ ((255 : ℝ) : EReal) := min_le_left _ _
  have hbot : pos c ≠ ⊥ := fun h => by rw [h] at h0; exact absurd h0 (by simp)
  have htop : pos c ≠ ⊤ := fun h => by rw [h] at h1; exact absurd h1 (by simp)
  refine ⟨(pos c).toReal, (EReal.coe_toReal htop hbot).symm, ?_, ?_⟩
  · exact EReal.toReal_nonneg h0
  · have h := h1
    rw [← EReal.coe_toReal htop hbot] at h
    exact_mod_cast h

/-- The floor of the position is the cell. -/
theorem floor_pos (c : EReal) : Ideal.liftRound Int.floor (pos c) = ((cell c : ℝ) : EReal) := by
  obtain ⟨r, hr, h0, h1⟩ := pos_real c
  have hfl : ⌊r⌋₊ ≤ 255 := Nat.floor_le_of_le (by exact_mod_cast h1)
  unfold cell
  rw [hr, Ideal.liftRound_coe, EReal.toReal_coe, min_eq_left hfl, natCast_floor_eq_intCast_floor h0]

theorem frac_nonneg (c : EReal) : 0 ≤ frac c := by
  obtain ⟨r, hr, -, -⟩ := pos_real c
  unfold frac
  rw [hr, Ideal.liftRound_coe, ← EReal.coe_sub]
  exact_mod_cast sub_nonneg.mpr (Int.floor_le r)

theorem one_sub_frac_nonneg (c : EReal) : 0 ≤ 1 - frac c := by
  obtain ⟨r, hr, -, -⟩ := pos_real c
  unfold frac
  rw [hr, Ideal.liftRound_coe, ← EReal.coe_sub, ← EReal.coe_one, ← EReal.coe_sub]
  have h : r - (⌊r⌋ : ℝ) ≤ 1 := by linarith [Int.lt_floor_add_one r]
  exact_mod_cast sub_nonneg.mpr h

/-- Converting the floor to a 32-bit integer gives the cell as a word. -/
theorem fptosi_floor_pos (c : EReal) :
    Ideal.fptosi 32 (Ideal.liftRound Int.floor (pos c)) = BitVec.ofNat 32 (cell c) := by
  have hc := cell_lt c
  rw [floor_pos, Ideal.fptosi, Ideal.toIntClamped_coe, if_pos (Nat.cast_nonneg _), Int.floor_natCast]
  have h : max (-((2 ^ (32 - 1) : ℕ) : ℤ)) (min (((2 ^ (32 - 1) : ℕ) : ℤ) - 1) (cell c : ℤ)) = (cell c : ℤ) := by
    norm_num
    omega
  rw [h, BitVec.ofInt_natCast]

/-- Reading the cell's word back as a signed integer gives the floor. -/
theorem sitofp_cell (c : EReal) :
    (((BitVec.ofNat 32 (cell c)).toInt : ℝ) : EReal) = Ideal.liftRound Int.floor (pos c) := by
  have hc := cell_lt c
  have h : (BitVec.ofNat 32 (cell c)).toInt = (cell c : ℤ) := by
    rw [BitVec.toInt_ofNat']
    exact Int.bmod_eq_of_le (by omega) (by omega)
  rw [floor_pos, h]
  norm_cast

/-- The two arrangements of the scale agree: `(c + 1) * 0.5 * 255 = (c + 1) * 127.5`. -/
theorem scale_assoc (c : EReal) :
    (c + 1) * ((0.5 : ℝ) : EReal) * ((255 : ℝ) : EReal) = (c + 1) * ((127.5 : ℝ) : EReal) := by
  rw [mul_assoc, ← EReal.coe_mul]; norm_num

/-- The dense form of a bilinear sample is the four-neighbour form. -/
theorem bilerpDense_eq (g : Fin 256 → Fin 256 → EReal) (cx cy : EReal) : bilerpDense g cx cy = bilerp g cx cy := by
  unfold bilerpDense bilerp weights
  simp only [Cert.TwoHot.sum_mul_row _ _ _ _ _ (one_sub_frac_nonneg cx) (frac_nonneg cx)]
  exact Cert.TwoHot.sum_mul_row _ _ _ _ _ (one_sub_frac_nonneg cy) (frac_nonneg cy)

end Cert.Spec

end
-- ==== Proof.KernelHost.lean ====
/-
  The arrays the pipelined region finds, read entry by entry.

  Before the region the program normalises the points against the bounding box and lays them out with the
  coordinate as the leading axis: entry (k, n) of that array is coordinate k of point n, normalised.  It stacks
  each group of eight 256 x 256 planes into one 2048 x 256 matrix (row f * 256 + h is row h of plane f), and passes
  the two small weight matrices on.  A change of float format is the identity on extended reals, so none of these
  steps changes a value: each entry of what the region finds is one entry of an argument array, or, for the points,
  the normalised coordinate of the specification.
-/
import proofs.«108864_j88381837017835_2_alg».proof.Proof.Gen.KernelIdeal.Frame
import proofs.«108864_j88381837017835_2_alg».proof.Proof.Spec
import Idealize.ShloMosaic.Lib.Pipeline.Value
import Idealize.ShloMosaic.Lib.IdealHost
import Idealize.ShloMosaic.Lib.Tactic

noncomputable section

open Idealize.ShloMosaic Idealize.ShloMosaic.TcCoe Idealize.SL.Sem

namespace Cert.KernelHost

open Cert.KernelIdeal Cert.KernelIdeal.Gen Idealize.ShloMosaic.ValueIdx

/-! ## Layout steps read at an index -/

section Layout
variable {α : Type}

/-- The list of points flattened: row n of the [2097152, 3] matrix is sample n % 256 of ray n / 256. -/
theorem flatten_points (x : S8192x256x3.Idx → α) (h : S8192x256x3.ShapeCasts S2097152x3) (n : Fin 2097152) (k : Fin 3) :
    shapeCast S2097152x3 x h (ix2 n k) = x (ix3 (Cert.Spec.ptRow n) (Cert.Spec.ptCol n) k) := by
  refine shapeCast_apply x h (ix2 n k) (ix3 (Cert.Spec.ptRow n) (Cert.Spec.ptCol n) k) ?_
  rw [Shape.rowMajor_val_three, Shape.rowMajor_val_two]
  show (n.val / 256 * 256 + n.val % 256) * 3 + k.val = n.val * 3 + k.val
  omega

/-- Row r of the bounding box as a vector of three. -/
theorem box_row (x : S2x3.Idx → α) (off : Nat) (r : Fin 2) (hr : r.val = off) (h : S2x3.Slices ![off, 0] S1x3)
    (h' : S1x3.ShapeCasts S3) (k : Fin 3) :
    shapeCast S3 (extractStridedSlice S1x3 ![off, 0] x h) h' (ix1 k) = x (ix2 r k) := by
  refine (shapeCast_apply _ h' (ix1 k) (ix2 0 k) ?_).trans ?_
  · rw [Shape.rowMajor_val_two, Shape.rowMajor_val_one]
    show 0 * 3 + k.val = k.val
    omega
  · refine extractStridedSlice_apply _ x h (ix2 0 k) (ix2 r k) fun a => ?_
    match a with
    | ⟨0, _⟩ => show r.val = off + 0; omega
    | ⟨1, _⟩ => show k.val = 0 + k.val; omega

/-- A vector of three repeated along every row of the [2097152, 3] matrix. -/
theorem repeat_rows (v : S3.Idx → α) (h : S3.BroadcastsInDim S1x3 ![1]) (h' : S1x3.BroadcastsInDim S2097152x3 ![0, 1])
    (n : Fin 2097152) (k : Fin 3) :
    broadcastInDim S2097152x3 ![0, 1] h' (broadcastInDim S1x3 ![1] h v) (ix2 n k) = v (ix1 k) := by
  refine (broadcastInDim_apply _ h' _ (ix2 n k) (ix2 0 k) fun a => ?_).trans ?_
  · match a with
    | ⟨0, _⟩ => rfl
    | ⟨1, _⟩ => rfl
  · refine broadcastInDim_apply _ h v (ix2 0 k) (ix1 k) fun a => ?_
    match a with
    | ⟨0, _⟩ => rfl

/-- The stack of eight planes: row f * 256 + h of the [2048, 256] matrix is row h of plane f. -/
theorem stack_planes (x : S8x256x256.Idx → α) (h : S8x256x256.ShapeCasts S2048x256) (f : Fin 8) (r : Fin 256) (w : Fin 256) :
    shapeCast S2048x256 x h (ix2 (Cert.Spec.planeRow f r) w) = x (ix3 f r w) := by
  refine shapeCast_apply x h (ix2 (Cert.Spec.planeRow f r) w) (ix3 f r w) ?_
  rw [Shape.rowMajor_val_three, Shape.rowMajor_val_two]
  show (f.val * 256 + r.val) * 256 + w.val = (f.val * 256 + r.val) * 256 + w.val
  rfl

end Layout

variable (m : (ℓ : Loc nD τ sig) → Buf (Elt Ideal) ℓ)

/-! ## What the region finds -/

/-- Entry (k, n) of the points as the region finds them is coordinate k of point n, normalised against the box. -/
theorem V16_apply (c : Dev nD) (k : Fin 3) (n : Fin 2097152) :
    (V m c main_v16 : S3x2097152.Idx → EReal) (ix2 k n)
      = Cert.Spec.coords (m ((c : Thread nD τ).loc main_arg0)) (m ((c : Thread nD τ).loc main_arg1)) k n := by
  show StableHlo.after hostOps0 (fun b => m (c, b)) (Proc.devRef .tc main_v16) (ix2 k n) = _
  after_results
  refine (transpose_apply [1, 0] _ transposes_S2097152x3_S3x2097152_1_0 (ix2 k n) (ix2 n k) fun b => ?_).trans ?_
  · match b with
    | ⟨0, _⟩ => rfl
    | ⟨1, _⟩ => rfl
  simp only [subf_apply, mulf_apply]
  unfold Cert.Spec.coords Cert.Spec.coord
  refine congrArg₂ (· - ·) (congrArg₂ (· * ·) (congrArg₂ (· - ·) ?_ ?_) ?_) ?_
  · exact flatten_points _ _ n k
  · exact (repeat_rows _ _ _ n k).trans (box_row _ 0 0 rfl _ _ k)
  · refine (repeat_rows _ _ _ n k).trans ?_
    rw [hostDivf_apply]
    refine congrArg₂ Ideal.div ?_ ?_
    · exact broadcastInDim_scalar_apply _ _ _
    · rw [subf_apply]
      exact congrArg₂ (· - ·) (box_row _ 1 1 rfl _ _ k) (box_row _ 0 0 rfl _ _ k)
  · exact broadcastInDim_scalar_apply _ _ _

/-- The first stack of planes as the region finds it: row f * 256 + h, column w is entry (f, h, w) of the argument. -/
theorem V18_apply (c : Dev nD) (f : Fin 8) (h : Fin 256) (w : Fin 256) :
    (V m c main_v18 : S2048x256.Idx → EReal) (ix2 (Cert.Spec.planeRow f h) w)
      = (m ((c : Thread nD τ).loc main_arg2) : S8x256x256.Idx → EReal) (ix3 f h w) := by
  show StableHlo.after hostOps0 (fun b => m (c, b)) (Proc.devRef .tc main_v18) (ix2 (Cert.Spec.planeRow f h) w) = _
  after_results
  simp only [truncf_apply]
  exact stack_planes _ _ f h w

/-- The second stack of planes. -/
theorem V20_apply (c : Dev nD) (f : Fin 8) (h : Fin 256) (w : Fin 256) :
    (V m c main_v20 : S2048x256.Idx → EReal) (ix2 (Cert.Spec.planeRow f h) w)
      = (m ((c : Thread nD τ).loc main_arg3) : S8x256x256.Idx → EReal) (ix3 f h w) := by
  show StableHlo.after hostOps0 (fun b => m (c, b)) (Proc.devRef .tc main_v20) (ix2 (Cert.Spec.planeRow f h) w) = _
  after_results
  simp only [truncf_apply]
  exact stack_planes _ _ f h w

/-- The third stack of planes. -/
theorem V22_apply (c : Dev nD) (f : Fin 8) (h : Fin 256) (w : Fin 256) :
    (V m c main_v22 : S2048x256.Idx → EReal) (ix2 (Cert.Spec.planeRow f h) w)
      = (m ((c : Thread nD τ).loc main_arg4) : S8x256x256.Idx → EReal) (ix3 f h w) := by
  show StableHlo.after hostOps0 (fun b => m (c, b)) (Proc.devRef .tc main_v22) (ix2 (Cert.Spec.planeRow f h) w) = _
  after_results
  simp only [truncf_apply]
  exact stack_planes _ _ f h w

/-- The first weight matrix is passed on unchanged. -/
theorem V23_apply (c : Dev nD) (j : Fin 64) (f : Fin 8) :
    (V m c main_v23 : S64x8.Idx → EReal) (ix2 j f) = (m ((c : Thread nD τ).loc main_arg5) : S64x8.Idx → EReal) (ix2 j f) := by
  show StableHlo.after hostOps0 (fun b => m (c, b)) (Proc.devRef .tc main_v23) (ix2 j f) = _
  after_results
  rfl

/-- The second weight matrix is passed on unchanged. -/
theorem V24_apply (c : Dev nD) (j : Fin 64) :
    (V m c main_v24 : S1x64.Idx → EReal) (ix2 0 j) = (m ((c : Thread nD τ).loc main_arg6) : S1x64.Idx → EReal) (ix2 0 j) := by
  show StableHlo.after hostOps0 (fun b => m (c, b)) (Proc.devRef .tc main_v24) (ix2 0 j) = _
  after_results
  rfl

end Cert.KernelHost

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«108864_j88381837017835_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibColumnSum.lean ====
/-
  A sum along axis 0 of an [n, B] vector, read at a column.

  A kernel that keeps channels down the rows of a tile and samples across its columns reduces along axis 0: the
  result at column q is the sum of the n entries of that column. On the extended reals the reduction from the
  zero accumulator is that plain sum; the library's index of the reduced axis put back into the result index is
  the entry (j, q). Every extent is generic.
-/
import Idealize.ShloMosaic.PureOps.Ideal.Laws
import Idealize.ShloMosaic.Lib.ValueIdx

namespace ColumnSum

open Idealize.ShloMosaic Idealize.ShloMosaic.ValueIdx

variable {n B : ℕ}

/-- Column q with the channel coordinate j put back on axis 0 is the entry (j, q). -/
theorem lift_col (h : Shape.Reduces ⟨2, ![n, B]⟩ [0] ⟨1, ![B]⟩) (q : Fin B) (j : Fin n) :
    h.lift (ix1 q) j = ix2 j q := by
  funext d
  apply Fin.ext
  match d with
  | ⟨0, h0⟩ =>
    show h.liftVal (ix1 q) j.val ⟨0, h0⟩ = j.val
    unfold Shape.Reduces.liftVal
    split
    · rfl
    · next hc => exact absurd rfl hc
  | ⟨1, h1⟩ =>
    show h.liftVal (ix1 q) j.val ⟨1, h1⟩ = q.val
    unfold Shape.Reduces.liftVal
    split
    · next hc => exact absurd hc Nat.one_ne_zero
    · split
      · next hlt => exact absurd hlt (Nat.not_lt_zero _)
      · rfl

/-- A sum along axis 0 from the zero accumulator, at column q: the sum of the column's n entries. -/
theorem colSum_apply (v : FVec Ideal ⟨2, ![n, B]⟩ .f32) (h : Shape.Reduces ⟨2, ![n, B]⟩ [0] ⟨1, ![B]⟩)
    (hφ : FKind.Formats .f32) (hacc : (0x00000000#32 : BitVec 32) = FKind.add.neutral .f32 hφ) (q : Fin B) :
    multiReduction .add [0] ⟨1, ![B]⟩ v 0x00000000#32 h hφ hacc (ix1 q) = ∑ j : Fin n, v (ix2 j q) := by
  refine (Ideal.multiReduction_add_single v 0x00000000#32 h hφ hacc (ix1 q)).trans ?_
  exact Finset.sum_congr rfl fun j _ => congrArg v (lift_col h q j)

end ColumnSum
-- ==== Proof.KernelPayloads.lean ====
/-
  The kernel's pure arithmetic between loads and stores, read at one entry, on the extended reals.

  Three kinds of step occur.  A matrix product of a [2048, 256] stack of planes with a [256, 2048] weight matrix,
  accumulated into zero, is at entry (r, n) the sum over the 256 contracted positions of plane entry (r, w) times
  weight entry (w, n).  A [256, 2048] slab multiplied entrywise by a weight matrix and summed down its columns is,
  at column n, the sum over the 256 rows h of slab (h, n) times weight (h, n).  The tail multiplies the three
  feature tiles entrywise, applies the two small linear maps as matrix products into zero and takes the
  exponential.  Changes of float format are the identity on extended reals, and a reshape to the same shape is
  the identity.  Put together, one feature row of one plane is the plane's bilinear sample.
-/
import proofs.«108864_j88381837017835_2_alg».proof.Proof.Gen.KernelIdeal.Skeleton
import proofs.«108864_j88381837017835_2_alg».proof.Proof.Spec
import proofs.«108864_j88381837017835_2_alg».proof.Proof.LibDotRecord
import proofs.«108864_j88381837017835_2_alg».proof.Proof.LibColumnSum
import Idealize.ShloMosaic.Lib.ValueLayout
import Idealize.ShloMosaic.Lib.Pipeline.Value

noncomputable section

namespace Cert.KernelPayloads

open Idealize.ShloMosaic Idealize.ShloMosaic.ValueIdx Cert.KernelIdeal Cert.KernelIdeal.Gen Finset

/-! ## Matrix products into zero -/

/-- Planes [2048, 256] times weights [256, 2048], at entry (r, n). -/
theorem dot_planes (g : FVec Ideal S2048x256 .bf16) (W : FVec Ideal S256x2048 .bf16) (r n : Fin 2048) :
    matmul dot_S2048x256_S256x2048_S2048x2048_1_0_0_1_n_n none g W (constant S2048x2048 .f32 0x00000000#32) (ix2 r n)
      = ∑ w : Fin 256, g (ix2 r w) * W (ix2 w n) :=
  DotRecord.matmul_zero_apply _ rfl rfl rfl rfl rfl rfl g W none r n

/-- The first linear map [64, 8] times a feature tile [8, 2048], at entry (j, n). -/
theorem dot_w1 (a : FVec Ideal S64x8 .bf16) (t : FVec Ideal S8x2048 .bf16) (j : Fin 64) (n : Fin 2048) :
    matmul dot_S64x8_S8x2048_S64x2048_1_0_0_1_n_n none a t (constant S64x2048 .f32 0x00000000#32) (ix2 j n)
      = ∑ f : Fin 8, a (ix2 j f) * t (ix2 f n) :=
  DotRecord.matmul_zero_apply _ rfl rfl rfl rfl rfl rfl a t none j n

/-- The second linear map [1, 64] times [64, 2048], at entry (0, n). -/
theorem dot_w2 (a : FVec Ideal S1x64 .bf16) (t : FVec Ideal S64x2048 .bf16) (n : Fin 2048) :
    matmul dot_S1x64_S64x2048_S1x2048_1_0_0_1_n_n none a t (constant S1x2048 .f32 0x00000000#32) (ix2 0 n)
      = ∑ j : Fin 64, a (ix2 0 j) * t (ix2 j n) :=
  DotRecord.matmul_zero_apply _ rfl rfl rfl rfl rfl rfl a t none 0 n

/-- The first plane's product: planes times weights, at entry (r, n). -/
theorem pay9_apply (W : FVec Ideal S256x2048 .bf16) (g : Vec Ideal S2048x256 .bf16) (r n : Fin 2048) :
    k0_pay9 (F := Ideal) W g (ix2 r n) = ∑ w : Fin 256, g (ix2 r w) * W (ix2 w n) := by
  unfold k0_pay9
  rw [shapeCast_self, shapeCast_self]
  exact dot_planes g W r n

/-- The third plane's product, the same. -/
theorem pay47_apply (W : FVec Ideal S256x2048 .bf16) (g : Vec Ideal S2048x256 .bf16) (r n : Fin 2048) :
    k0_pay47 (F := Ideal) W g (ix2 r n) = ∑ w : Fin 256, g (ix2 r w) * W (ix2 w n) := by
  unfold k0_pay47
  rw [shapeCast_self, shapeCast_self]
  exact dot_planes g W r n

/-- The weight entry the second plane's product builds in place from a cell mask `C`, the next-cell words `A`
    compared with the position words `I`, the fraction row `B` and the row `D` of one minus the fraction. -/
def twoHotEntry (A : IVec S1x2048 32) (B : FVec Ideal S1x2048 .f32) (I : IVec S256x2048 32) (C : IVec S256x2048 1)
    (D : FVec Ideal S1x2048 .f32) (w : Fin 256) (n : Fin 2048) : EReal :=
  Scalar.select (C (ix2 w n)) (D (ix2 0 n)) (Ideal.ofBits .f32 0x00000000#32)
    + Scalar.select (IntOp.cmpi .eq (I (ix2 w n)) (A (ix2 0 n))) (B (ix2 0 n)) (Ideal.ofBits .f32 0x00000000#32)

/-- The second plane's product, its weight matrix assembled inside the payload, at entry (r, n). -/
theorem pay27_apply (A : IVec S1x2048 32) (B : FVec Ideal S1x2048 .f32) (I : IVec S256x2048 32) (C : IVec S256x2048 1)
    (D : FVec Ideal S1x2048 .f32) (g : Vec Ideal S2048x256 .bf16) (r n : Fin 2048) :
    k0_pay27 (F := Ideal) A B I C D g (ix2 r n) = ∑ w : Fin 256, g (ix2 r w) * twoHotEntry A B I C D w n := by
  unfold k0_pay27
  rw [shapeCast_self, shapeCast_self, shapeCast_self]
  refine (dot_planes g _ r n).trans (Finset.sum_congr rfl fun w _ => congrArg (g (ix2 r w) * ·) ?_)
  show Scalar.select (C (ix2 w n)) (broadcastTo S256x2048 D broadcasts_S1x2048_S256x2048 (ix2 w n)) _
      + Scalar.select (IntOp.cmpi .eq (I (ix2 w n)) (broadcastTo S256x2048 A broadcasts_S1x2048_S256x2048 (ix2 w n)))
          (broadcastTo S256x2048 B broadcasts_S1x2048_S256x2048 (ix2 w n)) _ = _
  rw [broadcastTo_1b_ab_apply, broadcastTo_1b_ab_apply, broadcastTo_1b_ab_apply]
  rfl

/-- A reshape to the same shape changes nothing. -/
theorem pay28_eq (v : FVec Ideal S2048x2048 .f32) : k0_pay28 (F := Ideal) v = v := by
  unfold k0_pay28
  exact shapeCast_self v _

theorem pay16_eq (v : FVec Ideal S1x2048 .f32) : k0_pay16 (F := Ideal) v = v := by
  unfold k0_pay16
  exact shapeCast_self v _

theorem pay51_eq (v : FVec Ideal S1x2048 .f32) : k0_pay51 (F := Ideal) v = v := by
  unfold k0_pay51
  exact shapeCast_self v _

theorem pay3_eq (v : Vec Ideal S1x2048 .f32) : k0_pay3 (F := Ideal) v = v := by
  unfold k0_pay3
  exact shapeCast_self v _

theorem pay4_eq (v : Vec Ideal S1x2048 .f32) : k0_pay4 (F := Ideal) v = v := by
  unfold k0_pay4
  exact shapeCast_self v _

theorem pay5_eq (v : Vec Ideal S1x2048 .f32) : k0_pay5 (F := Ideal) v = v := by
  unfold k0_pay5
  exact shapeCast_self v _

/-! ## A slab times a weight matrix, summed down the columns -/

/-- The column sums of the entrywise product of a slab and a weight matrix, recast to one row, at column n. -/
theorem row_sum (S W : FVec Ideal S256x2048 .f32) (n : Fin 2048) :
    shapeCast S1x2048 (multiReduction .add [0] S2048 (mulf S W) 0x00000000#32 reduces_S256x2048_S2048 (.inl rfl) rfl)
        shapeCasts_S2048_S1x2048 (ix2 0 n)
      = ∑ h : Fin 256, S (ix2 h n) * W (ix2 h n) :=
  (shapeCast_a_1a_apply _ shapeCasts_S2048_S1x2048 0 n).trans
    (ColumnSum.colSum_apply (mulf S W) reduces_S256x2048_S2048 (.inl rfl) rfl n)

/-- Each feature row's payload is that sum (the weight matrix `W`, the loaded slab `S`). -/
theorem pay1_apply (W : FVec Ideal S256x2048 .f32) (S : Vec Ideal S256x2048 .f32) (n : Fin 2048) :
    k0_pay1 (F := Ideal) W S (ix2 0 n) = ∑ h : Fin 256, S (ix2 h n) * W (ix2 h n) := by
  unfold k0_pay1
  rw [shapeCast_self]
  exact row_sum S _ n

theorem pay11_apply (W : FVec Ideal S256x2048 .f32) (S : Vec Ideal S256x2048 .f32) (n : Fin 2048) :
    k0_pay11 (F := Ideal) W S (ix2 0 n) = ∑ h : Fin 256, S (ix2 h n) * W (ix2 h n) := by
  unfold k0_pay11
  rw [shapeCast_self]
  exact row_sum S _ n

theorem pay12_apply (W : FVec Ideal S256x2048 .f32) (S : Vec Ideal S256x2048 .f32) (n : Fin 2048) :
    k0_pay12 (F := Ideal) W S (ix2 0 n) = ∑ h : Fin 256, S (ix2 h n) * W (ix2 h n) := by
  unfold k0_pay12
  rw [shapeCast_self]
  exact row_sum S _ n

theorem pay13_apply (W : FVec Ideal S256x2048 .f32) (S : Vec Ideal S256x2048 .f32) (n : Fin 2048) :
    k0_pay13 (F := Ideal) W S (ix2 0 n) = ∑ h : Fin 256, S (ix2 h n) * W (ix2 h n) := by
  unfold k0_pay13
  rw [shapeCast_self]
  exact row_sum S _ n

theorem pay14_apply (W : FVec Ideal S256x2048 .f32) (S : Vec Ideal S256x2048 .f32) (n : Fin 2048) :
    k0_pay14 (F := Ideal) W S (ix2 0 n) = ∑ h : Fin 256, S (ix2 h n) * W (ix2 h n) := by
  unfold k0_pay14
  rw [shapeCast_self]
  exact row_sum S _ n

theorem pay17_apply (W : FVec Ideal S256x2048 .f32) (S : Vec Ideal S256x2048 .f32) (n : Fin 2048) :
    k0_pay17 (F := Ideal) W S (ix2 0 n) = ∑ h : Fin 256, S (ix2 h n) * W (ix2 h n) := by
  unfold k0_pay17
  rw [shapeCast_self]
  exact row_sum S _ n

theorem pay18_apply (W : FVec Ideal S256x2048 .f32) (S : Vec Ideal S256x2048 .f32) (n : Fin 2048) :
    k0_pay18 (F := Ideal) W S (ix2 0 n) = ∑ h : Fin 256, S (ix2 h n) * W (ix2 h n) := by
  unfold k0_pay18
  rw [shapeCast_self]
  exact row_sum S _ n

theorem pay29_apply (W : FVec Ideal S256x2048 .f32) (S : Vec Ideal S256x2048 .f32) (n : Fin 2048) :
    k0_pay29 (F := Ideal) W S (ix2 0 n) = ∑ h : Fin 256, S (ix2 h n) * W (ix2 h n) := by
  unfold k0_pay29
  rw [shapeCast_self]
  exact row_sum S _ n

theorem pay30_apply (W : FVec Ideal S256x2048 .f32) (S : Vec Ideal S256x2048 .f32) (n : Fin 2048) :
    k0_pay30 (F := Ideal) W S (ix2 0 n) = ∑ h : Fin 256, S (ix2 h n) * W (ix2 h n) := by
  unfold k0_pay30
  rw [shapeCast_self]
  exact row_sum S _ n

theorem pay31_apply (W : FVec Ideal S256x2048 .f32) (S : Vec Ideal S256x2048 .f32) (n : Fin 2048) :
    k0_pay31 (F := Ideal) W S (ix2 0 n) = ∑ h : Fin 256, S (ix2 h n) * W (ix2 h n) := by
  unfold k0_pay31
  rw [shapeCast_self]
  exact row_sum S _ n

theorem pay32_apply (W : FVec Ideal S256x2048 .f32) (S : Vec Ideal S256x2048 .f32) (n : Fin 2048) :
    k0_pay32 (F := Ideal) W S (ix2 0 n) = ∑ h : Fin 256, S (ix2 h n) * W (ix2 h n) := by
  unfold k0_pay32
  rw [shapeCast_self]
  exact row_sum S _ n

theorem pay33_apply (W : FVec Ideal S256x2048 .f32) (S : Vec Ideal S256x2048 .f32) (n : Fin 2048) :
    k0_pay33 (F := Ideal) W S (ix2 0 n) = ∑ h : Fin 256, S (ix2 h n) * W (ix2 h n) := by
  unfold k0_pay33
  rw [shapeCast_self]
  exact row_sum S _ n

theorem pay34_apply (W : FVec Ideal S256x2048 .f32) (S : Vec Ideal S256x2048 .f32) (n : Fin 2048) :
    k0_pay34 (F := Ideal) W S (ix2 0 n) = ∑ h : Fin 256, S (ix2 h n) * W (ix2 h n) := by
  unfold k0_pay34
  rw [shapeCast_self]
  exact row_sum S _ n

theorem pay35_apply (W : FVec Ideal S256x2048 .f32) (S : Vec Ideal S256x2048 .f32) (n : Fin 2048) :
    k0_pay35 (F := Ideal) W S (ix2 0 n) = ∑ h : Fin 256, S (ix2 h n) * W (ix2 h n) := by
  unfold k0_pay35
  rw [shapeCast_self]
  exact row_sum S _ n

theorem pay36_apply (W : FVec Ideal S256x2048 .f32) (S : Vec Ideal S256x2048 .f32) (n : Fin 2048) :
    k0_pay36 (F := Ideal) W S (ix2 0 n) = ∑ h : Fin 256, S (ix2 h n) * W (ix2 h n) := by
  unfold k0_pay36
  rw [shapeCast_self]
  exact row_sum S _ n

theorem pay52_apply (W : FVec Ideal S256x2048 .f32) (S : Vec Ideal S256x2048 .f32) (n : Fin 2048) :
    k0_pay52 (F := Ideal) W S (ix2 0 n) = ∑ h : Fin 256, S (ix2 h n) * W (ix2 h n) := by
  unfold k0_pay52
  rw [shapeCast_self]
  exact row_sum S _ n

theorem pay53_apply (W : FVec Ideal S256x2048 .f32) (S : Vec Ideal S256x2048 .f32) (n : Fin 2048) :
    k0_pay53 (F := Ideal) W S (ix2 0 n) = ∑ h : Fin 256, S (ix2 h n) * W (ix2 h n) := by
  unfold k0_pay53
  rw [shapeCast_self]
  exact row_sum S _ n

theorem pay54_apply (W : FVec Ideal S256x2048 .f32) (S : Vec Ideal S256x2048 .f32) (n : Fin 2048) :
    k0_pay54 (F := Ideal) W S (ix2 0 n) = ∑ h : Fin 256, S (ix2 h n) * W (ix2 h n) := by
  unfold k0_pay54
  rw [shapeCast_self]
  exact row_sum S _ n

theorem pay55_apply (W : FVec Ideal S256x2048 .f32) (S : Vec Ideal S256x2048 .f32) (n : Fin 2048) :
    k0_pay55 (F := Ideal) W S (ix2 0 n) = ∑ h : Fin 256, S (ix2 h n) * W (ix2 h n) := by
  unfold k0_pay55
  rw [shapeCast_self]
  exact row_sum S _ n

theorem pay15_apply (W : FVec Ideal S256x2048 .f32) (S : Vec Ideal S256x2048 .f32) (n : Fin 2048) :
    k0_pay15 (F := Ideal) W S (ix2 0 n) = ∑ h : Fin 256, S (ix2 h n) * W (ix2 h n) := by
  unfold k0_pay15
  exact row_sum S _ n

theorem pay10_apply (u : FVec Ideal S1x2048 .f32) (S : Vec Ideal S256x2048 .f32) (n : Fin 2048) :
    k0_pay10 (F := Ideal) u S (ix2 0 n) = ∑ h : Fin 256, S (ix2 h n) * k0_pay8 (F := Ideal) u (ix2 h n) := by
  unfold k0_pay10
  rw [shapeCast_self]
  exact row_sum S _ n

theorem pay48_apply (A : IVec S1x2048 32) (B : FVec Ideal S1x2048 .f32) (I : IVec S256x2048 32) (C : IVec S256x2048 1) (one : Ideal .f32) (S : Vec Ideal S256x2048 .f32) (n : Fin 2048) :
    k0_pay48 (F := Ideal) A B I C one S (ix2 0 n) = ∑ h : Fin 256, S (ix2 h n) * k0_pay46 (F := Ideal) A B I C one (ix2 h n) := by
  unfold k0_pay48
  rw [shapeCast_self]
  exact row_sum S _ n

theorem pay49_apply (A : IVec S1x2048 32) (B : FVec Ideal S1x2048 .f32) (I : IVec S256x2048 32) (C : IVec S256x2048 1) (one : Ideal .f32) (S : Vec Ideal S256x2048 .f32) (n : Fin 2048) :
    k0_pay49 (F := Ideal) A B I C one S (ix2 0 n) = ∑ h : Fin 256, S (ix2 h n) * k0_pay46 (F := Ideal) A B I C one (ix2 h n) := by
  unfold k0_pay49
  rw [shapeCast_self]
  exact row_sum S _ n

theorem pay50_apply (A : IVec S1x2048 32) (B : FVec Ideal S1x2048 .f32) (I : IVec S256x2048 32) (C : IVec S256x2048 1) (one : Ideal .f32) (S : Vec Ideal S256x2048 .f32) (n : Fin 2048) :
    k0_pay50 (F := Ideal) A B I C one S (ix2 0 n) = ∑ h : Fin 256, S (ix2 h n) * k0_pay46 (F := Ideal) A B I C one (ix2 h n) := by
  unfold k0_pay50
  exact row_sum S _ n

/-! ## The tail: product of the feature tiles, two linear maps, the exponential -/

theorem pay37_apply (a b : Vec Ideal S8x2048 .f32) (f : Fin 8) (n : Fin 2048) :
    k0_pay37 (F := Ideal) a b (ix2 f n) = a (ix2 f n) * b (ix2 f n) := rfl

theorem pay2_apply (T : FVec Ideal S8x2048 .f32) (c : Vec Ideal S8x2048 .f32) (w1 : Vec Ideal S64x8 .bf16)
    (w2 : Vec Ideal S1x64 .bf16) (n : Fin 2048) :
    k0_pay2 (F := Ideal) T c w1 w2 (ix1 n)
      = Ideal.exp (∑ j : Fin 64, w2 (ix2 0 j) * ∑ f : Fin 8, w1 (ix2 j f) * (T (ix2 f n) * c (ix2 f n))) := by
  unfold k0_pay2
  rw [shapeCast_self, shapeCast_self]
  refine (shapeCast_1a_a_apply _ shapeCasts_S1x2048_S2048 n).trans ?_
  show Ideal.exp _ = _
  refine congrArg Ideal.exp ((dot_w2 w2 _ n).trans (Finset.sum_congr rfl fun j _ => congrArg (w2 (ix2 0 j) * ·) ?_))
  exact dot_w1 w1 _ j n

/-! ## One feature row of one plane is the bilinear sample -/

theorem feature_row (P : S2048x256.Idx → EReal) (cx cy : EReal) (f : Fin 8) :
    ∑ h : Fin 256, (∑ w : Fin 256, P (ix2 (Spec.planeRow f h) w) * Spec.weights cx w) * Spec.weights cy h
      = Spec.bilerp (fun h w => P (ix2 (Spec.planeRow f h) w)) cx cy :=
  Spec.bilerpDense_eq (fun h w => P (ix2 (Spec.planeRow f h) w)) cx cy

end Cert.KernelPayloads

end
-- ==== Proof.Consts.lean ====
/-
  The 32-bit float words the two programs spell, each as the extended real it denotes.

  An IEEE single-precision word with sign 0, biased exponent E and fraction T denotes (2^23 + T) · 2^(E - 150):
  0x3F800000 is 2^23 · 2^(-23) = 1, 0x3F000000 is 2^23 · 2^(-24) = 1/2, 0x437F0000 is
  (2^23 + 0x7F0000) · 2^(-16) = 255 and 0x42FF0000 is (2^23 + 0x7F0000) · 2^(-17) = 127.5; the all-zero word is 0.
-/
import Idealize.ShloMosaic.PureOps.Ideal

noncomputable section

namespace Cert.Consts

open Idealize.ShloMosaic

/-- The all-zero word denotes `0`. -/
theorem ofBits_zero : Ideal.ofBits .f32 0x00000000#32 = 0 := by
  simp [Ideal.ofBits, Ideal.ieee]

/-- `0x3F800000` denotes `1`. -/
theorem ofBits_one : Ideal.ofBits .f32 0x3F800000#32 = 1 := by
  simp [Ideal.ofBits, Ideal.ieee, -EReal.coe_mul]; norm_num

/-- `0x3F000000` denotes `1/2`. -/
theorem ofBits_half : Ideal.ofBits .f32 0x3F000000#32 = ((0.5 : ℝ) : EReal) := by
  simp [Ideal.ofBits, Ideal.ieee, -EReal.coe_mul]; norm_num

/-- `0x437F0000` denotes `255`. -/
theorem ofBits_255 : Ideal.ofBits .f32 0x437F0000#32 = ((255 : ℝ) : EReal) := by
  simp [Ideal.ofBits, Ideal.ieee, -EReal.coe_mul]; norm_num

/-- `0x42FF0000` denotes `127.5`. -/
theorem ofBits_127_5 : Ideal.ofBits .f32 0x42FF0000#32 = ((127.5 : ℝ) : EReal) := by
  simp [Ideal.ofBits, Ideal.ieee, -EReal.coe_mul]; norm_num

/-- `0x40000000` denotes `2`. -/
theorem ofBits_two : Ideal.ofBits .f32 0x40000000#32 = ((2 : ℝ) : EReal) := by
  simp [Ideal.ofBits, Ideal.ieee, -EReal.coe_mul]; norm_num

/-- The integer word `255`, read signed and made a float, is `255`. -/
theorem sitofp_255 : (((255#32 : BitVec 32).toInt : ℝ) : EReal) = ((255 : ℝ) : EReal) := by
  norm_num [BitVec.toInt]

end Cert.Consts

end
-- ==== Proof.Words.lean ====
/-
  Cells as 32-bit words.

  A cell and its neighbour are numbers below 256, so as 32-bit words nothing wraps around: distinct numbers give
  distinct words, the signed reading of the word is the number, adding one and taking the signed minimum with 255
  gives the neighbour's word, the word is never negative (so an index wrap that adds 256 to negative words leaves it
  alone), and clamping its signed value into [0, 255] gives the number back.
-/
import Mathlib
import Idealize.ShloMosaic.PureOps.Ideal
import proofs.«108864_j88381837017835_2_alg».proof.Proof.Spec

noncomputable section

namespace Cert.Words

open Idealize.ShloMosaic

/-! ## Small numbers as 32-bit words -/

/-- Numbers below 256 are distinct as 32-bit words. -/
theorem ofNat_inj {a b : ℕ} (ha : a < 256) (hb : b < 256) :
    BitVec.ofNat 32 a = BitVec.ofNat 32 b ↔ a = b := by
  constructor
  · intro h
    have h' := congrArg BitVec.toNat h
    simp only [BitVec.toNat_ofNat] at h'
    omega
  · rintro rfl; rfl

/-- A number below 256, as a word, reads back signed as itself. -/
theorem toInt_ofNat {k : ℕ} (hk : k < 256) : (BitVec.ofNat 32 k).toInt = (k : ℤ) := by
  rw [BitVec.toInt_ofNat']
  exact Int.bmod_eq_of_le (by omega) (by omega)

theorem toNat_ofNat {k : ℕ} (hk : k < 256) : (BitVec.ofNat 32 k).toNat = k := by
  rw [BitVec.toNat_ofNat]; omega

/-- The signed value of such a word, as a natural number, is the number. -/
theorem toInt_toNat_ofNat {k : ℕ} (hk : k < 256) : (BitVec.ofNat 32 k).toInt.toNat = k := by
  rw [toInt_ofNat hk]; exact Int.toNat_natCast k

/-- Clamping the signed value into `[0, 255]` leaves it alone. -/
theorem clamp_ofNat {k : ℕ} (hk : k < 256) : min (BitVec.ofNat 32 k).toInt.toNat 255 = k := by
  rw [toInt_toNat_ofNat hk]; omega

theorem clamp_ofNat' {k : ℕ} (hk : k < 256) : min (BitVec.ofNat 32 k).toInt.toNat (256 - 1) = k :=
  clamp_ofNat hk

/-- Adding one to such a word is the word of the successor. -/
theorem ofNat_add_one (k : ℕ) : BitVec.ofNat 32 k + 1#32 = BitVec.ofNat 32 (k + 1) := by
  rw [BitVec.ofNat_add]

/-- The signed minimum of two such words is the word of the minimum. -/
theorem minsi_ofNat {a b : ℕ} (ha : a ≤ 256) (hb : b ≤ 256) :
    IntOp.minsi (BitVec.ofNat 32 a) (BitVec.ofNat 32 b) = BitVec.ofNat 32 (min a b) := by
  have hta : (BitVec.ofNat 32 a).toInt = (a : ℤ) := by
    rw [BitVec.toInt_ofNat']; exact Int.bmod_eq_of_le (by omega) (by omega)
  have htb : (BitVec.ofNat 32 b).toInt = (b : ℤ) := by
    rw [BitVec.toInt_ofNat']; exact Int.bmod_eq_of_le (by omega) (by omega)
  unfold IntOp.minsi
  rw [BitVec.slt_eq_decide, hta, htb]
  by_cases h : a < b
  · rw [if_pos (by simpa using h), min_eq_left h.le]
  · rw [if_neg (by simpa using h), min_eq_right (not_lt.mp h)]

/-- The successor of a cell, kept at 255: `min (x + 1) 255` on words, as both programs compute it. -/
theorem minsi_succ {k : ℕ} (hk : k < 256) :
    IntOp.minsi (BitVec.ofNat 32 k + 1#32) 255#32 = BitVec.ofNat 32 (min (k + 1) 255) := by
  rw [ofNat_add_one]
  exact minsi_ofNat (a := k + 1) (b := 255) (by omega) (by omega)

theorem scalar_minsi_succ {k : ℕ} (hk : k < 256) :
    Scalar.minsi (BitVec.ofNat 32 k + 1#32) 255#32 = BitVec.ofNat 32 (min (k + 1) 255) :=
  minsi_succ hk

theorem minsi_addi_succ {k : ℕ} (hk : k < 256) :
    IntOp.minsi (IntOp.addi (BitVec.ofNat 32 k) 1#32) 255#32 = BitVec.ofNat 32 (min (k + 1) 255) :=
  minsi_succ hk

/-- Such a word is not negative: the signed comparison with zero is false. -/
theorem cmpi_slt_zero {k : ℕ} (hk : k < 256) : IntOp.cmpi .slt (BitVec.ofNat 32 k) 0#32 = 0#1 := by
  unfold IntOp.cmpi
  simp only [BitVec.slt_eq_decide, toInt_ofNat hk, BitVec.toInt_zero]
  have : ¬ ((k : ℤ) < 0) := by omega
  simp [this]

/-- The wrap of a negative index leaves such a word alone. -/
theorem select_slt_zero {k : ℕ} (hk : k < 256) (y : BitVec 32) :
    Scalar.select (IntOp.cmpi .slt (BitVec.ofNat 32 k) 0#32) y (BitVec.ofNat 32 k) = BitVec.ofNat 32 k := by
  rw [cmpi_slt_zero hk]; rfl

theorem select_slt_zero_add {k : ℕ} (hk : k < 256) :
    Scalar.select (IntOp.cmpi .slt (BitVec.ofNat 32 k) 0#32) (IntOp.addi (BitVec.ofNat 32 k) 256#32) (BitVec.ofNat 32 k)
      = BitVec.ofNat 32 k :=
  select_slt_zero hk _

/-- Equality of two such words, as the one-bit answer of the integer comparison. -/
theorem cmpi_eq_ofNat {a b : ℕ} (ha : a < 256) (hb : b < 256) :
    IntOp.cmpi .eq (BitVec.ofNat 32 a) (BitVec.ofNat 32 b) = if a = b then 1#1 else 0#1 := by
  unfold IntOp.cmpi
  by_cases h : a = b
  · subst h; simp
  · have h' : BitVec.ofNat 32 a ≠ BitVec.ofNat 32 b := fun e => h ((ofNat_inj ha hb).mp e)
    rw [beq_eq_false_iff_ne.mpr h', if_neg h]; rfl

/-- A select on that comparison is the `if` on the numbers. -/
theorem select_cmpi_eq_ofNat {α : Type} {a b : ℕ} (ha : a < 256) (hb : b < 256) (x y : α) :
    Scalar.select (IntOp.cmpi .eq (BitVec.ofNat 32 a) (BitVec.ofNat 32 b)) x y = if a = b then x else y := by
  rw [cmpi_eq_ofNat ha hb]
  by_cases h : a = b
  · simp [h, Scalar.select]
  · simp [h, Scalar.select]

/-! ## The cell and its neighbour as words -/

theorem ofNat_eq_cell (c : EReal) (w : Fin 256) :
    BitVec.ofNat 32 w.val = BitVec.ofNat 32 (Spec.cell c) ↔ w = Spec.cellF c := by
  rw [ofNat_inj w.isLt (Spec.cell_lt c), Fin.ext_iff]; rfl

theorem ofNat_eq_next (c : EReal) (w : Fin 256) :
    BitVec.ofNat 32 w.val = BitVec.ofNat 32 (Spec.next c) ↔ w = Spec.nextF c := by
  rw [ofNat_inj w.isLt (Spec.next_lt c), Fin.ext_iff]; rfl

theorem select_cmpi_eq_cell {α : Type} (c : EReal) (w : Fin 256) (x y : α) :
    Scalar.select (IntOp.cmpi .eq (BitVec.ofNat 32 w.val) (BitVec.ofNat 32 (Spec.cell c))) x y
      = if w = Spec.cellF c then x else y := by
  rw [select_cmpi_eq_ofNat w.isLt (Spec.cell_lt c)]
  simp only [Fin.ext_iff]; rfl

theorem select_cmpi_eq_next {α : Type} (c : EReal) (w : Fin 256) (x y : α) :
    Scalar.select (IntOp.cmpi .eq (BitVec.ofNat 32 w.val) (BitVec.ofNat 32 (Spec.next c))) x y
      = if w = Spec.nextF c then x else y := by
  rw [select_cmpi_eq_ofNat w.isLt (Spec.next_lt c)]
  simp only [Fin.ext_iff]; rfl

/-- `min (cell + 1) 255` on words is the next cell's word. -/
theorem minsi_cell (c : EReal) :
    IntOp.minsi (BitVec.ofNat 32 (Spec.cell c) + 1#32) 255#32 = BitVec.ofNat 32 (Spec.next c) :=
  minsi_succ (Spec.cell_lt c)

theorem scalar_minsi_cell (c : EReal) :
    Scalar.minsi (BitVec.ofNat 32 (Spec.cell c) + 1#32) 255#32 = BitVec.ofNat 32 (Spec.next c) :=
  minsi_succ (Spec.cell_lt c)

theorem minsi_addi_cell (c : EReal) :
    IntOp.minsi (IntOp.addi (BitVec.ofNat 32 (Spec.cell c)) 1#32) 255#32 = BitVec.ofNat 32 (Spec.next c) :=
  minsi_succ (Spec.cell_lt c)

theorem select_slt_cell (c : EReal) (y : BitVec 32) :
    Scalar.select (IntOp.cmpi .slt (BitVec.ofNat 32 (Spec.cell c)) 0#32) y (BitVec.ofNat 32 (Spec.cell c))
      = BitVec.ofNat 32 (Spec.cell c) :=
  select_slt_zero (Spec.cell_lt c) y

theorem select_slt_next (c : EReal) (y : BitVec 32) :
    Scalar.select (IntOp.cmpi .slt (BitVec.ofNat 32 (Spec.next c)) 0#32) y (BitVec.ofNat 32 (Spec.next c))
      = BitVec.ofNat 32 (Spec.next c) :=
  select_slt_zero (Spec.next_lt c) y

theorem toInt_cell (c : EReal) : (BitVec.ofNat 32 (Spec.cell c)).toInt = (Spec.cell c : ℤ) := toInt_ofNat (Spec.cell_lt c)
theorem toInt_next (c : EReal) : (BitVec.ofNat 32 (Spec.next c)).toInt = (Spec.next c : ℤ) := toInt_ofNat (Spec.next_lt c)

theorem clamp_cell (c : EReal) : min (BitVec.ofNat 32 (Spec.cell c)).toInt.toNat 255 = Spec.cell c :=
  clamp_ofNat (Spec.cell_lt c)
theorem clamp_next (c : EReal) : min (BitVec.ofNat 32 (Spec.next c)).toInt.toNat 255 = Spec.next c :=
  clamp_ofNat (Spec.next_lt c)
theorem clamp_cell' (c : EReal) : min (BitVec.ofNat 32 (Spec.cell c)).toInt.toNat (256 - 1) = Spec.cell c :=
  clamp_ofNat (Spec.cell_lt c)
theorem clamp_next' (c : EReal) : min (BitVec.ofNat 32 (Spec.next c)).toInt.toNat (256 - 1) = Spec.next c :=
  clamp_ofNat (Spec.next_lt c)

/-- The clamped index as an element of `Fin 256` is the cell itself. -/
theorem clampF_cell (c : EReal) (h : min (BitVec.ofNat 32 (Spec.cell c)).toInt.toNat 255 < 256) :
    (⟨min (BitVec.ofNat 32 (Spec.cell c)).toInt.toNat 255, h⟩ : Fin 256) = Spec.cellF c :=
  Fin.ext (clamp_cell c)
theorem clampF_next (c : EReal) (h : min (BitVec.ofNat 32 (Spec.next c)).toInt.toNat 255 < 256) :
    (⟨min (BitVec.ofNat 32 (Spec.next c)).toInt.toNat 255, h⟩ : Fin 256) = Spec.nextF c :=
  Fin.ext (clamp_next c)

end Cert.Words

end
-- ==== Proof.KernelWeights.lean ====
/-
  The kernel's weight matrices, read at an index.

  For each use of a coordinate row the kernel builds a 256 × 2048 matrix whose column `n` is the two-hot weight
  row of the coordinate `c` in that column: it clips `(c + 1) · 127.5` into [0, 255], takes the floor, the floor as
  a 32-bit word, the word plus one kept at 255, and the fractional part; it then compares a row counter with the
  two words and selects `1 - frac`, respectively `frac`, where they agree and zero elsewhere, and adds the two.
  Read at row `w` and column `n` this is `Spec.weights c w`.
-/
import Mathlib
import Idealize.ShloMosaic.Lib.Pipeline.Value
import Idealize.ShloMosaic.Lib.ValueLayout
import Idealize.ShloMosaic.Lib.ValueIdx
import proofs.«108864_j88381837017835_2_alg».proof.Proof.Gen.KernelIdeal.Skeleton
import proofs.«108864_j88381837017835_2_alg».proof.Proof.Spec
import proofs.«108864_j88381837017835_2_alg».proof.Proof.Consts
import proofs.«108864_j88381837017835_2_alg».proof.Proof.Words

noncomputable section

namespace Cert.KernelWeights

open Idealize.ShloMosaic Idealize.ShloMosaic.ValueIdx
open Cert.KernelIdeal Cert.KernelIdeal.Gen

/-! ## The pieces of the chain, as functions of the row they start from -/

/-- `(c + 1) · 127.5` on a row. -/
def pre (v : FVec Ideal S1x2048 .f32) : FVec Ideal S1x2048 .f32 :=
  mulf (addf v (broadcast S1x2048 (Scalar.ofBits (F := Ideal) .f32 0x3F800000#32)))
    (broadcast S1x2048 (Scalar.ofBits (F := Ideal) .f32 0x42FF0000#32))

/-- The clip into [0, 255] on a row. -/
def clip (q : FVec Ideal S1x2048 .f32) : FVec Ideal S1x2048 .f32 :=
  minimumf (broadcast S1x2048 (Scalar.ofBits (F := Ideal) .f32 0x437F0000#32))
    (maximumf (broadcast S1x2048 (Scalar.ofBits (F := Ideal) .f32 0x00000000#32)) q)

/-- The cell word of a row of positions. -/
def word (p : FVec Ideal S1x2048 .f32) : IVec S1x2048 32 := fptosi 32 (floor p)

/-- The next cell's word. -/
def nextWord (p : FVec Ideal S1x2048 .f32) : IVec S1x2048 32 :=
  minsi (addi (word p) (broadcast S1x2048 1#32)) (broadcast S1x2048 255#32)

/-- The fractional part. -/
def fracRow (p : FVec Ideal S1x2048 .f32) : FVec Ideal S1x2048 .f32 := subf p (floor p)

/-- One minus the fractional part. -/
def oneSubFracRow (p : FVec Ideal S1x2048 .f32) : FVec Ideal S1x2048 .f32 :=
  subf (broadcast S1x2048 (Scalar.ofBits (F := Ideal) .f32 0x3F800000#32)) (fracRow p)

/-- The row counter. -/
def rowIota : IVec S256x2048 32 := iota .tc S256x2048 32 [0] iota_S256x2048_d0_w32

/-- "The row counter is the cell". -/
def cellMask (p : FVec Ideal S1x2048 .f32) : IVec S256x2048 1 :=
  cmpi .eq rowIota (broadcastTo S256x2048 (word p) broadcasts_S1x2048_S256x2048)

/-- The two selections and their sum, over any next-word row, fraction row, counter, cell mask and
    one-minus-fraction row. -/
def combine (nw : IVec S1x2048 32) (fr : FVec Ideal S1x2048 .f32) (io : IVec S256x2048 32) (cm : IVec S256x2048 1)
    (omf : FVec Ideal S1x2048 .f32) : FVec Ideal S256x2048 .f32 :=
  addf
    (select cm (broadcastTo S256x2048 (shapeCast S1x2048 omf shapeCasts_S1x2048_S1x2048) broadcasts_S1x2048_S256x2048)
      (broadcast S256x2048 (Scalar.ofBits (F := Ideal) .f32 0x00000000#32)))
    (select (cmpi .eq io (broadcastTo S256x2048 nw broadcasts_S1x2048_S256x2048))
      (broadcastTo S256x2048 (shapeCast S1x2048 fr shapeCasts_S1x2048_S1x2048) broadcasts_S1x2048_S256x2048)
      (broadcast S256x2048 (Scalar.ofBits (F := Ideal) .f32 0x00000000#32)))

/-- The weight matrix of a row of positions. -/
def wmat (p : FVec Ideal S1x2048 .f32) : FVec Ideal S256x2048 .f32 :=
  combine (nextWord p) (fracRow p) rowIota (cellMask p) (oneSubFracRow p)

/-! ## The pieces at an index -/

theorem pre_apply (v : FVec Ideal S1x2048 .f32) (n : Fin 2048) :
    pre v (ix2 0 n) = (v (ix2 0 n) + 1) * ((127.5 : ℝ) : EReal) := by
  show (v (ix2 0 n) + Ideal.ofBits .f32 0x3F800000#32) * Ideal.ofBits .f32 0x42FF0000#32 = _
  rw [Cert.Consts.ofBits_one, Cert.Consts.ofBits_127_5]

theorem clip_apply (q : FVec Ideal S1x2048 .f32) (n : Fin 2048) :
    clip q (ix2 0 n) = min ((255 : ℝ) : EReal) (max 0 (q (ix2 0 n))) := by
  show min (Ideal.ofBits .f32 0x437F0000#32) (max (Ideal.ofBits .f32 0x00000000#32) (q (ix2 0 n))) = _
  rw [Cert.Consts.ofBits_255, Cert.Consts.ofBits_zero]

/-- The clipped product is the position of the coordinate. -/
theorem clip_pre_apply (v : FVec Ideal S1x2048 .f32) (n : Fin 2048) :
    clip (pre v) (ix2 0 n) = Spec.pos (v (ix2 0 n)) := by
  rw [clip_apply, pre_apply]; rfl

theorem clip_of_pre (q : FVec Ideal S1x2048 .f32) (n : Fin 2048) (c : EReal)
    (hq : q (ix2 0 n) = (c + 1) * ((127.5 : ℝ) : EReal)) : clip q (ix2 0 n) = Spec.pos c := by
  rw [clip_apply, hq]; rfl

section AtPos
variable (p : FVec Ideal S1x2048 .f32) (n : Fin 2048) (c : EReal) (hp : p (ix2 0 n) = Spec.pos c)
include hp

theorem floor_apply : floor p (ix2 0 n) = Ideal.liftRound Int.floor (Spec.pos c) := by
  show Ideal.liftRound Int.floor (p (ix2 0 n)) = _
  rw [hp]

theorem word_apply : word p (ix2 0 n) = BitVec.ofNat 32 (Spec.cell c) := by
  show Ideal.fptosi 32 (Ideal.liftRound Int.floor (p (ix2 0 n))) = _
  rw [hp, Spec.fptosi_floor_pos]

theorem nextWord_apply : nextWord p (ix2 0 n) = BitVec.ofNat 32 (Spec.next c) := by
  show IntOp.minsi (IntOp.addi (word p (ix2 0 n)) 1#32) 255#32 = _
  rw [word_apply p n c hp, Cert.Words.minsi_addi_cell]

theorem fracRow_apply : fracRow p (ix2 0 n) = Spec.frac c := by
  show p (ix2 0 n) - Ideal.liftRound Int.floor (p (ix2 0 n)) = _
  rw [hp]; rfl

theorem oneSubFracRow_apply : oneSubFracRow p (ix2 0 n) = 1 - Spec.frac c := by
  show Ideal.ofBits .f32 0x3F800000#32 - fracRow p (ix2 0 n) = _
  rw [fracRow_apply p n c hp, Cert.Consts.ofBits_one]

end AtPos

/-! ## The matrix at an index -/

theorem rowIota_apply (w : Fin 256) (n : Fin 2048) : rowIota (ix2 w n) = BitVec.ofNat 32 w.val :=
  iota_single_apply .tc S256x2048 32 0 iota_S256x2048_d0_w32 (ix2 w n)

theorem cellMask_apply (p : FVec Ideal S1x2048 .f32) (w : Fin 256) (n : Fin 2048) (c : EReal)
    (hp : p (ix2 0 n) = Spec.pos c) :
    cellMask p (ix2 w n) = IntOp.cmpi .eq (BitVec.ofNat 32 w.val) (BitVec.ofNat 32 (Spec.cell c)) := by
  show IntOp.cmpi .eq (rowIota (ix2 w n))
    (broadcastTo S256x2048 (word p) broadcasts_S1x2048_S256x2048 (ix2 w n)) = _
  rw [rowIota_apply, broadcastTo_1b_ab_apply, word_apply p n c hp]

/-- The two selections and their sum, as numbers: the two-hot weight of row `w`. -/
theorem twoHot_eq (c : EReal) (w : Fin 256) :
    Scalar.select (IntOp.cmpi .eq (BitVec.ofNat 32 w.val) (BitVec.ofNat 32 (Spec.cell c))) (1 - Spec.frac c)
        (Ideal.ofBits .f32 0x00000000#32)
      + Scalar.select (IntOp.cmpi .eq (BitVec.ofNat 32 w.val) (BitVec.ofNat 32 (Spec.next c))) (Spec.frac c)
        (Ideal.ofBits .f32 0x00000000#32)
      = Spec.weights c w := by
  rw [Cert.Consts.ofBits_zero, Cert.Words.select_cmpi_eq_cell, Cert.Words.select_cmpi_eq_next]
  rfl

theorem combine_apply (nw : IVec S1x2048 32) (fr : FVec Ideal S1x2048 .f32) (io : IVec S256x2048 32)
    (cm : IVec S256x2048 1) (omf : FVec Ideal S1x2048 .f32) (w : Fin 256) (n : Fin 2048) (c : EReal)
    (hnw : nw (ix2 0 n) = BitVec.ofNat 32 (Spec.next c)) (hfr : fr (ix2 0 n) = Spec.frac c)
    (hio : io (ix2 w n) = BitVec.ofNat 32 w.val)
    (hcm : cm (ix2 w n) = IntOp.cmpi .eq (BitVec.ofNat 32 w.val) (BitVec.ofNat 32 (Spec.cell c)))
    (homf : omf (ix2 0 n) = 1 - Spec.frac c) :
    combine nw fr io cm omf (ix2 w n) = Spec.weights c w := by
  show Scalar.select (cm (ix2 w n))
        (broadcastTo S256x2048 (shapeCast S1x2048 omf shapeCasts_S1x2048_S1x2048) broadcasts_S1x2048_S256x2048 (ix2 w n))
        (Ideal.ofBits .f32 0x00000000#32)
      + Scalar.select (IntOp.cmpi .eq (io (ix2 w n)) (broadcastTo S256x2048 nw broadcasts_S1x2048_S256x2048 (ix2 w n)))
        (broadcastTo S256x2048 (shapeCast S1x2048 fr shapeCasts_S1x2048_S1x2048) broadcasts_S1x2048_S256x2048 (ix2 w n))
        (Ideal.ofBits .f32 0x00000000#32) = _
  rw [shapeCast_self, shapeCast_self, broadcastTo_1b_ab_apply, broadcastTo_1b_ab_apply, broadcastTo_1b_ab_apply,
    hcm, hio, hnw, hfr, homf]
  exact twoHot_eq c w

/-- The weight matrix of a row of positions, at row `w` and column `n`. -/
theorem wmat_apply (p : FVec Ideal S1x2048 .f32) (w : Fin 256) (n : Fin 2048) (c : EReal)
    (hp : p (ix2 0 n) = Spec.pos c) : wmat p (ix2 w n) = Spec.weights c w :=
  combine_apply _ _ _ _ _ w n c (nextWord_apply p n c hp) (fracRow_apply p n c hp) (rowIota_apply w n)
    (cellMask_apply p w n c hp) (oneSubFracRow_apply p n c hp)

/-! ## The payloads are these pieces -/

theorem pay3_eq (v : Vec Ideal S1x2048 .f32) : k0_pay3 (F := Ideal) v = v := shapeCast_self v _
theorem pay4_eq (v : Vec Ideal S1x2048 .f32) : k0_pay4 (F := Ideal) v = v := shapeCast_self v _
theorem pay5_eq (v : Vec Ideal S1x2048 .f32) : k0_pay5 (F := Ideal) v = v := shapeCast_self v _

theorem pay6_eq (x : Vec Ideal S1x2048 .f32) :
    k0_pay6 (F := Ideal) x = truncf .bf16 (wmat (clip (pre (k0_pay3 (F := Ideal) x)))) bitsLt_bf16_f32 := rfl
theorem pay7_eq (y : Vec Ideal S1x2048 .f32) : k0_pay7 (F := Ideal) y = pre (k0_pay4 (F := Ideal) y) := rfl
theorem pay8_eq (q : FVec Ideal S1x2048 .f32) : k0_pay8 (F := Ideal) q = wmat (clip q) := rfl
theorem pay19_eq (v : FVec Ideal S1x2048 .f32) : k0_pay19 (F := Ideal) v = clip (pre v) := rfl
theorem pay20_eq (v : FVec Ideal S1x2048 .f32) : k0_pay20 (F := Ideal) v = floor (clip (pre v)) := rfl
theorem pay21_eq (v : FVec Ideal S1x2048 .f32) : k0_pay21 (F := Ideal) v = word (clip (pre v)) := rfl
theorem pay22_eq (v : FVec Ideal S1x2048 .f32) : k0_pay22 (F := Ideal) v = nextWord (clip (pre v)) := rfl
theorem pay23_eq (v : FVec Ideal S1x2048 .f32) : k0_pay23 (F := Ideal) v = fracRow (clip (pre v)) := rfl
theorem pay24_eq (v : FVec Ideal S1x2048 .f32) : k0_pay24 (F := Ideal) v = cellMask (clip (pre v)) := rfl
theorem pay25_eq (v : FVec Ideal S1x2048 .f32) : k0_pay25 (F := Ideal) v = oneSubFracRow (clip (pre v)) := rfl
theorem pay26_eq (v : FVec Ideal S1x2048 .f32) : k0_pay26 (F := Ideal) v = wmat (clip (pre v)) := rfl
theorem pay38_eq (v : FVec Ideal S1x2048 .f32) : k0_pay38 (F := Ideal) v = pre v := rfl
theorem pay39_eq (q : FVec Ideal S1x2048 .f32) :
    k0_pay39 (F := Ideal) q = truncf .bf16 (wmat (clip q)) bitsLt_bf16_f32 := rfl
theorem pay40_eq (v : FVec Ideal S1x2048 .f32) : k0_pay40 (F := Ideal) v = clip (pre v) := rfl
theorem pay41_eq (v : FVec Ideal S1x2048 .f32) : k0_pay41 (F := Ideal) v = floor (clip (pre v)) := rfl
theorem pay42_eq (v : FVec Ideal S1x2048 .f32) : k0_pay42 (F := Ideal) v = word (clip (pre v)) := rfl
theorem pay43_eq (v : FVec Ideal S1x2048 .f32) : k0_pay43 (F := Ideal) v = nextWord (clip (pre v)) := rfl
theorem pay44_eq (v : FVec Ideal S1x2048 .f32) : k0_pay44 (F := Ideal) v = fracRow (clip (pre v)) := rfl
theorem pay45_eq (v : FVec Ideal S1x2048 .f32) : k0_pay45 (F := Ideal) v = cellMask (clip (pre v)) := rfl
theorem pay46_eq (v304 : IVec S1x2048 32) (v305 : FVec Ideal S1x2048 .f32) (v306 : IVec S256x2048 32)
    (v308 : IVec S256x2048 1) (cst : Ideal .f32) :
    k0_pay46 (F := Ideal) v304 v305 v306 v308 cst
      = combine v304 v305 v306 v308 (subf (broadcast S1x2048 cst) v305) := rfl
/-- The weight operand inside the second plane's contraction is the same sum of two selections. -/
theorem pay27_eq (v145 : IVec S1x2048 32) (v146 : FVec Ideal S1x2048 .f32) (v147 : IVec S256x2048 32)
    (v149 : IVec S256x2048 1) (v151 : FVec Ideal S1x2048 .f32) (v195 : Vec Ideal S2048x256 .bf16) :
    k0_pay27 (F := Ideal) v145 v146 v147 v149 v151 v195
      = matmul dot_S2048x256_S256x2048_S2048x2048_1_0_0_1_n_n none
          (shapeCast S2048x256 v195 shapeCasts_S2048x256_S2048x256 : FVec Ideal S2048x256 .bf16)
          (truncf .bf16 (combine v145 v146 v147 v149 v151) bitsLt_bf16_f32)
          (constant (F := Ideal) S2048x2048 .f32 0x00000000#32) := rfl

/-! ## The payloads at an index -/

section Rows
variable (v : FVec Ideal S1x2048 .f32) (n : Fin 2048)

theorem pay19_apply : k0_pay19 (F := Ideal) v (ix2 0 n) = Spec.pos (v (ix2 0 n)) := clip_pre_apply v n
theorem pay20_apply : k0_pay20 (F := Ideal) v (ix2 0 n) = Ideal.liftRound Int.floor (Spec.pos (v (ix2 0 n))) :=
  floor_apply _ n _ (clip_pre_apply v n)
theorem pay21_apply : k0_pay21 (F := Ideal) v (ix2 0 n) = BitVec.ofNat 32 (Spec.cell (v (ix2 0 n))) :=
  word_apply _ n _ (clip_pre_apply v n)
theorem pay22_apply : k0_pay22 (F := Ideal) v (ix2 0 n) = BitVec.ofNat 32 (Spec.next (v (ix2 0 n))) :=
  nextWord_apply _ n _ (clip_pre_apply v n)
theorem pay23_apply : k0_pay23 (F := Ideal) v (ix2 0 n) = Spec.frac (v (ix2 0 n)) :=
  fracRow_apply _ n _ (clip_pre_apply v n)
theorem pay24_apply (w : Fin 256) : k0_pay24 (F := Ideal) v (ix2 w n)
    = IntOp.cmpi .eq (BitVec.ofNat 32 w.val) (BitVec.ofNat 32 (Spec.cell (v (ix2 0 n)))) :=
  cellMask_apply _ w n _ (clip_pre_apply v n)
theorem pay25_apply : k0_pay25 (F := Ideal) v (ix2 0 n) = 1 - Spec.frac (v (ix2 0 n)) :=
  oneSubFracRow_apply _ n _ (clip_pre_apply v n)
theorem pay40_apply : k0_pay40 (F := Ideal) v (ix2 0 n) = Spec.pos (v (ix2 0 n)) := clip_pre_apply v n
theorem pay41_apply : k0_pay41 (F := Ideal) v (ix2 0 n) = Ideal.liftRound Int.floor (Spec.pos (v (ix2 0 n))) :=
  floor_apply _ n _ (clip_pre_apply v n)
theorem pay42_apply : k0_pay42 (F := Ideal) v (ix2 0 n) = BitVec.ofNat 32 (Spec.cell (v (ix2 0 n))) :=
  word_apply _ n _ (clip_pre_apply v n)
theorem pay43_apply : k0_pay43 (F := Ideal) v (ix2 0 n) = BitVec.ofNat 32 (Spec.next (v (ix2 0 n))) :=
  nextWord_apply _ n _ (clip_pre_apply v n)
theorem pay44_apply : k0_pay44 (F := Ideal) v (ix2 0 n) = Spec.frac (v (ix2 0 n)) :=
  fracRow_apply _ n _ (clip_pre_apply v n)
theorem pay45_apply (w : Fin 256) : k0_pay45 (F := Ideal) v (ix2 w n)
    = IntOp.cmpi .eq (BitVec.ofNat 32 w.val) (BitVec.ofNat 32 (Spec.cell (v (ix2 0 n)))) :=
  cellMask_apply _ w n _ (clip_pre_apply v n)
theorem pay38_apply : k0_pay38 (F := Ideal) v (ix2 0 n) = (v (ix2 0 n) + 1) * ((127.5 : ℝ) : EReal) := pre_apply v n

end Rows

theorem pay7_apply (y : Vec Ideal S1x2048 .f32) (n : Fin 2048) :
    k0_pay7 (F := Ideal) y (ix2 0 n) = (y (ix2 0 n) + 1) * ((127.5 : ℝ) : EReal) := by
  rw [pay7_eq, pay4_eq]; exact pre_apply y n

/-- The first plane pair's first weight matrix. -/
theorem pay6_apply (x : Vec Ideal S1x2048 .f32) (w : Fin 256) (n : Fin 2048) :
    k0_pay6 (F := Ideal) x (ix2 w n) = Spec.weights (x (ix2 0 n)) w := by
  rw [pay6_eq, pay3_eq, truncf_apply]
  exact wmat_apply _ w n _ (clip_pre_apply x n)

theorem pay8_apply (q : FVec Ideal S1x2048 .f32) (w : Fin 256) (n : Fin 2048) (c : EReal)
    (hq : q (ix2 0 n) = (c + 1) * ((127.5 : ℝ) : EReal)) :
    k0_pay8 (F := Ideal) q (ix2 w n) = Spec.weights c w :=
  wmat_apply _ w n c (clip_of_pre q n c hq)

theorem pay8_pay7_apply (y : Vec Ideal S1x2048 .f32) (w : Fin 256) (n : Fin 2048) :
    k0_pay8 (F := Ideal) (k0_pay7 (F := Ideal) y) (ix2 w n) = Spec.weights (y (ix2 0 n)) w :=
  pay8_apply _ w n _ (pay7_apply y n)

theorem pay26_apply (v : FVec Ideal S1x2048 .f32) (w : Fin 256) (n : Fin 2048) :
    k0_pay26 (F := Ideal) v (ix2 w n) = Spec.weights (v (ix2 0 n)) w :=
  wmat_apply _ w n _ (clip_pre_apply v n)

theorem pay39_apply (q : FVec Ideal S1x2048 .f32) (w : Fin 256) (n : Fin 2048) (c : EReal)
    (hq : q (ix2 0 n) = (c + 1) * ((127.5 : ℝ) : EReal)) :
    k0_pay39 (F := Ideal) q (ix2 w n) = Spec.weights c w := by
  rw [pay39_eq, truncf_apply]
  exact wmat_apply _ w n c (clip_of_pre q n c hq)

theorem pay39_pay38_apply (v : FVec Ideal S1x2048 .f32) (w : Fin 256) (n : Fin 2048) :
    k0_pay39 (F := Ideal) (k0_pay38 (F := Ideal) v) (ix2 w n) = Spec.weights (v (ix2 0 n)) w :=
  pay39_apply _ w n _ (pay38_apply v n)

/-- The third plane pair's second weight matrix, over the values the program passes to it. -/
theorem pay46_apply (v : FVec Ideal S1x2048 .f32) (w : Fin 256) (n : Fin 2048) :
    k0_pay46 (F := Ideal) (k0_pay43 (F := Ideal) v) (k0_pay44 (F := Ideal) v)
        (iota .tc S256x2048 32 [0] iota_S256x2048_d0_w32) (k0_pay45 (F := Ideal) v)
        (Scalar.ofBits (F := Ideal) .f32 0x3F800000#32) (ix2 w n)
      = Spec.weights (v (ix2 0 n)) w :=
  wmat_apply (clip (pre v)) w n _ (clip_pre_apply v n)

/-- The weight operand of the second plane's contraction, over the values the program passes to it. -/
theorem combine27_apply (v : FVec Ideal S1x2048 .f32) (w : Fin 256) (n : Fin 2048) :
    combine (k0_pay22 (F := Ideal) v) (k0_pay23 (F := Ideal) v) (iota .tc S256x2048 32 [0] iota_S256x2048_d0_w32)
        (k0_pay24 (F := Ideal) v) (k0_pay25 (F := Ideal) v) (ix2 w n)
      = Spec.weights (v (ix2 0 n)) w :=
  wmat_apply (clip (pre v)) w n _ (clip_pre_apply v n)

/-- The same as numbers: the two selections at row `w`, column `n`, and their sum. -/
theorem twoHot27 (v : FVec Ideal S1x2048 .f32) (w : Fin 256) (n : Fin 2048) :
    Scalar.select (k0_pay24 (F := Ideal) v (ix2 w n)) (k0_pay25 (F := Ideal) v (ix2 0 n))
        (Ideal.ofBits .f32 0x00000000#32)
      + Scalar.select (IntOp.cmpi .eq ((iota .tc S256x2048 32 [0] iota_S256x2048_d0_w32 : IVec S256x2048 32) (ix2 w n))
          (k0_pay22 (F := Ideal) v (ix2 0 n))) (k0_pay23 (F := Ideal) v (ix2 0 n))
        (Ideal.ofBits .f32 0x00000000#32)
      = Spec.weights (v (ix2 0 n)) w := by
  rw [pay24_apply, pay25_apply, pay22_apply, pay23_apply]
  have hio := rowIota_apply w n
  unfold rowIota at hio
  rw [hio]
  exact twoHot_eq _ w

end Cert.KernelWeights

end
-- ==== Proof.KernelComposites.lean ====
/-
  The kernel's payloads composed as the run applies them, read at one entry in terms of the weight rows.

  Each plane's weight matrices, read at (w, n), are the weight row of the coordinate at column n.  Substituted into
  the matrix products and the column sums, the plane product at (r, n) is the contraction of plane row r with the
  weight row of the x coordinate, and each feature row at column n is the contraction of the slab's column n with
  the weight row of the y coordinate.
-/
import proofs.«108864_j88381837017835_2_alg».proof.Proof.KernelPayloads
import proofs.«108864_j88381837017835_2_alg».proof.Proof.KernelWeights

noncomputable section

namespace Cert.KernelComposites

open Idealize.ShloMosaic Idealize.ShloMosaic.ValueIdx Cert.KernelIdeal Cert.KernelIdeal.Gen Cert.KernelPayloads Finset

/-- The position words along axis 0, and the float word one. -/
abbrev I : IVec S256x2048 32 := iota .tc S256x2048 32 [0] iota_S256x2048_d0_w32
abbrev one : Ideal .f32 := Scalar.ofBits (F := Ideal) .f32 0x3F800000#32

/-- The weight entry the second plane's product assembles is the weight row's. -/
theorem twoHotEntry_apply (v : FVec Ideal S1x2048 .f32) (w : Fin 256) (n : Fin 2048) :
    twoHotEntry (k0_pay22 (F := Ideal) v) (k0_pay23 (F := Ideal) v) I (k0_pay24 (F := Ideal) v) (k0_pay25 (F := Ideal) v) w n
      = Spec.weights (v (ix2 0 n)) w :=
  Cert.KernelWeights.twoHot27 v w n

variable (x y : Vec Ideal S1x2048 .f32) (S : Vec Ideal S256x2048 .f32) (g : Vec Ideal S2048x256 .bf16) (r n : Fin 2048)

/-! ## Plane products -/

theorem mm1 : k0_pay9 (F := Ideal) (k0_pay6 x) g (ix2 r n) = ∑ w : Fin 256, g (ix2 r w) * Spec.weights (x (ix2 0 n)) w :=
  (pay9_apply _ g r n).trans (Finset.sum_congr rfl fun w _ => congrArg (g (ix2 r w) * ·) (Cert.KernelWeights.pay6_apply x w n))

theorem mm2 : k0_pay28 (F := Ideal) (k0_pay27 (k0_pay22 (k0_pay3 x)) (k0_pay23 (k0_pay3 x)) I (k0_pay24 (k0_pay3 x))
      (k0_pay25 (k0_pay3 x)) g) (ix2 r n) = ∑ w : Fin 256, g (ix2 r w) * Spec.weights (x (ix2 0 n)) w := by
  rw [pay28_eq, pay3_eq]
  exact (pay27_apply _ _ _ _ _ g r n).trans (Finset.sum_congr rfl fun w _ => congrArg (g (ix2 r w) * ·) (twoHotEntry_apply x w n))

theorem mm3 : k0_pay47 (F := Ideal) (k0_pay39 (k0_pay38 (k0_pay4 x))) g (ix2 r n)
    = ∑ w : Fin 256, g (ix2 r w) * Spec.weights (x (ix2 0 n)) w := by
  rw [pay4_eq]
  exact (pay47_apply _ g r n).trans (Finset.sum_congr rfl fun w _ => congrArg (g (ix2 r w) * ·) (Cert.KernelWeights.pay39_pay38_apply x w n))

/-! ## Feature rows -/

/-- A column sum against a weight matrix whose column n is the weight row of `c`. -/
theorem row_of (W : FVec Ideal S256x2048 .f32) (c : EReal) (hW : ∀ h : Fin 256, W (ix2 h n) = Spec.weights c h) :
    ∑ h : Fin 256, S (ix2 h n) * W (ix2 h n) = ∑ h : Fin 256, S (ix2 h n) * Spec.weights c h :=
  Finset.sum_congr rfl fun h _ => congrArg (S (ix2 h n) * ·) (hW h)

/-- Plane 1: the y weights come from coordinate row `y` through its pre-clip product. -/
theorem row1_10 : k0_pay10 (F := Ideal) (k0_pay7 y) S (ix2 0 n) = ∑ h : Fin 256, S (ix2 h n) * Spec.weights (y (ix2 0 n)) h := by
  exact (pay10_apply _ S n).trans (row_of S n _ _ fun h => Cert.KernelWeights.pay8_pay7_apply y h n)

theorem row1_11 : k0_pay11 (F := Ideal) (k0_pay8 (k0_pay7 y)) S (ix2 0 n) = ∑ h : Fin 256, S (ix2 h n) * Spec.weights (y (ix2 0 n)) h := by
  exact (pay11_apply _ S n).trans (row_of S n _ _ fun h => Cert.KernelWeights.pay8_pay7_apply y h n)

theorem row1_12 : k0_pay12 (F := Ideal) (k0_pay8 (k0_pay7 y)) S (ix2 0 n) = ∑ h : Fin 256, S (ix2 h n) * Spec.weights (y (ix2 0 n)) h := by
  exact (pay12_apply _ S n).trans (row_of S n _ _ fun h => Cert.KernelWeights.pay8_pay7_apply y h n)

theorem row1_13 : k0_pay13 (F := Ideal) (k0_pay8 (k0_pay7 y)) S (ix2 0 n) = ∑ h : Fin 256, S (ix2 h n) * Spec.weights (y (ix2 0 n)) h := by
  exact (pay13_apply _ S n).trans (row_of S n _ _ fun h => Cert.KernelWeights.pay8_pay7_apply y h n)

theorem row1_14 : k0_pay14 (F := Ideal) (k0_pay8 (k0_pay7 y)) S (ix2 0 n) = ∑ h : Fin 256, S (ix2 h n) * Spec.weights (y (ix2 0 n)) h := by
  exact (pay14_apply _ S n).trans (row_of S n _ _ fun h => Cert.KernelWeights.pay8_pay7_apply y h n)

theorem row1_17 : k0_pay17 (F := Ideal) (k0_pay8 (k0_pay7 y)) S (ix2 0 n) = ∑ h : Fin 256, S (ix2 h n) * Spec.weights (y (ix2 0 n)) h := by
  exact (pay17_apply _ S n).trans (row_of S n _ _ fun h => Cert.KernelWeights.pay8_pay7_apply y h n)

theorem row1_18 : k0_pay18 (F := Ideal) (k0_pay8 (k0_pay7 y)) S (ix2 0 n) = ∑ h : Fin 256, S (ix2 h n) * Spec.weights (y (ix2 0 n)) h := by
  exact (pay18_apply _ S n).trans (row_of S n _ _ fun h => Cert.KernelWeights.pay8_pay7_apply y h n)

theorem row1_16 : k0_pay16 (F := Ideal) (k0_pay15 (k0_pay8 (k0_pay7 y)) S) (ix2 0 n) = ∑ h : Fin 256, S (ix2 h n) * Spec.weights (y (ix2 0 n)) h := by
  rw [pay16_eq]
  exact (pay15_apply _ S n).trans (row_of S n _ _ fun h => Cert.KernelWeights.pay8_pay7_apply y h n)

/-- Plane 2. -/
theorem row2_29 : k0_pay29 (F := Ideal) (k0_pay26 (k0_pay5 y)) S (ix2 0 n) = ∑ h : Fin 256, S (ix2 h n) * Spec.weights (y (ix2 0 n)) h := by
  rw [pay5_eq]
  exact (pay29_apply _ S n).trans (row_of S n _ _ fun h => Cert.KernelWeights.pay26_apply y h n)

theorem row2_30 : k0_pay30 (F := Ideal) (k0_pay26 (k0_pay5 y)) S (ix2 0 n) = ∑ h : Fin 256, S (ix2 h n) * Spec.weights (y (ix2 0 n)) h := by
  rw [pay5_eq]
  exact (pay30_apply _ S n).trans (row_of S n _ _ fun h => Cert.KernelWeights.pay26_apply y h n)

theorem row2_31 : k0_pay31 (F := Ideal) (k0_pay26 (k0_pay5 y)) S (ix2 0 n) = ∑ h : Fin 256, S (ix2 h n) * Spec.weights (y (ix2 0 n)) h := by
  rw [pay5_eq]
  exact (pay31_apply _ S n).trans (row_of S n _ _ fun h => Cert.KernelWeights.pay26_apply y h n)

theorem row2_32 : k0_pay32 (F := Ideal) (k0_pay26 (k0_pay5 y)) S (ix2 0 n) = ∑ h : Fin 256, S (ix2 h n) * Spec.weights (y (ix2 0 n)) h := by
  rw [pay5_eq]
  exact (pay32_apply _ S n).trans (row_of S n _ _ fun h => Cert.KernelWeights.pay26_apply y h n)

theorem row2_33 : k0_pay33 (F := Ideal) (k0_pay26 (k0_pay5 y)) S (ix2 0 n) = ∑ h : Fin 256, S (ix2 h n) * Spec.weights (y (ix2 0 n)) h := by
  rw [pay5_eq]
  exact (pay33_apply _ S n).trans (row_of S n _ _ fun h => Cert.KernelWeights.pay26_apply y h n)

theorem row2_34 : k0_pay34 (F := Ideal) (k0_pay26 (k0_pay5 y)) S (ix2 0 n) = ∑ h : Fin 256, S (ix2 h n) * Spec.weights (y (ix2 0 n)) h := by
  rw [pay5_eq]
  exact (pay34_apply _ S n).trans (row_of S n _ _ fun h => Cert.KernelWeights.pay26_apply y h n)

theorem row2_35 : k0_pay35 (F := Ideal) (k0_pay26 (k0_pay5 y)) S (ix2 0 n) = ∑ h : Fin 256, S (ix2 h n) * Spec.weights (y (ix2 0 n)) h := by
  rw [pay5_eq]
  exact (pay35_apply _ S n).trans (row_of S n _ _ fun h => Cert.KernelWeights.pay26_apply y h n)

theorem row2_36 : k0_pay36 (F := Ideal) (k0_pay26 (k0_pay5 y)) S (ix2 0 n) = ∑ h : Fin 256, S (ix2 h n) * Spec.weights (y (ix2 0 n)) h := by
  rw [pay5_eq]
  exact (pay36_apply _ S n).trans (row_of S n _ _ fun h => Cert.KernelWeights.pay26_apply y h n)

/-- Plane 3: the weight matrix is rebuilt from the words, the fraction and the cell mask of coordinate row `y`. -/
theorem row3_48 : k0_pay48 (F := Ideal) (k0_pay43 (k0_pay5 y)) (k0_pay44 (k0_pay5 y)) I (k0_pay45 (k0_pay5 y)) one S (ix2 0 n) = ∑ h : Fin 256, S (ix2 h n) * Spec.weights (y (ix2 0 n)) h := by
  rw [pay5_eq]
  exact (pay48_apply _ _ _ _ _ S n).trans (row_of S n _ _ fun h => Cert.KernelWeights.pay46_apply y h n)

theorem row3_49 : k0_pay49 (F := Ideal) (k0_pay43 (k0_pay5 y)) (k0_pay44 (k0_pay5 y)) I (k0_pay45 (k0_pay5 y)) one S (ix2 0 n) = ∑ h : Fin 256, S (ix2 h n) * Spec.weights (y (ix2 0 n)) h := by
  rw [pay5_eq]
  exact (pay49_apply _ _ _ _ _ S n).trans (row_of S n _ _ fun h => Cert.KernelWeights.pay46_apply y h n)

theorem row3_51 : k0_pay51 (F := Ideal) (k0_pay50 (k0_pay43 (k0_pay5 y)) (k0_pay44 (k0_pay5 y)) I (k0_pay45 (k0_pay5 y)) one S) (ix2 0 n) = ∑ h : Fin 256, S (ix2 h n) * Spec.weights (y (ix2 0 n)) h := by
  rw [pay51_eq, pay5_eq]
  exact (pay50_apply _ _ _ _ _ S n).trans (row_of S n _ _ fun h => Cert.KernelWeights.pay46_apply y h n)

theorem row3_52 : k0_pay52 (F := Ideal) (k0_pay46 (k0_pay43 (k0_pay5 y)) (k0_pay44 (k0_pay5 y)) I (k0_pay45 (k0_pay5 y)) one) S (ix2 0 n) = ∑ h : Fin 256, S (ix2 h n) * Spec.weights (y (ix2 0 n)) h := by
  rw [pay5_eq]
  exact (pay52_apply _ S n).trans (row_of S n _ _ fun h => Cert.KernelWeights.pay46_apply y h n)

theorem row3_53 : k0_pay53 (F := Ideal) (k0_pay46 (k0_pay43 (k0_pay5 y)) (k0_pay44 (k0_pay5 y)) I (k0_pay45 (k0_pay5 y)) one) S (ix2 0 n) = ∑ h : Fin 256, S (ix2 h n) * Spec.weights (y (ix2 0 n)) h := by
  rw [pay5_eq]
  exact (pay53_apply _ S n).trans (row_of S n _ _ fun h => Cert.KernelWeights.pay46_apply y h n)

theorem row3_54 : k0_pay54 (F := Ideal) (k0_pay46 (k0_pay43 (k0_pay5 y)) (k0_pay44 (k0_pay5 y)) I (k0_pay45 (k0_pay5 y)) one) S (ix2 0 n) = ∑ h : Fin 256, S (ix2 h n) * Spec.weights (y (ix2 0 n)) h := by
  rw [pay5_eq]
  exact (pay54_apply _ S n).trans (row_of S n _ _ fun h => Cert.KernelWeights.pay46_apply y h n)

theorem row3_55 : k0_pay55 (F := Ideal) (k0_pay46 (k0_pay43 (k0_pay5 y)) (k0_pay44 (k0_pay5 y)) I (k0_pay45 (k0_pay5 y)) one) S (ix2 0 n) = ∑ h : Fin 256, S (ix2 h n) * Spec.weights (y (ix2 0 n)) h := by
  rw [pay5_eq]
  exact (pay55_apply _ S n).trans (row_of S n _ _ fun h => Cert.KernelWeights.pay46_apply y h n)

theorem row3_1 : k0_pay1 (F := Ideal) (k0_pay46 (k0_pay43 (k0_pay5 y)) (k0_pay44 (k0_pay5 y)) I (k0_pay45 (k0_pay5 y)) one) S (ix2 0 n) = ∑ h : Fin 256, S (ix2 h n) * Spec.weights (y (ix2 0 n)) h := by
  rw [pay5_eq]
  exact (pay1_apply _ S n).trans (row_of S n _ _ fun h => Cert.KernelWeights.pay46_apply y h n)

end Cert.KernelComposites

end
-- ==== Proof.KernelBlock.lean ====
/-
  What one grid point of the kernel writes to its output block.

  The body computes, for each of its 2048 points and each of the three planes, a bilinear sample written as two
  contractions: the plane's 2048 × 256 matrix (eight stacked 256 × 256 feature planes) against the 256 × 2048
  weight matrix of the first coordinate goes into a 2048 × 2048 scratch matrix; rows [256 f, 256 f + 256) of it,
  multiplied by the weight matrix of the second coordinate and summed down the columns, go into row f of an
  8 × 2048 scratch tile.  The three tiles are multiplied entrywise, two small linear maps and an exponential follow.

  First the block is written as one composition of the body's arithmetic over the input blocks, for any float
  interpretation: every read of a scratch buffer is replaced by what the earlier stores left there.  Then, on the
  extended reals, each factor is read at an index and identified with the specification's density.
-/
import proofs.«108864_j88381837017835_2_alg».proof.Proof.Gen.KernelIdeal.Frame
import proofs.«108864_j88381837017835_2_alg».proof.Proof.Spec
import proofs.«108864_j88381837017835_2_alg».proof.Proof.KernelComposites
import Idealize.ShloMosaic.Lib.ValueIdx
import Idealize.ShloMosaic.Lib.Pipeline.Value

set_option maxRecDepth 16384

noncomputable section

namespace Cert.KernelBlock

open Idealize.ShloMosaic Idealize.ShloMosaic.TcCoe Idealize.ShloMosaic.Tactic Idealize.ShloMosaic.ValueIdx
open Cert.KernelIdeal Cert.KernelIdeal.Gen

variable {F : FTy → Type} [FloatOps F]

/-! ## The tiles one grid point computes, as compositions of the body's payloads

The body keeps two scratch buffers: a 2048 × 2048 matrix that receives, for each plane, the product of the
plane's 2048 × 256 matrix with the 256 × 2048 weight matrix of the first coordinate, and an 8 × 2048 tile whose
row `f` receives the column sums of rows `[256 f, 256 f + 256)` of that product against the weight matrix of the
second coordinate.  Below, every value the body reads back from a scratch buffer is written as a function of the
input blocks alone. -/

/-- Row `k` of the block of normalised coordinates. -/
def crow0 (x0 : Vec F S3x2048 .f32) : Vec F S1x2048 .f32 :=
  View.ld x0 (Rect.unit (s := S3x2048) ![0, 0] S1x2048.size inb_S3x2048_S1x2048_0_0)
def crow1 (x0 : Vec F S3x2048 .f32) : Vec F S1x2048 .f32 :=
  View.ld x0 (Rect.unit (s := S3x2048) ![1, 0] S1x2048.size inb_S3x2048_S1x2048_1_0)
def crow2 (x0 : Vec F S3x2048 .f32) : Vec F S1x2048 .f32 :=
  View.ld x0 (Rect.unit (s := S3x2048) ![2, 0] S1x2048.size inb_S3x2048_S1x2048_2_0)

/-- Rows `[256 f, 256 f + 256)` of a 2048 × 2048 matrix. -/
def slab (M : Vec F S2048x2048 .f32) : Fin 8 → Vec F S256x2048 .f32
  | ⟨0, _⟩ => View.ld M (Rect.unit (s := S2048x2048) ![0, 0] S256x2048.size inb_S2048x2048_S256x2048_0_0)
  | ⟨1, _⟩ => View.ld M (Rect.unit (s := S2048x2048) ![256, 0] S256x2048.size inb_S2048x2048_S256x2048_256_0)
  | ⟨2, _⟩ => View.ld M (Rect.unit (s := S2048x2048) ![512, 0] S256x2048.size inb_S2048x2048_S256x2048_512_0)
  | ⟨3, _⟩ => View.ld M (Rect.unit (s := S2048x2048) ![768, 0] S256x2048.size inb_S2048x2048_S256x2048_768_0)
  | ⟨4, _⟩ => View.ld M (Rect.unit (s := S2048x2048) ![1024, 0] S256x2048.size inb_S2048x2048_S256x2048_1024_0)
  | ⟨5, _⟩ => View.ld M (Rect.unit (s := S2048x2048) ![1280, 0] S256x2048.size inb_S2048x2048_S256x2048_1280_0)
  | ⟨6, _⟩ => View.ld M (Rect.unit (s := S2048x2048) ![1536, 0] S256x2048.size inb_S2048x2048_S256x2048_1536_0)
  | ⟨7, _⟩ => View.ld M (Rect.unit (s := S2048x2048) ![1792, 0] S256x2048.size inb_S2048x2048_S256x2048_1792_0)
  | ⟨_ + 8, h⟩ => absurd h (Nat.not_lt.2 (Nat.le_add_left _ _))

/-- Eight row stores into the 8 × 2048 tile, the last row stored first in the list, over earlier stores `L`. -/
def rows8 (w : Fin 8 → Vec F S1x2048 .f32) (L : List (View.Piece (Elt F) S8x2048 .f32)) :
    List (View.Piece (Elt F) S8x2048 .f32) :=
  ⟨Rect.unit (s := S8x2048) ![7, 0] S1x2048.size inb_S8x2048_S1x2048_7_0, w 7⟩ ::
  ⟨Rect.unit (s := S8x2048) ![6, 0] S1x2048.size inb_S8x2048_S1x2048_6_0, w 6⟩ ::
  ⟨Rect.unit (s := S8x2048) ![5, 0] S1x2048.size inb_S8x2048_S1x2048_5_0, w 5⟩ ::
  ⟨Rect.unit (s := S8x2048) ![4, 0] S1x2048.size inb_S8x2048_S1x2048_4_0, w 4⟩ ::
  ⟨Rect.unit (s := S8x2048) ![3, 0] S1x2048.size inb_S8x2048_S1x2048_3_0, w 3⟩ ::
  ⟨Rect.unit (s := S8x2048) ![2, 0] S1x2048.size inb_S8x2048_S1x2048_2_0, w 2⟩ ::
  ⟨Rect.unit (s := S8x2048) ![1, 0] S1x2048.size inb_S8x2048_S1x2048_1_0, w 1⟩ ::
  ⟨Rect.unit (s := S8x2048) ![0, 0] S1x2048.size inb_S8x2048_S1x2048_0_0, w 0⟩ :: L

/-- The first plane's product: the plane (g01) against the weight matrix of coordinate 0. -/
def mm1 (x0 : Vec F S3x2048 .f32) (x1 : Vec F S2048x256 .bf16) : FVec F S2048x2048 .f32 :=
  k0_pay9 (k0_pay6 (crow0 x0)) x1

/-- The second plane's product: the plane (g02) against the weight matrix of coordinate 0. -/
def mm2 (x0 : Vec F S3x2048 .f32) (x2 : Vec F S2048x256 .bf16) : FVec F S2048x2048 .f32 :=
  k0_pay28 (k0_pay27 (k0_pay22 (k0_pay3 (crow0 x0))) (k0_pay23 (k0_pay3 (crow0 x0)))
    (iota .tc S256x2048 32 [0] iota_S256x2048_d0_w32) (k0_pay24 (k0_pay3 (crow0 x0))) (k0_pay25 (k0_pay3 (crow0 x0))) x2)

/-- The third plane's product: the plane (g12) against the weight matrix of coordinate 1. -/
def mm3 (x0 : Vec F S3x2048 .f32) (x3 : Vec F S2048x256 .bf16) : FVec F S2048x2048 .f32 :=
  k0_pay47 (k0_pay39 (k0_pay38 (k0_pay4 (crow1 x0)))) x3

/-- Row `f` of the first plane's feature tile: slab `f` of the product summed against the weights of coordinate 1. -/
def rowP1 (x0 : Vec F S3x2048 .f32) (x1 : Vec F S2048x256 .bf16) : Fin 8 → Vec F S1x2048 .f32
  | ⟨0, _⟩ => k0_pay10 (k0_pay7 (crow1 x0)) (slab (mm1 x0 x1) 0)
  | ⟨1, _⟩ => k0_pay11 (k0_pay8 (k0_pay7 (crow1 x0))) (slab (mm1 x0 x1) 1)
  | ⟨2, _⟩ => k0_pay12 (k0_pay8 (k0_pay7 (crow1 x0))) (slab (mm1 x0 x1) 2)
  | ⟨3, _⟩ => k0_pay13 (k0_pay8 (k0_pay7 (crow1 x0))) (slab (mm1 x0 x1) 3)
  | ⟨4, _⟩ => k0_pay14 (k0_pay8 (k0_pay7 (crow1 x0))) (slab (mm1 x0 x1) 4)
  | ⟨5, _⟩ => k0_pay16 (k0_pay15 (k0_pay8 (k0_pay7 (crow1 x0))) (slab (mm1 x0 x1) 5))
  | ⟨6, _⟩ => k0_pay17 (k0_pay8 (k0_pay7 (crow1 x0))) (slab (mm1 x0 x1) 6)
  | ⟨7, _⟩ => k0_pay18 (k0_pay8 (k0_pay7 (crow1 x0))) (slab (mm1 x0 x1) 7)
  | ⟨_ + 8, h⟩ => absurd h (Nat.not_lt.2 (Nat.le_add_left _ _))

/-- Row `f` of the second plane's feature tile (weights of coordinate 2). -/
def rowP2 (x0 : Vec F S3x2048 .f32) (x2 : Vec F S2048x256 .bf16) : Fin 8 → Vec F S1x2048 .f32
  | ⟨0, _⟩ => k0_pay29 (k0_pay26 (k0_pay5 (crow2 x0))) (slab (mm2 x0 x2) 0)
  | ⟨1, _⟩ => k0_pay30 (k0_pay26 (k0_pay5 (crow2 x0))) (slab (mm2 x0 x2) 1)
  | ⟨2, _⟩ => k0_pay31 (k0_pay26 (k0_pay5 (crow2 x0))) (slab (mm2 x0 x2) 2)
  | ⟨3, _⟩ => k0_pay32 (k0_pay26 (k0_pay5 (crow2 x0))) (slab (mm2 x0 x2) 3)
  | ⟨4, _⟩ => k0_pay33 (k0_pay26 (k0_pay5 (crow2 x0))) (slab (mm2 x0 x2) 4)
  | ⟨5, _⟩ => k0_pay34 (k0_pay26 (k0_pay5 (crow2 x0))) (slab (mm2 x0 x2) 5)
  | ⟨6, _⟩ => k0_pay35 (k0_pay26 (k0_pay5 (crow2 x0))) (slab (mm2 x0 x2) 6)
  | ⟨7, _⟩ => k0_pay36 (k0_pay26 (k0_pay5 (crow2 x0))) (slab (mm2 x0 x2) 7)
  | ⟨_ + 8, h⟩ => absurd h (Nat.not_lt.2 (Nat.le_add_left _ _))

/-- Row `f` of the third plane's feature tile (weights of coordinate 2, kept as cell words and fractions). -/
def rowP3 (x0 : Vec F S3x2048 .f32) (x3 : Vec F S2048x256 .bf16) : Fin 8 → Vec F S1x2048 .f32
  | ⟨0, _⟩ => k0_pay48 (k0_pay43 (k0_pay5 (crow2 x0))) (k0_pay44 (k0_pay5 (crow2 x0))) (iota .tc S256x2048 32 [0] iota_S256x2048_d0_w32)
      (k0_pay45 (k0_pay5 (crow2 x0))) (Scalar.ofBits .f32 0x3F800000#32) (slab (mm3 x0 x3) 0)
  | ⟨1, _⟩ => k0_pay49 (k0_pay43 (k0_pay5 (crow2 x0))) (k0_pay44 (k0_pay5 (crow2 x0))) (iota .tc S256x2048 32 [0] iota_S256x2048_d0_w32)
      (k0_pay45 (k0_pay5 (crow2 x0))) (Scalar.ofBits .f32 0x3F800000#32) (slab (mm3 x0 x3) 1)
  | ⟨2, _⟩ => k0_pay51 (k0_pay50 (k0_pay43 (k0_pay5 (crow2 x0))) (k0_pay44 (k0_pay5 (crow2 x0))) (iota .tc S256x2048 32 [0] iota_S256x2048_d0_w32)
      (k0_pay45 (k0_pay5 (crow2 x0))) (Scalar.ofBits .f32 0x3F800000#32) (slab (mm3 x0 x3) 2))
  | ⟨3, _⟩ => k0_pay52 (k0_pay46 (k0_pay43 (k0_pay5 (crow2 x0))) (k0_pay44 (k0_pay5 (crow2 x0))) (iota .tc S256x2048 32 [0] iota_S256x2048_d0_w32)
      (k0_pay45 (k0_pay5 (crow2 x0))) (Scalar.ofBits .f32 0x3F800000#32)) (slab (mm3 x0 x3) 3)
  | ⟨4, _⟩ => k0_pay53 (k0_pay46 (k0_pay43 (k0_pay5 (crow2 x0))) (k0_pay44 (k0_pay5 (crow2 x0))) (iota .tc S256x2048 32 [0] iota_S256x2048_d0_w32)
      (k0_pay45 (k0_pay5 (crow2 x0))) (Scalar.ofBits .f32 0x3F800000#32)) (slab (mm3 x0 x3) 4)
  | ⟨5, _⟩ => k0_pay54 (k0_pay46 (k0_pay43 (k0_pay5 (crow2 x0))) (k0_pay44 (k0_pay5 (crow2 x0))) (iota .tc S256x2048 32 [0] iota_S256x2048_d0_w32)
      (k0_pay45 (k0_pay5 (crow2 x0))) (Scalar.ofBits .f32 0x3F800000#32)) (slab (mm3 x0 x3) 5)
  | ⟨6, _⟩ => k0_pay55 (k0_pay46 (k0_pay43 (k0_pay5 (crow2 x0))) (k0_pay44 (k0_pay5 (crow2 x0))) (iota .tc S256x2048 32 [0] iota_S256x2048_d0_w32)
      (k0_pay45 (k0_pay5 (crow2 x0))) (Scalar.ofBits .f32 0x3F800000#32)) (slab (mm3 x0 x3) 6)
  | ⟨7, _⟩ => k0_pay1 (k0_pay46 (k0_pay43 (k0_pay5 (crow2 x0))) (k0_pay44 (k0_pay5 (crow2 x0))) (iota .tc S256x2048 32 [0] iota_S256x2048_d0_w32)
      (k0_pay45 (k0_pay5 (crow2 x0))) (Scalar.ofBits .f32 0x3F800000#32)) (slab (mm3 x0 x3) 7)
  | ⟨_ + 8, h⟩ => absurd h (Nat.not_lt.2 (Nat.le_add_left _ _))

/-- The 8 × 2048 tile as the body reads it back after each plane's eight row stores. -/
def feat1 (x0 : Vec F S3x2048 .f32) (x1 : Vec F S2048x256 .bf16) : Vec F S8x2048 .f32 :=
  View.canon (rows8 (rowP1 x0 x1) [])
def feat2 (x0 : Vec F S3x2048 .f32) (x1 x2 : Vec F S2048x256 .bf16) : Vec F S8x2048 .f32 :=
  View.canon (rows8 (rowP2 x0 x2) (rows8 (rowP1 x0 x1) []))
def feat3 (x0 : Vec F S3x2048 .f32) (x1 x2 x3 : Vec F S2048x256 .bf16) : Vec F S8x2048 .f32 :=
  View.canon (rows8 (rowP3 x0 x3) (rows8 (rowP2 x0 x2) (rows8 (rowP1 x0 x1) [])))

/-! ## Reading the scratch buffers back -/

theorem hz2 : (![0, 0] : Fin 2 → Nat) = fun _ => 0 := by funext a; match a with | ⟨0, _⟩ => rfl | ⟨1, _⟩ => rfl
theorem hz1 : (![0] : Fin 1 → Nat) = fun _ => 0 := funext fun a => by fin_cases a; rfl

section Reads

variable {Val : EltTy → Type} [∀ e, Nonempty (Val e)] {sig : RefSig} {κ : Kind} {sp : Space} {S : Shape} {e : EltTy}

/-- A load through any rectangle, after stores the LAST of which filled the whole buffer, reads that store's
    payload at the rectangle. -/
theorem readCov_cons_whole (v : View sig κ sp S e) {off : Fin S.rank → Nat} (h : off = fun _ => 0)
    (inb : ∀ a, off a + S.size a ≤ S.size a) (P : S.Idx → Val e) (L : List (View.Piece Val S e)) (r : Rect S) :
    v.readCov ((⟨Rect.unit off S.size inb, P⟩ : View.Piece Val S e) :: L) r.toLoadRect = View.ld P r := by
  rw [View.readCov_eq_canon', View.canon_cons_unit_zero h inb P L]

/-- A load of the whole buffer after a list of stores reads what the stores leave. -/
theorem readCov_whole (v : View sig κ sp S e) {off : Fin S.rank → Nat} (h : off = fun _ => 0)
    (inb : ∀ a, off a + S.size a ≤ S.size a) (L : List (View.Piece Val S e)) :
    v.readCov L (Rect.unit off S.size inb).toLoadRect = View.canon L := by
  rw [View.readCov_eq_canon']; exact View.ld_unit_zero h inb (View.canon L)

end Reads

/-- What one grid point leaves in the output block, as a composition of the body's payloads over the input blocks:
    the three planes' feature tiles multiplied, the two linear maps and the exponential. -/
theorem out_block_eq (c : Dev nD) (i : grid0.Coords) (arg1 : Memref sig .tc .vmem S3x2048 .f32) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S64x8 .bf16) (harg5 : arg5.IsWhole) (arg6 : Memref sig .tc .vmem S1x64 .bf16) (harg6 : arg6.IsWhole) (arg7 : Memref sig .tc .vmem S2048 .f32) (harg7 : arg7.IsWhole) (arg8 : Memref sig .tc .vmem S2048x2048 .f32) (harg8 : arg8.IsWhole) (arg9 : Memref sig .tc .vmem S8x2048 .f32) (harg9 : arg9.IsWhole)
    (x0 : Vec F S3x2048 .f32) (x1 : Vec F S2048x256 .bf16) (x2 : Vec F S2048x256 .bf16) (x3 : Vec F S2048x256 .bf16) (x4 : Vec F S64x8 .bf16) (x5 : Vec F S1x64 .bf16) :
    out0_A_6 c i arg1 harg1 arg2 harg2 arg3 harg3 arg4 harg4 arg5 harg5 arg6 harg6 arg7 harg7 arg8 harg8 arg9 harg9 x0 x1 x2 x3 x4 x5
      = k0_pay2 (k0_pay37 (feat1 x0 x1) (feat2 x0 x1 x2)) (feat3 x0 x1 x2 x3) x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4 x5)]
  unfold kernelRun0_A
  dsimp only
  rw [View.canon_unit_zero hz1]
  sl_unfold_run_names
  simp only [View.readAt_eq_ld, Memref.IsWhole.read_unread, View.ld_unit_zero (S := S2048x256) hz2,
    View.ld_unit_zero (S := S64x8) hz2, View.ld_unit_zero (S := S1x64) hz2,
    readCov_cons_whole (S := S2048x2048) _ hz2, readCov_whole (S := S8x2048) _ hz2]
  rfl

/-! ## The tiles at an index -/

theorem crow0_apply (x0 : Vec F S3x2048 .f32) (n : Fin 2048) : crow0 x0 (ix2 0 n) = x0 (ix2 0 n) := by
  refine congrArg x0 ?_
  funext a; apply Fin.ext
  match a with
  | ⟨0, _⟩ => show 0 + 1 * 0 = 0; rfl
  | ⟨1, _⟩ => show 0 + 1 * n.val = n.val; omega

theorem crow1_apply (x0 : Vec F S3x2048 .f32) (n : Fin 2048) : crow1 x0 (ix2 0 n) = x0 (ix2 1 n) := by
  refine congrArg x0 ?_
  funext a; apply Fin.ext
  match a with
  | ⟨0, _⟩ => show 1 + 1 * 0 = 1; rfl
  | ⟨1, _⟩ => show 0 + 1 * n.val = n.val; omega

theorem crow2_apply (x0 : Vec F S3x2048 .f32) (n : Fin 2048) : crow2 x0 (ix2 0 n) = x0 (ix2 2 n) := by
  refine congrArg x0 ?_
  funext a; apply Fin.ext
  match a with
  | ⟨0, _⟩ => show 2 + 1 * 0 = 2; rfl
  | ⟨1, _⟩ => show 0 + 1 * n.val = n.val; omega

/-- Slab `f` of a matrix at row `h` is the matrix at row `256 f + h`. -/
theorem slab_apply (M : Vec F S2048x2048 .f32) (f : Fin 8) (h : Fin 256) (n : Fin 2048) :
    slab M f (ix2 h n) = M (ix2 (Spec.planeRow f h) n) := by
  match f with
  | ⟨0, _⟩ | ⟨1, _⟩ | ⟨2, _⟩ | ⟨3, _⟩ | ⟨4, _⟩ | ⟨5, _⟩ | ⟨6, _⟩ | ⟨7, _⟩ =>
    refine congrArg M ?_
    funext a; apply Fin.ext
    match a with
    | ⟨0, _⟩ => simp only [LoadRect.idx_apply, Rect.off_unit, Rect.stride_unit, Spec.planeRow]; simp
    | ⟨1, _⟩ => show 0 + 1 * n.val = n.val; omega

section Rows

variable {Val : EltTy → Type} [∀ e, Nonempty (Val e)]

/-- One row store over earlier stores, read at row `f`: the stored row if `f` is that row, the earlier stores'
    contents otherwise. -/
theorem canon_row_cons (k : Nat) (inb : ∀ a, (![k, 0] : Fin 2 → Nat) a + S1x2048.size a ≤ S8x2048.size a)
    (w : S1x2048.Idx → Val .f32) (L : List (View.Piece Val S8x2048 .f32)) (f : Fin 8) (n : Fin 2048) :
    View.canon ((⟨Rect.unit (s := S8x2048) ![k, 0] S1x2048.size inb, w⟩ : View.Piece Val S8x2048 .f32) :: L) (ix2 f n)
      = if f.val = k then w (ix2 0 n) else View.canon L (ix2 f n) := by
  split_ifs with hf
  · have he : (Rect.unit (s := S8x2048) ![k, 0] S1x2048.size inb).emb (ix2 0 n) = ix2 f n := by
      funext a; apply Fin.ext
      match a with
      | ⟨0, _⟩ => show k + 1 * 0 = f.val; omega
      | ⟨1, _⟩ => show 0 + 1 * n.val = n.val; omega
    exact (congrArg (View.canon _) he.symm).trans
      (View.canon_cons_emb (Rect.unit (s := S8x2048) ![k, 0] S1x2048.size inb) w L (ix2 0 n))
  · refine View.canon_cons_of_not_mem _ L ?_
    intro hm
    have hm' : ix2 f n ∈ (Rect.unit (s := S8x2048) ![k, 0] S1x2048.size inb).set := hm
    have h1 : k ≤ f.val ∧ f.val < k + 1 := (Rect.mem_set_unit.mp hm') (0 : Fin 2)
    omega

theorem canon_row_hit (k : Nat) (inb : ∀ a, (![k, 0] : Fin 2 → Nat) a + S1x2048.size a ≤ S8x2048.size a)
    (w : S1x2048.Idx → Val .f32) (L : List (View.Piece Val S8x2048 .f32)) (f : Fin 8) (hf : f.val = k) (n : Fin 2048) :
    View.canon ((⟨Rect.unit (s := S8x2048) ![k, 0] S1x2048.size inb, w⟩ : View.Piece Val S8x2048 .f32) :: L) (ix2 f n)
      = w (ix2 0 n) := (canon_row_cons k inb w L f n).trans (if_pos hf)

theorem canon_row_miss (k : Nat) (inb : ∀ a, (![k, 0] : Fin 2 → Nat) a + S1x2048.size a ≤ S8x2048.size a)
    (w : S1x2048.Idx → Val .f32) (L : List (View.Piece Val S8x2048 .f32)) (f : Fin 8) (hf : f.val ≠ k) (n : Fin 2048) :
    View.canon ((⟨Rect.unit (s := S8x2048) ![k, 0] S1x2048.size inb, w⟩ : View.Piece Val S8x2048 .f32) :: L) (ix2 f n)
      = View.canon L (ix2 f n) := (canon_row_cons k inb w L f n).trans (if_neg hf)

/-- Eight row stores read back at `(f, n)`: row `f`'s payload at `n`, whatever was stored before. -/
theorem canon_rows8 (w : Fin 8 → S1x2048.Idx → Val .f32) (L : List (View.Piece Val S8x2048 .f32)) (f : Fin 8) (n : Fin 2048)
    (i7 i6 i5 i4 i3 i2 i1 i0) :
    View.canon ((⟨Rect.unit (s := S8x2048) ![7, 0] S1x2048.size i7, w 7⟩ : View.Piece Val S8x2048 .f32) ::
      ⟨Rect.unit (s := S8x2048) ![6, 0] S1x2048.size i6, w 6⟩ ::
      ⟨Rect.unit (s := S8x2048) ![5, 0] S1x2048.size i5, w 5⟩ ::
      ⟨Rect.unit (s := S8x2048) ![4, 0] S1x2048.size i4, w 4⟩ ::
      ⟨Rect.unit (s := S8x2048) ![3, 0] S1x2048.size i3, w 3⟩ ::
      ⟨Rect.unit (s := S8x2048) ![2, 0] S1x2048.size i2, w 2⟩ ::
      ⟨Rect.unit (s := S8x2048) ![1, 0] S1x2048.size i1, w 1⟩ ::
      ⟨Rect.unit (s := S8x2048) ![0, 0] S1x2048.size i0, w 0⟩ :: L) (ix2 f n) = w f (ix2 0 n) := by
  match f with
  | ⟨0, _⟩ =>
    refine (canon_row_miss 7 _ _ _ _ (show (0 : Nat) ≠ 7 by decide) n).trans ?_
    refine (canon_row_miss 6 _ _ _ _ (show (0 : Nat) ≠ 6 by decide) n).trans ?_
    refine (canon_row_miss 5 _ _ _ _ (show (0 : Nat) ≠ 5 by decide) n).trans ?_
    refine (canon_row_miss 4 _ _ _ _ (show (0 : Nat) ≠ 4 by decide) n).trans ?_
    refine (canon_row_miss 3 _ _ _ _ (show (0 : Nat) ≠ 3 by decide) n).trans ?_
    refine (canon_row_miss 2 _ _ _ _ (show (0 : Nat) ≠ 2 by decide) n).trans ?_
    refine (canon_row_miss 1 _ _ _ _ (show (0 : Nat) ≠ 1 by decide) n).trans ?_
    exact canon_row_hit 0 _ _ _ _ rfl n
  | ⟨1, _⟩ =>
    refine (canon_row_miss 7 _ _ _ _ (show (1 : Nat) ≠ 7 by decide) n).trans ?_
    refine (canon_row_miss 6 _ _ _ _ (show (1 : Nat) ≠ 6 by decide) n).trans ?_
    refine (canon_row_miss 5 _ _ _ _ (show (1 : Nat) ≠ 5 by decide) n).trans ?_
    refine (canon_row_miss 4 _ _ _ _ (show (1 : Nat) ≠ 4 by decide) n).trans ?_
    refine (canon_row_miss 3 _ _ _ _ (show (1 : Nat) ≠ 3 by decide) n).trans ?_
    refine (canon_row_miss 2 _ _ _ _ (show (1 : Nat) ≠ 2 by decide) n).trans ?_
    exact canon_row_hit 1 _ _ _ _ rfl n
  | ⟨2, _⟩ =>
    refine (canon_row_miss 7 _ _ _ _ (show (2 : Nat) ≠ 7 by decide) n).trans ?_
    refine (canon_row_miss 6 _ _ _ _ (show (2 : Nat) ≠ 6 by decide) n).trans ?_
    refine (canon_row_miss 5 _ _ _ _ (show (2 : Nat) ≠ 5 by decide) n).trans ?_
    refine (canon_row_miss 4 _ _ _ _ (show (2 : Nat) ≠ 4 by decide) n).trans ?_
    refine (canon_row_miss 3 _ _ _ _ (show (2 : Nat) ≠ 3 by decide) n).trans ?_
    exact canon_row_hit 2 _ _ _ _ rfl n
  | ⟨3, _⟩ =>
    refine (canon_row_miss 7 _ _ _ _ (show (3 : Nat) ≠ 7 by decide) n).trans ?_
    refine (canon_row_miss 6 _ _ _ _ (show (3 : Nat) ≠ 6 by decide) n).trans ?_
    refine (canon_row_miss 5 _ _ _ _ (show (3 : Nat) ≠ 5 by decide) n).trans ?_
    refine (canon_row_miss 4 _ _ _ _ (show (3 : Nat) ≠ 4 by decide) n).trans ?_
    exact canon_row_hit 3 _ _ _ _ rfl n
  | ⟨4, _⟩ =>
    refine (canon_row_miss 7 _ _ _ _ (show (4 : Nat) ≠ 7 by decide) n).trans ?_
    refine (canon_row_miss 6 _ _ _ _ (show (4 : Nat) ≠ 6 by decide) n).trans ?_
    refine (canon_row_miss 5 _ _ _ _ (show (4 : Nat) ≠ 5 by decide) n).trans ?_
    exact canon_row_hit 4 _ _ _ _ rfl n
  | ⟨5, _⟩ =>
    refine (canon_row_miss 7 _ _ _ _ (show (5 : Nat) ≠ 7 by decide) n).trans ?_
    refine (canon_row_miss 6 _ _ _ _ (show (5 : Nat) ≠ 6 by decide) n).trans ?_
    exact canon_row_hit 5 _ _ _ _ rfl n
  | ⟨6, _⟩ =>
    refine (canon_row_miss 7 _ _ _ _ (show (6 : Nat) ≠ 7 by decide) n).trans ?_
    exact canon_row_hit 6 _ _ _ _ rfl n
  | ⟨7, _⟩ =>
    exact canon_row_hit 7 _ _ _ _ rfl n

end Rows

theorem feat1_apply (x0 : Vec F S3x2048 .f32) (x1 : Vec F S2048x256 .bf16) (f : Fin 8) (n : Fin 2048) :
    feat1 x0 x1 (ix2 f n) = rowP1 x0 x1 f (ix2 0 n) := canon_rows8 _ _ f n _ _ _ _ _ _ _ _
theorem feat2_apply (x0 : Vec F S3x2048 .f32) (x1 x2 : Vec F S2048x256 .bf16) (f : Fin 8) (n : Fin 2048) :
    feat2 x0 x1 x2 (ix2 f n) = rowP2 x0 x2 f (ix2 0 n) := canon_rows8 _ _ f n _ _ _ _ _ _ _ _
theorem feat3_apply (x0 : Vec F S3x2048 .f32) (x1 x2 x3 : Vec F S2048x256 .bf16) (f : Fin 8) (n : Fin 2048) :
    feat3 x0 x1 x2 x3 (ix2 f n) = rowP3 x0 x3 f (ix2 0 n) := canon_rows8 _ _ f n _ _ _ _ _ _ _ _

/-! ## On the extended reals: the block is the specification's density -/

section Ideal
open Finset

/-- Row f of plane 1's tile at point n: column n of slab f of the product, contracted with the weight row of coordinate 1. -/
theorem rowP1_apply (x0 : Vec Ideal S3x2048 .f32) (x1 : Vec Ideal S2048x256 .bf16) (f : Fin 8) (n : Fin 2048) :
    rowP1 x0 x1 f (ix2 0 n)
      = ∑ h : Fin 256, slab (mm1 x0 x1) f (ix2 h n) * Spec.weights (crow1 x0 (ix2 0 n)) h := by
  match f with
  | ⟨0, _⟩ => exact KernelComposites.row1_10 (crow1 x0) (slab (mm1 x0 x1) 0) n
  | ⟨1, _⟩ => exact KernelComposites.row1_11 (crow1 x0) (slab (mm1 x0 x1) 1) n
  | ⟨2, _⟩ => exact KernelComposites.row1_12 (crow1 x0) (slab (mm1 x0 x1) 2) n
  | ⟨3, _⟩ => exact KernelComposites.row1_13 (crow1 x0) (slab (mm1 x0 x1) 3) n
  | ⟨4, _⟩ => exact KernelComposites.row1_14 (crow1 x0) (slab (mm1 x0 x1) 4) n
  | ⟨5, _⟩ => exact KernelComposites.row1_16 (crow1 x0) (slab (mm1 x0 x1) 5) n
  | ⟨6, _⟩ => exact KernelComposites.row1_17 (crow1 x0) (slab (mm1 x0 x1) 6) n
  | ⟨7, _⟩ => exact KernelComposites.row1_18 (crow1 x0) (slab (mm1 x0 x1) 7) n

/-- Row f of plane 2's tile at point n: column n of slab f of the product, contracted with the weight row of coordinate 2. -/
theorem rowP2_apply (x0 : Vec Ideal S3x2048 .f32) (x2 : Vec Ideal S2048x256 .bf16) (f : Fin 8) (n : Fin 2048) :
    rowP2 x0 x2 f (ix2 0 n)
      = ∑ h : Fin 256, slab (mm2 x0 x2) f (ix2 h n) * Spec.weights (crow2 x0 (ix2 0 n)) h := by
  match f with
  | ⟨0, _⟩ => exact KernelComposites.row2_29 (crow2 x0) (slab (mm2 x0 x2) 0) n
  | ⟨1, _⟩ => exact KernelComposites.row2_30 (crow2 x0) (slab (mm2 x0 x2) 1) n
  | ⟨2, _⟩ => exact KernelComposites.row2_31 (crow2 x0) (slab (mm2 x0 x2) 2) n
  | ⟨3, _⟩ => exact KernelComposites.row2_32 (crow2 x0) (slab (mm2 x0 x2) 3) n
  | ⟨4, _⟩ => exact KernelComposites.row2_33 (crow2 x0) (slab (mm2 x0 x2) 4) n
  | ⟨5, _⟩ => exact KernelComposites.row2_34 (crow2 x0) (slab (mm2 x0 x2) 5) n
  | ⟨6, _⟩ => exact KernelComposites.row2_35 (crow2 x0) (slab (mm2 x0 x2) 6) n
  | ⟨7, _⟩ => exact KernelComposites.row2_36 (crow2 x0) (slab (mm2 x0 x2) 7) n

/-- Row f of plane 3's tile at point n: column n of slab f of the product, contracted with the weight row of coordinate 2. -/
theorem rowP3_apply (x0 : Vec Ideal S3x2048 .f32) (x3 : Vec Ideal S2048x256 .bf16) (f : Fin 8) (n : Fin 2048) :
    rowP3 x0 x3 f (ix2 0 n)
      = ∑ h : Fin 256, slab (mm3 x0 x3) f (ix2 h n) * Spec.weights (crow2 x0 (ix2 0 n)) h := by
  match f with
  | ⟨0, _⟩ => exact KernelComposites.row3_48 (crow2 x0) (slab (mm3 x0 x3) 0) n
  | ⟨1, _⟩ => exact KernelComposites.row3_49 (crow2 x0) (slab (mm3 x0 x3) 1) n
  | ⟨2, _⟩ => exact KernelComposites.row3_51 (crow2 x0) (slab (mm3 x0 x3) 2) n
  | ⟨3, _⟩ => exact KernelComposites.row3_52 (crow2 x0) (slab (mm3 x0 x3) 3) n
  | ⟨4, _⟩ => exact KernelComposites.row3_53 (crow2 x0) (slab (mm3 x0 x3) 4) n
  | ⟨5, _⟩ => exact KernelComposites.row3_54 (crow2 x0) (slab (mm3 x0 x3) 5) n
  | ⟨6, _⟩ => exact KernelComposites.row3_55 (crow2 x0) (slab (mm3 x0 x3) 6) n
  | ⟨7, _⟩ => exact KernelComposites.row3_1 (crow2 x0) (slab (mm3 x0 x3) 7) n

/-- Plane 1's feature tile at (f, n) is the bilinear sample of feature plane f at coordinates (0, 1) of point n. -/
theorem feat1_bilerp (x0 : Vec Ideal S3x2048 .f32) (x1 : Vec Ideal S2048x256 .bf16) (f : Fin 8) (n : Fin 2048) :
    feat1 x0 x1 (ix2 f n)
      = Spec.bilerp (fun h w => x1 (ix2 (Spec.planeRow f h) w)) (x0 (ix2 0 n)) (x0 (ix2 1 n)) := by
  rw [feat1_apply, rowP1_apply, crow1_apply]
  refine Eq.trans (Finset.sum_congr rfl fun h _ => ?_)
    (KernelPayloads.feature_row x1 (x0 (ix2 0 n)) (x0 (ix2 1 n)) f)
  rw [slab_apply]
  refine congrArg (· * Spec.weights (x0 (ix2 1 n)) h) ?_
  exact (KernelComposites.mm1 (crow0 x0) x1 (Spec.planeRow f h) n).trans (by rw [crow0_apply])

/-- Plane 2's feature tile at (f, n) is the bilinear sample of feature plane f at coordinates (0, 2) of point n. -/
theorem feat2_bilerp (x0 : Vec Ideal S3x2048 .f32) (x1 x2 : Vec Ideal S2048x256 .bf16) (f : Fin 8) (n : Fin 2048) :
    feat2 x0 x1 x2 (ix2 f n)
      = Spec.bilerp (fun h w => x2 (ix2 (Spec.planeRow f h) w)) (x0 (ix2 0 n)) (x0 (ix2 2 n)) := by
  rw [feat2_apply, rowP2_apply, crow2_apply]
  refine Eq.trans (Finset.sum_congr rfl fun h _ => ?_)
    (KernelPayloads.feature_row x2 (x0 (ix2 0 n)) (x0 (ix2 2 n)) f)
  rw [slab_apply]
  refine congrArg (· * Spec.weights (x0 (ix2 2 n)) h) ?_
  exact (KernelComposites.mm2 (crow0 x0) x2 (Spec.planeRow f h) n).trans (by rw [crow0_apply])

/-- Plane 3's feature tile at (f, n) is the bilinear sample of feature plane f at coordinates (1, 2) of point n. -/
theorem feat3_bilerp (x0 : Vec Ideal S3x2048 .f32) (x1 x2 x3 : Vec Ideal S2048x256 .bf16) (f : Fin 8) (n : Fin 2048) :
    feat3 x0 x1 x2 x3 (ix2 f n)
      = Spec.bilerp (fun h w => x3 (ix2 (Spec.planeRow f h) w)) (x0 (ix2 1 n)) (x0 (ix2 2 n)) := by
  rw [feat3_apply, rowP3_apply, crow2_apply]
  refine Eq.trans (Finset.sum_congr rfl fun h _ => ?_)
    (KernelPayloads.feature_row x3 (x0 (ix2 1 n)) (x0 (ix2 2 n)) f)
  rw [slab_apply]
  refine congrArg (· * Spec.weights (x0 (ix2 2 n)) h) ?_
  exact (KernelComposites.mm3 (crow1 x0) x3 (Spec.planeRow f h) n).trans (by rw [crow1_apply])

/-- What one grid point writes, entry by entry: the density at the point's three normalised coordinates. -/
theorem out_block_apply (c : Dev nD) (i : grid0.Coords) (arg1 : Memref sig .tc .vmem S3x2048 .f32) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S64x8 .bf16) (harg5 : arg5.IsWhole) (arg6 : Memref sig .tc .vmem S1x64 .bf16) (harg6 : arg6.IsWhole) (arg7 : Memref sig .tc .vmem S2048 .f32) (harg7 : arg7.IsWhole) (arg8 : Memref sig .tc .vmem S2048x2048 .f32) (harg8 : arg8.IsWhole) (arg9 : Memref sig .tc .vmem S8x2048 .f32) (harg9 : arg9.IsWhole)
    (x0 : Vec Ideal S3x2048 .f32) (x1 : Vec Ideal S2048x256 .bf16) (x2 : Vec Ideal S2048x256 .bf16) (x3 : Vec Ideal S2048x256 .bf16) (x4 : Vec Ideal S64x8 .bf16) (x5 : Vec Ideal S1x64 .bf16) (n : Fin 2048) :
    out0_A_6 (F := Ideal) c i arg1 harg1 arg2 harg2 arg3 harg3 arg4 harg4 arg5 harg5 arg6 harg6 arg7 harg7 arg8 harg8 arg9 harg9 x0 x1 x2 x3 x4 x5 (ix1 n)
      = Spec.density (fun f h w => x1 (ix2 (Spec.planeRow f h) w)) (fun f h w => x2 (ix2 (Spec.planeRow f h) w))
          (fun f h w => x3 (ix2 (Spec.planeRow f h) w)) (fun j f => x4 (ix2 j f)) (fun j => x5 (ix2 0 j))
          (x0 (ix2 0 n)) (x0 (ix2 1 n)) (x0 (ix2 2 n)) := by
  rw [out_block_eq, KernelPayloads.pay2_apply]
  simp only [KernelPayloads.pay37_apply, feat1_bilerp, feat2_bilerp, feat3_bilerp]
  rfl

end Ideal

end Cert.KernelBlock

end
-- ==== Proof.KernelValue.lean ====
/-
  The kernel's result as one function of the argument arrays.

  The pipelined region runs over 1024 grid points.  Grid point t is handed columns 2048 t … 2048 t + 2047 of the
  normalised points (coordinate k of point n at entry (k, n)), the three stacks of planes and the two weight
  matrices whole, and writes entries 2048 t … 2048 t + 2047 of a flat result of 2097152 entries.  One grid point's
  work is the density at each of its 2048 points; the blocks written tile the flat result, entry i being written by
  grid point i / 2048, so the flat result holds the density at every point.  After the region the flat result is
  laid out as 8192 rays of 256 samples: sample q of ray p is point 256 p + q.
-/
import proofs.«108864_j88381837017835_2_alg».proof.Proof.Gen.KernelIdeal.Frame
import proofs.«108864_j88381837017835_2_alg».proof.Proof.Spec
import proofs.«108864_j88381837017835_2_alg».proof.Proof.KernelHost
import proofs.«108864_j88381837017835_2_alg».proof.Proof.KernelBlock
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelValue

open Cert.KernelIdeal Cert.KernelIdeal.Gen Idealize.ShloMosaic.ValueIdx Cert.KernelHost Cert.KernelBlock

variable (m : (ℓ : Loc nD τ sig) → Buf (Elt Ideal) ℓ) (ρ : Dev nD → PrngReg)

/-! ## The result as one flat array -/

/-- The density at point j of the flattened list of points, as a function of the seven argument arrays. -/
def flat (pts : S8192x256x3.Idx → EReal) (aabb : S2x3.Idx → EReal) (g01 g02 g12 : S8x256x256.Idx → EReal)
    (w1 : S64x8.Idx → EReal) (w2 : S1x64.Idx → EReal) : S2097152.Idx → EReal := fun j =>
  Cert.Spec.density (fun f h w => g01 (ix3 f h w)) (fun f h w => g02 (ix3 f h w)) (fun f h w => g12 (ix3 f h w))
    (fun j f => w1 (ix2 j f)) (fun j => w2 (ix2 0 j))
    (Cert.Spec.coords pts aabb 0 (j 0)) (Cert.Spec.coords pts aabb 1 (j 0)) (Cert.Spec.coords pts aabb 2 (j 0))

/-- The density depends on its nine arguments only. -/
theorem density_congr {g01 g01' g02 g02' g12 g12' : Fin 8 → Fin 256 → Fin 256 → EReal} {w1 w1' : Fin 64 → Fin 8 → EReal}
    {w2 w2' : Fin 64 → EReal} {c0 c0' c1 c1' c2 c2' : EReal} (h01 : g01 = g01') (h02 : g02 = g02') (h12 : g12 = g12')
    (hw1 : w1 = w1') (hw2 : w2 = w2') (h0 : c0 = c0') (h1 : c1 = c1') (h2 : c2 = c2') :
    Cert.Spec.density g01 g02 g12 w1 w2 c0 c1 c2 = Cert.Spec.density g01' g02' g12' w1' w2' c0' c1' c2' := by
  subst h01 h02 h12 hw1 hw2 h0 h1 h2; rfl

/-! ## Which block each grid point works on -/

/-- Grid point t takes columns 2048 t … 2048 t + 2047 of the points and writes entries 2048 t … 2048 t + 2047 of the
    result; the planes and the weights are taken whole at every point. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = t.val :=
  (by decide +kernel : ∀ t : Fin grid0.N, _)

/-- The points' block at grid point t, column n, is column 2048 t + n of the array. -/
theorem pts_block (c : Dev nD) (t : Fin cfg0.N) (k : Fin 3) (n : Fin 2048) (j : Fin 2097152) (hj : j.val = t.val * 2048 + n.val) :
    (iblk m c 0 t : Vec Ideal S3x2048 .f32) (ix2 k n) = (V m c main_v16 : S3x2097152.Idx → EReal) (ix2 k j) := by
  obtain ⟨e0, e1, -⟩ := idx_facts t
  unfold iblk
  rw [View.read_apply]
  show V m c main_v16 _ = V m c main_v16 _
  refine congrArg _ (funext fun a => Fin.ext ?_)
  match a with
  | ⟨0, _⟩ => show win0_0.index t (0 : Fin 2) * 3 + 1 * k.val = k.val; rw [e0]; omega
  | ⟨1, _⟩ => show win0_0.index t (1 : Fin 2) * 2048 + 1 * n.val = j.val; rw [e1, hj]; omega

/-- The planes and the weights are taken whole: a block entry is the array's entry. -/
theorem blk1_apply (c : Dev nD) (t : Fin cfg0.N) (p : Fin 2048) (q : Fin 256) :
    (iblk m c 1 t : Vec Ideal S2048x256 .bf16) (ix2 p q) = (V m c main_v18 : S2048x256.Idx → EReal) (ix2 p q) := by
  obtain ⟨-, -, e10, e11, e20, e21, e30, e31, e40, e41, e50, e51, -⟩ := idx_facts t
  unfold iblk
  rw [View.read_apply]
  show V m c main_v18 _ = V m c main_v18 _
  refine congrArg _ (funext fun a => Fin.ext ?_)
  match a with
  | ⟨0, _⟩ => show win0_1.index t (0 : Fin 2) * 2048 + 1 * p.val = p.val; rw [e10]; omega
  | ⟨1, _⟩ => show win0_1.index t (1 : Fin 2) * 256 + 1 * q.val = q.val; rw [e11]; omega

theorem blk2_apply (c : Dev nD) (t : Fin cfg0.N) (p : Fin 2048) (q : Fin 256) :
    (iblk m c 2 t : Vec Ideal S2048x256 .bf16) (ix2 p q) = (V m c main_v20 : S2048x256.Idx → EReal) (ix2 p q) := by
  obtain ⟨-, -, e10, e11, e20, e21, e30, e31, e40, e41, e50, e51, -⟩ := idx_facts t
  unfold iblk
  rw [View.read_apply]
  show V m c main_v20 _ = V m c main_v20 _
  refine congrArg _ (funext fun a => Fin.ext ?_)
  match a with
  | ⟨0, _⟩ => show win0_2.index t (0 : Fin 2) * 2048 + 1 * p.val = p.val; rw [e20]; omega
  | ⟨1, _⟩ => show win0_2.index t (1 : Fin 2) * 256 + 1 * q.val = q.val; rw [e21]; omega

theorem blk3_apply (c : Dev nD) (t : Fin cfg0.N) (p : Fin 2048) (q : Fin 256) :
    (iblk m c 3 t : Vec Ideal S2048x256 .bf16) (ix2 p q) = (V m c main_v22 : S2048x256.Idx → EReal) (ix2 p q) := by
  obtain ⟨-, -, e10, e11, e20, e21, e30, e31, e40, e41, e50, e51, -⟩ := idx_facts t
  unfold iblk
  rw [View.read_apply]
  show V m c main_v22 _ = V m c main_v22 _
  refine congrArg _ (funext fun a => Fin.ext ?_)
  match a with
  | ⟨0, _⟩ => show win0_3.index t (0 : Fin 2) * 2048 + 1 * p.val = p.val; rw [e30]; omega
  | ⟨1, _⟩ => show win0_3.index t (1 : Fin 2) * 256 + 1 * q.val = q.val; rw [e31]; omega

theorem blk4_apply (c : Dev nD) (t : Fin cfg0.N) (p : Fin 64) (q : Fin 8) :
    (iblk m c 4 t : Vec Ideal S64x8 .bf16) (ix2 p q) = (V m c main_v23 : S64x8.Idx → EReal) (ix2 p q) := by
  obtain ⟨-, -, e10, e11, e20, e21, e30, e31, e40, e41, e50, e51, -⟩ := idx_facts t
  unfold iblk
  rw [View.read_apply]
  show V m c main_v23 _ = V m c main_v23 _
  refine congrArg _ (funext fun a => Fin.ext ?_)
  match a with
  | ⟨0, _⟩ => show win0_4.index t (0 : Fin 2) * 64 + 1 * p.val = p.val; rw [e40]; omega
  | ⟨1, _⟩ => show win0_4.index t (1 : Fin 2) * 8 + 1 * q.val = q.val; rw [e41]; omega

theorem blk5_apply (c : Dev nD) (t : Fin cfg0.N) (p : Fin 1) (q : Fin 64) :
    (iblk m c 5 t : Vec Ideal S1x64 .bf16) (ix2 p q) = (V m c main_v24 : S1x64.Idx → EReal) (ix2 p q) := by
  obtain ⟨-, -, e10, e11, e20, e21, e30, e31, e40, e41, e50, e51, -⟩ := idx_facts t
  unfold iblk
  rw [View.read_apply]
  show V m c main_v24 _ = V m c main_v24 _
  refine congrArg _ (funext fun a => Fin.ext ?_)
  match a with
  | ⟨0, _⟩ => show win0_5.index t (0 : Fin 2) * 1 + 1 * p.val = p.val; rw [e50]; omega
  | ⟨1, _⟩ => show win0_5.index t (1 : Fin 2) * 64 + 1 * q.val = q.val; rw [e51]; omega

/-! ## What a grid point writes, in terms of the arguments -/

/-- Entry n of what grid point t leaves in the result's staging buffer is the density at point 2048 t + n. -/
theorem point_apply (c : Dev nD) (t : Fin cfg0.N) (n : Fin 2048) (j : Fin 2097152) (hj : j.val = t.val * 2048 + n.val) :
    outsAt0 m c t (ix1 n)
      = Cert.Spec.density (fun f h w => (m ((c : Thread nD τ).loc main_arg2) : S8x256x256.Idx → EReal) (ix3 f h w))
          (fun f h w => (m ((c : Thread nD τ).loc main_arg3) : S8x256x256.Idx → EReal) (ix3 f h w))
          (fun f h w => (m ((c : Thread nD τ).loc main_arg4) : S8x256x256.Idx → EReal) (ix3 f h w))
          (fun j f => (m ((c : Thread nD τ).loc main_arg5) : S64x8.Idx → EReal) (ix2 j f))
          (fun j => (m ((c : Thread nD τ).loc main_arg6) : S1x64.Idx → EReal) (ix2 0 j))
          (Cert.Spec.coords (m ((c : Thread nD τ).loc main_arg0)) (m ((c : Thread nD τ).loc main_arg1)) 0 j)
          (Cert.Spec.coords (m ((c : Thread nD τ).loc main_arg0)) (m ((c : Thread nD τ).loc main_arg1)) 1 j)
          (Cert.Spec.coords (m ((c : Thread nD τ).loc main_arg0)) (m ((c : Thread nD τ).loc main_arg1)) 2 j) := by
  unfold outsAt0
  refine (out_block_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) n).trans ?_
  refine density_congr ?_ ?_ ?_ ?_ ?_ ?_ ?_ ?_
  · funext f h w; exact (blk1_apply m c t _ w).trans (V18_apply m c f h w)
  · funext f h w; exact (blk2_apply m c t _ w).trans (V20_apply m c f h w)
  · funext f h w; exact (blk3_apply m c t _ w).trans (V22_apply m c f h w)
  · funext j' f; exact (blk4_apply m c t j' f).trans (V23_apply m c j' f)
  · funext j'; exact (blk5_apply m c t 0 j').trans (V24_apply m c j')
  · exact (pts_block m c t 0 n j hj).trans (V16_apply m c 0 j)
  · exact (pts_block m c t 1 n j hj).trans (V16_apply m c 1 j)
  · exact (pts_block m c t 2 n j hj).trans (V16_apply m c 2 j)

/-! ## From blocks to the array -/

/-- What grid point t writes back is block t of the flat result. -/
theorem flushed_eq (c : Dev nD) (t : Fin cfg0.N) :
    (dats m 0 c).flushed 6 t = ((cfg0.win 6).blk t).view.read (Elt Ideal) (flat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 6).cut (grid0.coords t) ((dats m 0 c).after 6 t) = _
  rw [after0_6]
  obtain ⟨-, -, -, -, -, -, -, -, -, -, -, -, e6⟩ := idx_facts t
  funext y
  have hy : (y : S2048.Idx) = ix1 (y 0) := eq_ix1 _
  show outsAt0 m c t y = flat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 6).blk t).view.emb y)
  refine (congrArg (outsAt0 m c t) hy).trans ?_
  refine point_apply m c t (y 0) _ ?_
  show win0_6.index t (0 : Fin 1) * 2048 + 1 * (y 0).val = t.val * 2048 + (y 0).val
  rw [e6]; omega

/-- An entry is in grid point t's block when it lies in the 2048 entries from 2048 t on. -/
theorem mem_blk (t : Fin cfg0.N) (i : S2097152.Idx) :
    i ∈ ((cfg0.win 6).blk t).view.set ↔ ∀ a : Fin 1, win0_6.index t a * S2048.size a ≤ (i a).val ∧ (i a).val < win0_6.index t a * S2048.size a + S2048.size a := by
  show i ∈ ((View.whole main_v25).slice (win0_6.rect t)).set ↔ _
  rw [View.set_slice_whole, Rect.mem_set_unit]
  exact Iff.rfl

/-- Every entry is written: entry i by grid point i / 2048. -/
theorem cover (i : S2097152.Idx) : ∃ t : Fin cfg0.N, (cfg0.win 6).flush t = true ∧ i ∈ ((cfg0.win 6).blk t).view.set := by
  have hi : (i 0).val < 2097152 := (i 0).isLt
  have hN : cfg0.N = 1024 := N_0
  have ht : (i 0).val / 2048 < cfg0.N := by rw [hN]; omega
  obtain ⟨-, -, -, -, -, -, -, -, -, -, -, -, e6⟩ := idx_facts ⟨(i 0).val / 2048, ht⟩
  refine ⟨⟨(i 0).val / 2048, ht⟩, flush0_6 _, ?_⟩
  rw [mem_blk]
  intro a
  match a with
  | ⟨0, _⟩ =>
    show win0_6.index ⟨(i 0).val / 2048, ht⟩ (0 : Fin 1) * 2048 ≤ (i 0).val ∧ (i 0).val < win0_6.index ⟨(i 0).val / 2048, ht⟩ (0 : Fin 1) * 2048 + 2048
    rw [e6]
    show (i 0).val / 2048 * 2048 ≤ (i 0).val ∧ (i 0).val < (i 0).val / 2048 * 2048 + 2048
    omega

/-- The result array after the region is the flat result. -/
theorem final (c : Dev nD) : (dats m 0 c).arrAt 6 cfg0.N = flat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 6 (flat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) cover

/-! ## The reshape after the region, and the run -/

/-- Sample q of ray p is point 256 p + q of the flattened list. -/
theorem flat_ray (pts : S8192x256x3.Idx → EReal) (aabb : S2x3.Idx → EReal) (g01 g02 g12 : S8x256x256.Idx → EReal)
    (w1 : S64x8.Idx → EReal) (w2 : S1x64.Idx → EReal) (p : Fin 8192) (q : Fin 256) (z : Fin 1) (n : Fin 2097152)
    (hn : n.val = p.val * 256 + q.val) :
    flat pts aabb g01 g02 g12 w1 w2 (ix1 n) = Cert.Spec.G pts aabb g01 g02 g12 w1 w2 (ix3 p q z) := by
  have hr : Cert.Spec.ptRow n = p := Fin.ext (by show n.val / 256 = p.val; have := q.isLt; omega)
  have hc : Cert.Spec.ptCol n = q := Fin.ext (by show n.val % 256 = q.val; have := q.isLt; omega)
  unfold flat Cert.Spec.G Cert.Spec.coords
  show Cert.Spec.density _ _ _ _ _
      (Cert.Spec.coord (pts (ix3 (Cert.Spec.ptRow n) (Cert.Spec.ptCol n) 0)) (aabb (ix2 0 0)) (aabb (ix2 1 0)))
      (Cert.Spec.coord (pts (ix3 (Cert.Spec.ptRow n) (Cert.Spec.ptCol n) 1)) (aabb (ix2 0 1)) (aabb (ix2 1 1)))
      (Cert.Spec.coord (pts (ix3 (Cert.Spec.ptRow n) (Cert.Spec.ptCol n) 2)) (aabb (ix2 0 2)) (aabb (ix2 1 2)))
    = Cert.Spec.density _ _ _ _ _
      (Cert.Spec.coord (pts (ix3 p q 0)) (aabb (ix2 0 0)) (aabb (ix2 1 0)))
      (Cert.Spec.coord (pts (ix3 p q 1)) (aabb (ix2 0 1)) (aabb (ix2 1 1)))
      (Cert.Spec.coord (pts (ix3 p q 2)) (aabb (ix2 0 2)) (aabb (ix2 1 2)))
  rw [hr, hc]

/-- The program's result: the flat result laid out as rays by samples. -/
theorem tail_eq (c : Dev nD) :
    Pipeline.afterTail₀ cfgs (dats m) 0 (V0 m) [hostOps1] c main_v26 = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v26) = _
  after_results
  funext i
  have key : ∀ (p : Fin 8192) (q : Fin 256) (z : Fin 1),
      shapeCast S8192x256x1 (Pipeline.withArrays (cfgs 0).spec c (V0 m c) (fun w => (dats m 0 c).arrAt w (cfgs 0).N) (Proc.devRef .tc main_v25)) shapeCasts_S2097152_S8192x256x1 (ix3 p q z)
        = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 p q z) := by
    intro p q z
    have hlt : p.val * 256 + q.val < 2097152 := by have := p.isLt; have := q.isLt; omega
    refine (shapeCast_apply _ _ (ix3 p q z) (ix1 ⟨p.val * 256 + q.val, hlt⟩) ?_).trans ?_
    · rw [Shape.rowMajor_val_one, Shape.rowMajor_val_three]
      show p.val * 256 + q.val = (p.val * 256 + q.val) * 1 + z.val
      have := z.isLt; omega
    · refine (congrFun ((Pipeline.withArrays_arr spec0 launch0.win.arr_inj c _ _ 6).trans (final m c)) _).trans ?_
      exact flat_ray _ _ _ _ _ _ _ p q z _ rfl
  have hi : (i : S8192x256x1.Idx) = ix3 (i 0) (i 1) (i 2) := eq_ix3 _
  show shapeCast S8192x256x1 (Pipeline.withArrays (cfgs 0).spec c (V0 m c) (fun w => (dats m 0 c).arrAt w (cfgs 0).N) (Proc.devRef .tc main_v25)) shapeCasts_S2097152_S8192x256x1 i = _
  rw [hi]
  exact key _ _ _

/-- The kernel's run: it terminates, the result is the density field of the arguments, and the arguments are unchanged. -/
theorem kernel_run : θ_run defs (onTc (τ := τ) (main (F := Ideal))) ⟨m, fun _ => 0, ρ⟩ (fun r => ∀ c : Dev nD,
      r.2.mem ((c.tc : Thread nD τ).loc main_v26) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v26 (Pipeline.mem_restRefs_of main_v26 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelValue

end
-- ==== Proof.RefCoords.lean ====
/-
  The reference's coordinates, and everything it computes from one coordinate.

  The points are flattened row by row, so point `n` is sample `n % 256` of ray `n / 256`; each of its three
  coordinates is normalised against the bounding box as `(p - a0) * (2 / (a1 - a0)) - 1`.  From one normalised
  coordinate `c` the program forms the position `((c + 1) * 0.5) * 255` clipped to `[0, 255]`, which is
  `Spec.pos c`; the floor of the position converted to an integer, which is the cell; that integer plus one,
  kept at most 255, which is the next cell; and the position minus the cell read back as a float, which is the
  fractional part.  Each plane uses two of the three coordinates, so the same four facts are stated six times.
-/
import Mathlib
import proofs.«108864_j88381837017835_2_alg».proof.Proof.RefRead
import proofs.«108864_j88381837017835_2_alg».proof.Proof.Spec
import proofs.«108864_j88381837017835_2_alg».proof.Proof.Consts
import proofs.«108864_j88381837017835_2_alg».proof.Proof.Words

noncomputable section

namespace Cert.RefCoords

open Cert.ReferenceIdeal Cert.ReferenceIdeal.ReadP Idealize.ShloMosaic Idealize.ShloMosaic.ValueIdx

/-! ## One coordinate -/

/-- The clipped, scaled coordinate is the position. -/
theorem pos_eq (c : EReal) :
    FloatOps.minimumf (F := Ideal) (φ := .f32) (FloatOps.sitofp (F := Ideal) .f32 (255#32 : BitVec 32))
      (FloatOps.maximumf (FloatOps.ofBits (F := Ideal) .f32 0x00000000#32)
        (FloatOps.mulf (FloatOps.mulf (FloatOps.addf c (FloatOps.ofBits (F := Ideal) .f32 0x3F800000#32))
          (FloatOps.ofBits (F := Ideal) .f32 0x3F000000#32)) (FloatOps.ofBits (F := Ideal) .f32 0x437F0000#32)))
      = Spec.pos c := by
  show min ((((255#32 : BitVec 32).toInt : ℝ)) : EReal) (max (Ideal.ofBits .f32 0x00000000#32)
    ((c + Ideal.ofBits .f32 0x3F800000#32) * Ideal.ofBits .f32 0x3F000000#32 * Ideal.ofBits .f32 0x437F0000#32)) = _
  rw [Consts.sitofp_255, Consts.ofBits_zero, Consts.ofBits_one, Consts.ofBits_half, Consts.ofBits_255,
    Spec.scale_assoc]
  rfl

/-- The floor of the position, converted to a 32-bit integer, is the cell's word. -/
theorem cell_eq (c : EReal) :
    FloatOps.fptosi (F := Ideal) (φ := .f32) 32 (FloatOps.hostUnary (F := Ideal) .floor (φ := .f32) (Spec.pos c))
      = BitVec.ofNat 32 (Spec.cell c) :=
  Spec.fptosi_floor_pos c

/-- The cell's word plus one, kept at most 255, is the next cell's word. -/
theorem next_eq (c : EReal) :
    IntOp.minsi (IntOp.addi (BitVec.ofNat 32 (Spec.cell c)) 1#32) 255#32 = BitVec.ofNat 32 (Spec.next c) :=
  Words.minsi_addi_cell c

/-- The position minus the cell read back as a float is the fractional part. -/
theorem frac_eq (c : EReal) :
    FloatOps.subf (F := Ideal) (φ := .f32) (Spec.pos c)
      (FloatOps.sitofp (F := Ideal) .f32 (BitVec.ofNat 32 (Spec.cell c))) = Spec.frac c := by
  show Spec.pos c - ((((BitVec.ofNat 32 (Spec.cell c)).toInt : ℝ)) : EReal) = _
  rw [Spec.sitofp_cell]
  rfl

/-! ## The normalised coordinates -/

/-- Flattening the points row by row: entry `(n, k)` of the flat list is coordinate `k` of sample `n % 256` of
    ray `n / 256`. -/
theorem idx_pts (n : Fin 2097152) (k : Fin 3) :
    idx_main_v0 (ix2 n k) = ix3 (Spec.ptRow n) (Spec.ptCol n) k := by
  have hk := k.isLt
  funext a; apply Fin.ext
  match a with
  | ⟨0, _⟩ => show (n.val * 3 + k.val) / 768 = n.val / 256; omega
  | ⟨1, _⟩ => show (n.val * 3 + k.val) / 3 % 256 = n.val % 256; omega
  | ⟨2, _⟩ => show (n.val * 3 + k.val) % 3 = k.val; omega

/-- The lower corner of the box, broadcast over the points. -/
theorem idx_lo (n : Fin 2097152) (k : Fin 3) :
    idx_main_v1 (idx_main_v2 (idx_main_v3 (idx_main_v4 (ix2 n k)))) = ix2 (0 : Fin 2) k := by
  funext a; apply Fin.ext
  match a with
  | ⟨0, _⟩ => rfl
  | ⟨1, _⟩ => exact Nat.mod_eq_of_lt k.isLt

/-- The upper corner inside the scale `2 / (a1 - a0)`, broadcast over the points. -/
theorem idx_hi (n : Fin 2097152) (k : Fin 3) :
    idx_main_v6 (idx_main_v7 (idx_main_v13 (idx_main_v14 (ix2 n k)))) = ix2 (1 : Fin 2) k := by
  funext a; apply Fin.ext
  match a with
  | ⟨0, _⟩ => rfl
  | ⟨1, _⟩ => exact Nat.mod_eq_of_lt k.isLt

/-- The lower corner inside the scale. -/
theorem idx_lo' (n : Fin 2097152) (k : Fin 3) :
    idx_main_v8 (idx_main_v9 (idx_main_v13 (idx_main_v14 (ix2 n k)))) = ix2 (0 : Fin 2) k := by
  funext a; apply Fin.ext
  match a with
  | ⟨0, _⟩ => rfl
  | ⟨1, _⟩ => exact Nat.mod_eq_of_lt k.isLt

/-- Entry `(n, k)` of the normalised points is coordinate `k` of point `n`. -/
theorem coords_eq (x0 : (⟨3, ![8192, 256, 3]⟩ : Shape).Idx → EReal) (x1 : (⟨2, ![2, 3]⟩ : Shape).Idx → EReal)
    (n : Fin 2097152) (k : Fin 3) :
    val_main_v17 (F := Ideal) x0 x1 (ix2 n k) = Spec.coords x0 x1 k n := by
  rw [val_main_v17_apply, val_main_v15_apply, val_main_v5_apply, val_main_v0_apply, val_main_v4_apply,
    val_main_v3_apply, val_main_v2_apply, val_main_v1_apply, val_main_v14_apply, val_main_v13_apply,
    val_main_v12_apply, val_main_v11_apply, val_main_cst_apply, val_main_v10_apply, val_main_v7_apply,
    val_main_v6_apply, val_main_v9_apply, val_main_v8_apply, val_main_v16_apply, val_main_cst_0_apply,
    idx_pts, idx_lo, idx_hi, idx_lo']
  rfl

/-! ## The six coordinate columns -/

/-! ### Plane 1, x axis: the first coordinate -/

theorem idx_v19 (n : Fin 2097152) : idx_main_v18 (idx_main_v19 (ix1 n)) = ix2 n (0 : Fin 3) := by
  funext a; apply Fin.ext
  match a with
  | ⟨0, _⟩ => exact Nat.div_one n.val
  | ⟨1, _⟩ => rfl

theorem v19_eq (x0 : (⟨3, ![8192, 256, 3]⟩ : Shape).Idx → EReal) (x1 : (⟨2, ![2, 3]⟩ : Shape).Idx → EReal)
    (n : Fin 2097152) :
    val_main_v19 (F := Ideal) x0 x1 (ix1 n) = Spec.coords x0 x1 0 n := by
  rw [val_main_v19_apply, val_main_v18_apply, idx_v19, coords_eq]

theorem v28_eq (x0 : (⟨3, ![8192, 256, 3]⟩ : Shape).Idx → EReal) (x1 : (⟨2, ![2, 3]⟩ : Shape).Idx → EReal)
    (n : Fin 2097152) :
    val_main_v28 (F := Ideal) x0 x1 (ix1 n) = Spec.pos (Spec.coords x0 x1 0 n) := by
  rw [val_main_v28_apply, val_main_call0_v4_apply, val_main_call0_v3_apply, val_main_c_apply, val_main_call0_v2_apply, val_main_call0_v1_apply,
    val_main_call0_v0_apply, val_main_cst_4_apply, val_main_v27_apply, val_main_v25_apply, val_main_v23_apply, v19_eq,
    val_main_v22_apply, val_main_cst_1_apply, val_main_v24_apply, val_main_cst_2_apply, val_main_v26_apply, val_main_cst_3_apply]
  exact pos_eq _

theorem v37_eq (x0 : (⟨3, ![8192, 256, 3]⟩ : Shape).Idx → EReal) (x1 : (⟨2, ![2, 3]⟩ : Shape).Idx → EReal)
    (n : Fin 2097152) :
    val_main_v37 (F := Ideal) x0 x1 (ix1 n) = BitVec.ofNat 32 (Spec.cell (Spec.coords x0 x1 0 n)) := by
  rw [val_main_v37_apply, val_main_v36_apply, v28_eq]
  exact cell_eq _

theorem v43_eq (x0 : (⟨3, ![8192, 256, 3]⟩ : Shape).Idx → EReal) (x1 : (⟨2, ![2, 3]⟩ : Shape).Idx → EReal)
    (n : Fin 2097152) :
    val_main_v43 (F := Ideal) x0 x1 (ix1 n) = BitVec.ofNat 32 (Spec.next (Spec.coords x0 x1 0 n)) := by
  rw [val_main_v43_apply, val_main_v41_apply, v37_eq, val_main_v40_apply, val_main_c_10_apply, val_main_v42_apply, val_main_c_11_apply]
  exact next_eq _

theorem v49_eq (x0 : (⟨3, ![8192, 256, 3]⟩ : Shape).Idx → EReal) (x1 : (⟨2, ![2, 3]⟩ : Shape).Idx → EReal)
    (n : Fin 2097152) :
    val_main_v49 (F := Ideal) x0 x1 (ix1 n) = Spec.frac (Spec.coords x0 x1 0 n) := by
  rw [val_main_v49_apply, v28_eq, val_main_v48_apply, v37_eq]
  exact frac_eq _

/-! ### Plane 1, y axis: the second coordinate -/

theorem idx_v21 (n : Fin 2097152) : idx_main_v20 (idx_main_v21 (ix1 n)) = ix2 n (1 : Fin 3) := by
  funext a; apply Fin.ext
  match a with
  | ⟨0, _⟩ => exact Nat.div_one n.val
  | ⟨1, _⟩ => rfl

theorem v21_eq (x0 : (⟨3, ![8192, 256, 3]⟩ : Shape).Idx → EReal) (x1 : (⟨2, ![2, 3]⟩ : Shape).Idx → EReal)
    (n : Fin 2097152) :
    val_main_v21 (F := Ideal) x0 x1 (ix1 n) = Spec.coords x0 x1 1 n := by
  rw [val_main_v21_apply, val_main_v20_apply, idx_v21, coords_eq]

theorem v35_eq (x0 : (⟨3, ![8192, 256, 3]⟩ : Shape).Idx → EReal) (x1 : (⟨2, ![2, 3]⟩ : Shape).Idx → EReal)
    (n : Fin 2097152) :
    val_main_v35 (F := Ideal) x0 x1 (ix1 n) = Spec.pos (Spec.coords x0 x1 1 n) := by
  rw [val_main_v35_apply, val_main_call1_v4_apply, val_main_call1_v3_apply, val_main_c_9_apply, val_main_call1_v2_apply, val_main_call1_v1_apply,
    val_main_call1_v0_apply, val_main_cst_8_apply, val_main_v34_apply, val_main_v32_apply, val_main_v30_apply, v21_eq,
    val_main_v29_apply, val_main_cst_5_apply, val_main_v31_apply, val_main_cst_6_apply, val_main_v33_apply, val_main_cst_7_apply]
  exact pos_eq _

theorem v39_eq (x0 : (⟨3, ![8192, 256, 3]⟩ : Shape).Idx → EReal) (x1 : (⟨2, ![2, 3]⟩ : Shape).Idx → EReal)
    (n : Fin 2097152) :
    val_main_v39 (F := Ideal) x0 x1 (ix1 n) = BitVec.ofNat 32 (Spec.cell (Spec.coords x0 x1 1 n)) := by
  rw [val_main_v39_apply, val_main_v38_apply, v35_eq]
  exact cell_eq _

theorem v47_eq (x0 : (⟨3, ![8192, 256, 3]⟩ : Shape).Idx → EReal) (x1 : (⟨2, ![2, 3]⟩ : Shape).Idx → EReal)
    (n : Fin 2097152) :
    val_main_v47 (F := Ideal) x0 x1 (ix1 n) = BitVec.ofNat 32 (Spec.next (Spec.coords x0 x1 1 n)) := by
  rw [val_main_v47_apply, val_main_v45_apply, v39_eq, val_main_v44_apply, val_main_c_12_apply, val_main_v46_apply, val_main_c_13_apply]
  exact next_eq _

theorem v51_eq (x0 : (⟨3, ![8192, 256, 3]⟩ : Shape).Idx → EReal) (x1 : (⟨2, ![2, 3]⟩ : Shape).Idx → EReal)
    (n : Fin 2097152) :
    val_main_v51 (F := Ideal) x0 x1 (ix1 n) = Spec.frac (Spec.coords x0 x1 1 n) := by
  rw [val_main_v51_apply, v35_eq, val_main_v50_apply, v39_eq]
  exact frac_eq _

/-! ### Plane 2, x axis: the first coordinate -/

theorem idx_v137 (n : Fin 2097152) : idx_main_v136 (idx_main_v137 (ix1 n)) = ix2 n (0 : Fin 3) := by
  funext a; apply Fin.ext
  match a with
  | ⟨0, _⟩ => exact Nat.div_one n.val
  | ⟨1, _⟩ => rfl

theorem v137_eq (x0 : (⟨3, ![8192, 256, 3]⟩ : Shape).Idx → EReal) (x1 : (⟨2, ![2, 3]⟩ : Shape).Idx → EReal)
    (n : Fin 2097152) :
    val_main_v137 (F := Ideal) x0 x1 (ix1 n) = Spec.coords x0 x1 0 n := by
  rw [val_main_v137_apply, val_main_v136_apply, idx_v137, coords_eq]

theorem v146_eq (x0 : (⟨3, ![8192, 256, 3]⟩ : Shape).Idx → EReal) (x1 : (⟨2, ![2, 3]⟩ : Shape).Idx → EReal)
    (n : Fin 2097152) :
    val_main_v146 (F := Ideal) x0 x1 (ix1 n) = Spec.pos (Spec.coords x0 x1 0 n) := by
  rw [val_main_v146_apply, val_main_call2_v4_apply, val_main_call2_v3_apply, val_main_c_37_apply, val_main_call2_v2_apply, val_main_call2_v1_apply,
    val_main_call2_v0_apply, val_main_cst_36_apply, val_main_v145_apply, val_main_v143_apply, val_main_v141_apply, v137_eq,
    val_main_v140_apply, val_main_cst_33_apply, val_main_v142_apply, val_main_cst_34_apply, val_main_v144_apply, val_main_cst_35_apply]
  exact pos_eq _

theorem v155_eq (x0 : (⟨3, ![8192, 256, 3]⟩ : Shape).Idx → EReal) (x1 : (⟨2, ![2, 3]⟩ : Shape).Idx → EReal)
    (n : Fin 2097152) :
    val_main_v155 (F := Ideal) x0 x1 (ix1 n) = BitVec.ofNat 32 (Spec.cell (Spec.coords x0 x1 0 n)) := by
  rw [val_main_v155_apply, val_main_v154_apply, v146_eq]
  exact cell_eq _

theorem v161_eq (x0 : (⟨3, ![8192, 256, 3]⟩ : Shape).Idx → EReal) (x1 : (⟨2, ![2, 3]⟩ : Shape).Idx → EReal)
    (n : Fin 2097152) :
    val_main_v161 (F := Ideal) x0 x1 (ix1 n) = BitVec.ofNat 32 (Spec.next (Spec.coords x0 x1 0 n)) := by
  rw [val_main_v161_apply, val_main_v159_apply, v155_eq, val_main_v158_apply, val_main_c_43_apply, val_main_v160_apply, val_main_c_44_apply]
  exact next_eq _

theorem v167_eq (x0 : (⟨3, ![8192, 256, 3]⟩ : Shape).Idx → EReal) (x1 : (⟨2, ![2, 3]⟩ : Shape).Idx → EReal)
    (n : Fin 2097152) :
    val_main_v167 (F := Ideal) x0 x1 (ix1 n) = Spec.frac (Spec.coords x0 x1 0 n) := by
  rw [val_main_v167_apply, v146_eq, val_main_v166_apply, v155_eq]
  exact frac_eq _

/-! ### Plane 2, y axis: the third coordinate -/

theorem idx_v139 (n : Fin 2097152) : idx_main_v138 (idx_main_v139 (ix1 n)) = ix2 n (2 : Fin 3) := by
  funext a; apply Fin.ext
  match a with
  | ⟨0, _⟩ => exact Nat.div_one n.val
  | ⟨1, _⟩ => rfl

theorem v139_eq (x0 : (⟨3, ![8192, 256, 3]⟩ : Shape).Idx → EReal) (x1 : (⟨2, ![2, 3]⟩ : Shape).Idx → EReal)
    (n : Fin 2097152) :
    val_main_v139 (F := Ideal) x0 x1 (ix1 n) = Spec.coords x0 x1 2 n := by
  rw [val_main_v139_apply, val_main_v138_apply, idx_v139, coords_eq]

theorem v153_eq (x0 : (⟨3, ![8192, 256, 3]⟩ : Shape).Idx → EReal) (x1 : (⟨2, ![2, 3]⟩ : Shape).Idx → EReal)
    (n : Fin 2097152) :
    val_main_v153 (F := Ideal) x0 x1 (ix1 n) = Spec.pos (Spec.coords x0 x1 2 n) := by
  rw [val_main_v153_apply, val_main_call3_v4_apply, val_main_call3_v3_apply, val_main_c_42_apply, val_main_call3_v2_apply, val_main_call3_v1_apply,
    val_main_call3_v0_apply, val_main_cst_41_apply, val_main_v152_apply, val_main_v150_apply, val_main_v148_apply, v139_eq,
    val_main_v147_apply, val_main_cst_38_apply, val_main_v149_apply, val_main_cst_39_apply, val_main_v151_apply, val_main_cst_40_apply]
  exact pos_eq _

theorem v157_eq (x0 : (⟨3, ![8192, 256, 3]⟩ : Shape).Idx → EReal) (x1 : (⟨2, ![2, 3]⟩ : Shape).Idx → EReal)
    (n : Fin 2097152) :
    val_main_v157 (F := Ideal) x0 x1 (ix1 n) = BitVec.ofNat 32 (Spec.cell (Spec.coords x0 x1 2 n)) := by
  rw [val_main_v157_apply, val_main_v156_apply, v153_eq]
  exact cell_eq _

theorem v165_eq (x0 : (⟨3, ![8192, 256, 3]⟩ : Shape).Idx → EReal) (x1 : (⟨2, ![2, 3]⟩ : Shape).Idx → EReal)
    (n : Fin 2097152) :
    val_main_v165 (F := Ideal) x0 x1 (ix1 n) = BitVec.ofNat 32 (Spec.next (Spec.coords x0 x1 2 n)) := by
  rw [val_main_v165_apply, val_main_v163_apply, v157_eq, val_main_v162_apply, val_main_c_45_apply, val_main_v164_apply, val_main_c_46_apply]
  exact next_eq _

theorem v169_eq (x0 : (⟨3, ![8192, 256, 3]⟩ : Shape).Idx → EReal) (x1 : (⟨2, ![2, 3]⟩ : Shape).Idx → EReal)
    (n : Fin 2097152) :
    val_main_v169 (F := Ideal) x0 x1 (ix1 n) = Spec.frac (Spec.coords x0 x1 2 n) := by
  rw [val_main_v169_apply, v153_eq, val_main_v168_apply, v157_eq]
  exact frac_eq _

/-! ### Plane 3, x axis: the second coordinate -/

theorem idx_v256 (n : Fin 2097152) : idx_main_v255 (idx_main_v256 (ix1 n)) = ix2 n (1 : Fin 3) := by
  funext a; apply Fin.ext
  match a with
  | ⟨0, _⟩ => exact Nat.div_one n.val
  | ⟨1, _⟩ => rfl

theorem v256_eq (x0 : (⟨3, ![8192, 256, 3]⟩ : Shape).Idx → EReal) (x1 : (⟨2, ![2, 3]⟩ : Shape).Idx → EReal)
    (n : Fin 2097152) :
    val_main_v256 (F := Ideal) x0 x1 (ix1 n) = Spec.coords x0 x1 1 n := by
  rw [val_main_v256_apply, val_main_v255_apply, idx_v256, coords_eq]

theorem v265_eq (x0 : (⟨3, ![8192, 256, 3]⟩ : Shape).Idx → EReal) (x1 : (⟨2, ![2, 3]⟩ : Shape).Idx → EReal)
    (n : Fin 2097152) :
    val_main_v265 (F := Ideal) x0 x1 (ix1 n) = Spec.pos (Spec.coords x0 x1 1 n) := by
  rw [val_main_v265_apply, val_main_call4_v4_apply, val_main_call4_v3_apply, val_main_c_70_apply, val_main_call4_v2_apply, val_main_call4_v1_apply,
    val_main_call4_v0_apply, val_main_cst_69_apply, val_main_v264_apply, val_main_v262_apply, val_main_v260_apply, v256_eq,
    val_main_v259_apply, val_main_cst_66_apply, val_main_v261_apply, val_main_cst_67_apply, val_main_v263_apply, val_main_cst_68_apply]
  exact pos_eq _

theorem v274_eq (x0 : (⟨3, ![8192, 256, 3]⟩ : Shape).Idx → EReal) (x1 : (⟨2, ![2, 3]⟩ : Shape).Idx → EReal)
    (n : Fin 2097152) :
    val_main_v274 (F := Ideal) x0 x1 (ix1 n) = BitVec.ofNat 32 (Spec.cell (Spec.coords x0 x1 1 n)) := by
  rw [val_main_v274_apply, val_main_v273_apply, v265_eq]
  exact cell_eq _

theorem v280_eq (x0 : (⟨3, ![8192, 256, 3]⟩ : Shape).Idx → EReal) (x1 : (⟨2, ![2, 3]⟩ : Shape).Idx → EReal)
    (n : Fin 2097152) :
    val_main_v280 (F := Ideal) x0 x1 (ix1 n) = BitVec.ofNat 32 (Spec.next (Spec.coords x0 x1 1 n)) := by
  rw [val_main_v280_apply, val_main_v278_apply, v274_eq, val_main_v277_apply, val_main_c_76_apply, val_main_v279_apply, val_main_c_77_apply]
  exact next_eq _

theorem v286_eq (x0 : (⟨3, ![8192, 256, 3]⟩ : Shape).Idx → EReal) (x1 : (⟨2, ![2, 3]⟩ : Shape).Idx → EReal)
    (n : Fin 2097152) :
    val_main_v286 (F := Ideal) x0 x1 (ix1 n) = Spec.frac (Spec.coords x0 x1 1 n) := by
  rw [val_main_v286_apply, v265_eq, val_main_v285_apply, v274_eq]
  exact frac_eq _

/-! ### Plane 3, y axis: the third coordinate -/

theorem idx_v258 (n : Fin 2097152) : idx_main_v257 (idx_main_v258 (ix1 n)) = ix2 n (2 : Fin 3) := by
  funext a; apply Fin.ext
  match a with
  | ⟨0, _⟩ => exact Nat.div_one n.val
  | ⟨1, _⟩ => rfl

theorem v258_eq (x0 : (⟨3, ![8192, 256, 3]⟩ : Shape).Idx → EReal) (x1 : (⟨2, ![2, 3]⟩ : Shape).Idx → EReal)
    (n : Fin 2097152) :
    val_main_v258 (F := Ideal) x0 x1 (ix1 n) = Spec.coords x0 x1 2 n := by
  rw [val_main_v258_apply, val_main_v257_apply, idx_v258, coords_eq]

theorem v272_eq (x0 : (⟨3, ![8192, 256, 3]⟩ : Shape).Idx → EReal) (x1 : (⟨2, ![2, 3]⟩ : Shape).Idx → EReal)
    (n : Fin 2097152) :
    val_main_v272 (F := Ideal) x0 x1 (ix1 n) = Spec.pos (Spec.coords x0 x1 2 n) := by
  rw [val_main_v272_apply, val_main_call5_v4_apply, val_main_call5_v3_apply, val_main_c_75_apply, val_main_call5_v2_apply, val_main_call5_v1_apply,
    val_main_call5_v0_apply, val_main_cst_74_apply, val_main_v271_apply, val_main_v269_apply, val_main_v267_apply, v258_eq,
    val_main_v266_apply, val_main_cst_71_apply, val_main_v268_apply, val_main_cst_72_apply, val_main_v270_apply, val_main_cst_73_apply]
  exact pos_eq _

theorem v276_eq (x0 : (⟨3, ![8192, 256, 3]⟩ : Shape).Idx → EReal) (x1 : (⟨2, ![2, 3]⟩ : Shape).Idx → EReal)
    (n : Fin 2097152) :
    val_main_v276 (F := Ideal) x0 x1 (ix1 n) = BitVec.ofNat 32 (Spec.cell (Spec.coords x0 x1 2 n)) := by
  rw [val_main_v276_apply, val_main_v275_apply, v272_eq]
  exact cell_eq _

theorem v284_eq (x0 : (⟨3, ![8192, 256, 3]⟩ : Shape).Idx → EReal) (x1 : (⟨2, ![2, 3]⟩ : Shape).Idx → EReal)
    (n : Fin 2097152) :
    val_main_v284 (F := Ideal) x0 x1 (ix1 n) = BitVec.ofNat 32 (Spec.next (Spec.coords x0 x1 2 n)) := by
  rw [val_main_v284_apply, val_main_v282_apply, v276_eq, val_main_v281_apply, val_main_c_78_apply, val_main_v283_apply, val_main_c_79_apply]
  exact next_eq _

theorem v288_eq (x0 : (⟨3, ![8192, 256, 3]⟩ : Shape).Idx → EReal) (x1 : (⟨2, ![2, 3]⟩ : Shape).Idx → EReal)
    (n : Fin 2097152) :
    val_main_v288 (F := Ideal) x0 x1 (ix1 n) = Spec.frac (Spec.coords x0 x1 2 n) := by
  rw [val_main_v288_apply, v272_eq, val_main_v287_apply, v276_eq]
  exact frac_eq _

end Cert.RefCoords

end
-- ==== Proof.RefGather.lean ====
/-
  Reading a gather of a stack of planes at a two-column index array.

  The operand is a stack of eight 256 × 256 planes.  The index array has one row per point and two columns:
  the first column is the row of the plane to read, the second the column.  Each column arrives as a vector of
  32-bit words, first passed through the wrap "a negative word gets 256 added", then made a one-column matrix,
  and the two one-column matrices are joined side by side.  The gather reads, for feature f and point n, the
  operand at (f, r, c) where r and c are the two words of row n read as signed integers and clamped into
  [0, 255].  When the words are small naturals (below 256) the wrap does nothing, the signed reading is the
  natural itself and the clamp does nothing: the gather reads the operand at (f, a, b).

  The reference gathers twelve times: for each of its three plane stacks, at the four corners
  (cell or next cell of the row coordinate) × (cell or next cell of the column coordinate).
-/
import Mathlib
import Idealize.ShloMosaic.PureOps.Ideal
import Idealize.ShloMosaic.Lib.ValueIdx
import Idealize.ShloMosaic.Lib.Pipeline.Value
import proofs.«108864_j88381837017835_2_alg».proof.Proof.RefRead
import proofs.«108864_j88381837017835_2_alg».proof.Proof.Spec
import proofs.«108864_j88381837017835_2_alg».proof.Proof.Words
import proofs.«108864_j88381837017835_2_alg».proof.Proof.RefCoords

noncomputable section

namespace Cert.RefGather

open Idealize.ShloMosaic Idealize.ShloMosaic.ValueIdx

/-! ## The shapes -/

/-- The stack of planes. -/
abbrev SOp : Shape := ⟨3, ![8, 256, 256]⟩
/-- A vector with one entry per point. -/
abbrev SVec : Shape := ⟨1, ![2097152]⟩
/-- The same vector as a one-column matrix. -/
abbrev SCol : Shape := ⟨2, ![2097152, 1]⟩
/-- The two-column index array. -/
abbrev SIx : Shape := ⟨2, ![2097152, 2]⟩
/-- The gathered result: one row per feature, one column per point. -/
abbrev SRes : Shape := ⟨2, ![8, 2097152]⟩

/-- The gather's dimension numbers: the feature axis is kept whole (slice size 8, result axis 0), the two plane
    axes are indexed by the two columns of the index array (slice size 1, collapsed). -/
abbrev pairDims (wf : GatherDims.WF SOp SIx SRes [0] [1, 2] [] [1, 2] [] 1 ![8, 1, 1]) : GatherDims SOp SIx SRes where
  offsetDims := [0]
  collapsedSliceDims := [1, 2]
  operandBatchingDims := []
  startIndicesBatchingDims := []
  startIndexMap := [1, 2]
  indexVectorDim := 1
  sliceSizes := ![8, 1, 1]
  wf := wf

section Generic
variable {α : Type}

/-- The index-array position a result index reads its k-th start-index component from: row n, column k. -/
theorem pairDims_siIdx (wf : GatherDims.WF SOp SIx SRes [0] [1, 2] [] [1, 2] [] 1 ![8, 1, 1])
    (f : Fin 8) (n : Fin 2097152) (c : Fin (pairDims wf).startIndexMap.length) :
    (pairDims wf).siIdx (ix2 f n) c = ix2 n ⟨c.val, c.isLt⟩ := by
  funext b; refine Fin.ext ?_
  match b with
  | ⟨0, _⟩ => rfl
  | ⟨1, _⟩ => rfl

/-- The gather read at (f, n): the operand at feature f, row r and column c, where r and c are the two words of
    row n of the index array read signed and clamped into [0, 255]. -/
theorem gather_pair_apply (wf : GatherDims.WF SOp SIx SRes [0] [1, 2] [] [1, 2] [] 1 ![8, 1, 1])
    (x : SOp.Idx → α) (idx : IVec SIx 32) (f : Fin 8) (n : Fin 2097152) (r c : Fin 256)
    (hr : min (idx (ix2 n 0)).toInt.toNat 255 = r.val) (hc : min (idx (ix2 n 1)).toInt.toNat 255 = c.val) :
    Host.gather (pairDims wf) x idx (ix2 f n) = x (ix3 f r c) := by
  unfold Host.gather
  congr 1
  funext a
  refine Fin.ext ?_
  match a with
  | ⟨0, _⟩ =>
    show (pairDims wf).start (ix2 f n) idx 0 + (pairDims wf).batchCoord (ix2 f n) 0 + (pairDims wf).offCoord (ix2 f n) 0 = f.val
    rw [GatherDims.batchCoord_eq_zero _ _ _ List.not_mem_nil]
    unfold GatherDims.start GatherDims.offCoord
    rw [dif_neg (show (0 : Fin 3) ∉ ([1, 2] : List (Fin 3)) by decide),
      dif_pos ((GatherDims.mem_sKept _ _).2 ⟨(show (0 : Fin 3) ∉ ([1, 2] : List (Fin 3)) by decide), List.not_mem_nil⟩),
      Nat.zero_add]
    rfl
  | ⟨1, _⟩ =>
    show (pairDims wf).start (ix2 f n) idx 1 + (pairDims wf).batchCoord (ix2 f n) 1 + (pairDims wf).offCoord (ix2 f n) 1
      = r.val
    rw [GatherDims.batchCoord_eq_zero _ _ _ List.not_mem_nil,
      GatherDims.offCoord_eq_zero _ _ _ (fun h => ((GatherDims.mem_sKept _ _).1 h).1 (show (1 : Fin 3) ∈ ([1, 2] : List (Fin 3)) by decide))]
    unfold GatherDims.start
    rw [dif_pos (show (1 : Fin 3) ∈ ([1, 2] : List (Fin 3)) by decide), pairDims_siIdx]
    exact hr
  | ⟨2, _⟩ =>
    show (pairDims wf).start (ix2 f n) idx 2 + (pairDims wf).batchCoord (ix2 f n) 2 + (pairDims wf).offCoord (ix2 f n) 2
      = c.val
    rw [GatherDims.batchCoord_eq_zero _ _ _ List.not_mem_nil,
      GatherDims.offCoord_eq_zero _ _ _ (fun h => ((GatherDims.mem_sKept _ _).1 h).1 (show (2 : Fin 3) ∈ ([1, 2] : List (Fin 3)) by decide))]
    unfold GatherDims.start
    rw [dif_pos (show (2 : Fin 3) ∈ ([1, 2] : List (Fin 3)) by decide), pairDims_siIdx]
    exact hc

/-- A vector made a one-column matrix, read at row n: entry n of the vector. -/
theorem col_apply (hb : SVec.BroadcastsInDim SCol (![0] : Fin 1 → Fin SCol.rank)) (y : SVec.Idx → α) (n : Fin 2097152) :
    broadcastInDim SCol ![0] hb y (ix2 n 0) = y (ix1 n) :=
  broadcastInDim_apply _ hb y (ix2 n 0) (ix1 n) (fun a => match a with
    | ⟨0, _⟩ => by show n.val = if (2097152 : Nat) = 1 then 0 else n.val; rw [if_neg (by decide)])

/-- Two one-column matrices side by side, read in column 0: the first matrix. -/
theorem cols_apply_zero (hc : Shape.Concatenates [SCol, SCol] SIx 1) (p q : SCol.Idx → α) (n : Fin 2097152) :
    concatenate SIx 1 [⟨SCol, p⟩, ⟨SCol, q⟩] hc (ix2 n 0) = p (ix2 n 0) :=
  concatenate_pair_apply_left 1 p q hc (ix2 n 0) rfl (ix2 n 0)
    (fun c => match c with | ⟨0, _⟩ => rfl | ⟨1, _⟩ => rfl)

/-- Two one-column matrices side by side, read in column 1: the second matrix. -/
theorem cols_apply_one (hc : Shape.Concatenates [SCol, SCol] SIx 1) (p q : SCol.Idx → α) (n : Fin 2097152) :
    concatenate SIx 1 [⟨SCol, p⟩, ⟨SCol, q⟩] hc (ix2 n 1) = q (ix2 n 0) :=
  concatenate_pair_apply_right 1 p q hc (ix2 n 1) rfl rfl (ix2 n 0)
    (fun c hne => match c, hne with | ⟨0, _⟩, _ => rfl | ⟨1, _⟩, h => absurd rfl h) rfl

/-- The gather at an index array assembled from two word vectors: the operand at feature f and at the two
    vectors' entries n, read signed and clamped into [0, 255]; the first vector indexes the rows. -/
theorem gather_cols_apply (wf : GatherDims.WF SOp SIx SRes [0] [1, 2] [] [1, 2] [] 1 ![8, 1, 1])
    (hb : SVec.BroadcastsInDim SCol (![0] : Fin 1 → Fin SCol.rank)) (hc : Shape.Concatenates [SCol, SCol] SIx 1)
    (x : SOp.Idx → α) (ycol xcol : IVec SVec 32) (f : Fin 8) (n : Fin 2097152) (r c : Fin 256)
    (hr : min (ycol (ix1 n)).toInt.toNat 255 = r.val) (hc' : min (xcol (ix1 n)).toInt.toNat 255 = c.val) :
    Host.gather (pairDims wf) x
        (concatenate SIx 1 [⟨SCol, broadcastInDim SCol ![0] hb ycol⟩, ⟨SCol, broadcastInDim SCol ![0] hb xcol⟩] hc) (ix2 f n)
      = x (ix3 f r c) := by
  apply gather_pair_apply
  · rw [cols_apply_zero, col_apply hb ycol n]; exact hr
  · rw [cols_apply_one, col_apply hb xcol n]; exact hc'

end Generic

section Wrapped
variable {α : Type}

/-- ONE GATHER SITE: both word vectors passed through the wrap "add 256 if negative", made columns, joined, and used
    to gather.  Where the two vectors hold naturals a and b below 256 at entry n, the wrap leaves them alone, their
    signed readings clamped into [0, 255] are a and b, and the result at (f, n) is the operand at (f, a, b). -/
theorem gather_wrapped_small (wf : GatherDims.WF SOp SIx SRes [0] [1, 2] [] [1, 2] [] 1 ![8, 1, 1])
    (hb : SVec.BroadcastsInDim SCol (![0] : Fin 1 → Fin SCol.rank)) (hc : Shape.Concatenates [SCol, SCol] SIx 1)
    (x : SOp.Idx → α) (ycol xcol zy zx cy cx : IVec SVec 32) (f : Fin 8) (n : Fin 2097152)
    (a b : Nat) (ha : a < 256) (hb' : b < 256)
    (hzy : zy (ix1 n) = 0#32) (hzx : zx (ix1 n) = 0#32) (hcy : cy (ix1 n) = 256#32) (hcx : cx (ix1 n) = 256#32)
    (hy : ycol (ix1 n) = BitVec.ofNat 32 a) (hx : xcol (ix1 n) = BitVec.ofNat 32 b) :
    Host.gather (pairDims wf) x
        (concatenate SIx 1
          [⟨SCol, broadcastInDim SCol ![0] hb (select (cmpi .slt ycol zy) (addi ycol cy) ycol)⟩,
           ⟨SCol, broadcastInDim SCol ![0] hb (select (cmpi .slt xcol zx) (addi xcol cx) xcol)⟩] hc) (ix2 f n)
      = x (ix3 f ⟨a, ha⟩ ⟨b, hb'⟩) := by
  have e1 : min ((select (cmpi .slt ycol zy) (addi ycol cy) ycol) (ix1 n)).toInt.toNat 255 = a := by
    show min (Scalar.select (IntOp.cmpi .slt (ycol (ix1 n)) (zy (ix1 n))) (IntOp.addi (ycol (ix1 n)) (cy (ix1 n)))
      (ycol (ix1 n))).toInt.toNat 255 = a
    rw [hzy, hcy, hy, Cert.Words.select_slt_zero_add ha, Cert.Words.clamp_ofNat ha]
  have e2 : min ((select (cmpi .slt xcol zx) (addi xcol cx) xcol) (ix1 n)).toInt.toNat 255 = b := by
    show min (Scalar.select (IntOp.cmpi .slt (xcol (ix1 n)) (zx (ix1 n))) (IntOp.addi (xcol (ix1 n)) (cx (ix1 n)))
      (xcol (ix1 n))).toInt.toNat 255 = b
    rw [hzx, hcx, hx, Cert.Words.select_slt_zero_add hb', Cert.Words.clamp_ofNat hb']
  exact gather_cols_apply wf hb hc x _ _ f n ⟨a, ha⟩ ⟨b, hb'⟩ e1 e2

end Wrapped

/-! ## The twelve gathers of the reference -/

section Sites

open Cert.ReferenceIdeal Cert.ReferenceIdeal.ReadP

/-- The first plane stack read at row the cell of coordinate 1 and column the cell of coordinate 0. -/
theorem v65_eq (x0 : (⟨3, ![8192, 256, 3]⟩ : Shape).Idx → EReal) (x1 : (⟨2, ![2, 3]⟩ : Shape).Idx → EReal)
    (x2 : (⟨3, ![8, 256, 256]⟩ : Shape).Idx → EReal) (f : Fin 8) (n : Fin 2097152) :
    val_main_v65 (F := Ideal) x0 x1 x2 (ix2 f n)
      = x2 (ix3 f (Spec.cellF (Spec.coords x0 x1 1 n)) (Spec.cellF (Spec.coords x0 x1 0 n))) := by
  unfold val_main_v65 val_main_v64 val_main_v62 val_main_v63 val_main_v56 val_main_v61 val_main_v53 val_main_v55 val_main_v58 val_main_v60
  exact gather_wrapped_small _ _ _ x2 _ _ _ _ _ _ f n _ _ (Spec.cell_lt _) (Spec.cell_lt _) rfl rfl rfl rfl
    (RefCoords.v39_eq x0 x1 n) (RefCoords.v37_eq x0 x1 n)

/-- The first plane stack read at row the cell of coordinate 1 and column the next cell of coordinate 0. -/
theorem v79_eq (x0 : (⟨3, ![8192, 256, 3]⟩ : Shape).Idx → EReal) (x1 : (⟨2, ![2, 3]⟩ : Shape).Idx → EReal)
    (x2 : (⟨3, ![8, 256, 256]⟩ : Shape).Idx → EReal) (f : Fin 8) (n : Fin 2097152) :
    val_main_v79 (F := Ideal) x0 x1 x2 (ix2 f n)
      = x2 (ix3 f (Spec.cellF (Spec.coords x0 x1 1 n)) (Spec.nextF (Spec.coords x0 x1 0 n))) := by
  unfold val_main_v79 val_main_v78 val_main_v76 val_main_v77 val_main_v70 val_main_v75 val_main_v67 val_main_v69 val_main_v72 val_main_v74
  exact gather_wrapped_small _ _ _ x2 _ _ _ _ _ _ f n _ _ (Spec.cell_lt _) (Spec.next_lt _) rfl rfl rfl rfl
    (RefCoords.v39_eq x0 x1 n) (RefCoords.v43_eq x0 x1 n)

/-- The first plane stack read at row the next cell of coordinate 1 and column the cell of coordinate 0. -/
theorem v93_eq (x0 : (⟨3, ![8192, 256, 3]⟩ : Shape).Idx → EReal) (x1 : (⟨2, ![2, 3]⟩ : Shape).Idx → EReal)
    (x2 : (⟨3, ![8, 256, 256]⟩ : Shape).Idx → EReal) (f : Fin 8) (n : Fin 2097152) :
    val_main_v93 (F := Ideal) x0 x1 x2 (ix2 f n)
      = x2 (ix3 f (Spec.nextF (Spec.coords x0 x1 1 n)) (Spec.cellF (Spec.coords x0 x1 0 n))) := by
  unfold val_main_v93 val_main_v92 val_main_v90 val_main_v91 val_main_v84 val_main_v89 val_main_v81 val_main_v83 val_main_v86 val_main_v88
  exact gather_wrapped_small _ _ _ x2 _ _ _ _ _ _ f n _ _ (Spec.next_lt _) (Spec.cell_lt _) rfl rfl rfl rfl
    (RefCoords.v47_eq x0 x1 n) (RefCoords.v37_eq x0 x1 n)

/-- The first plane stack read at row the next cell of coordinate 1 and column the next cell of coordinate 0. -/
theorem v107_eq (x0 : (⟨3, ![8192, 256, 3]⟩ : Shape).Idx → EReal) (x1 : (⟨2, ![2, 3]⟩ : Shape).Idx → EReal)
    (x2 : (⟨3, ![8, 256, 256]⟩ : Shape).Idx → EReal) (f : Fin 8) (n : Fin 2097152) :
    val_main_v107 (F := Ideal) x0 x1 x2 (ix2 f n)
      = x2 (ix3 f (Spec.nextF (Spec.coords x0 x1 1 n)) (Spec.nextF (Spec.coords x0 x1 0 n))) := by
  unfold val_main_v107 val_main_v106 val_main_v104 val_main_v105 val_main_v98 val_main_v103 val_main_v95 val_main_v97 val_main_v100 val_main_v102
  exact gather_wrapped_small _ _ _ x2 _ _ _ _ _ _ f n _ _ (Spec.next_lt _) (Spec.next_lt _) rfl rfl rfl rfl
    (RefCoords.v47_eq x0 x1 n) (RefCoords.v43_eq x0 x1 n)

/-- The second plane stack read at row the cell of coordinate 2 and column the cell of coordinate 0. -/
theorem v183_eq (x0 : (⟨3, ![8192, 256, 3]⟩ : Shape).Idx → EReal) (x1 : (⟨2, ![2, 3]⟩ : Shape).Idx → EReal)
    (x3 : (⟨3, ![8, 256, 256]⟩ : Shape).Idx → EReal) (f : Fin 8) (n : Fin 2097152) :
    val_main_v183 (F := Ideal) x0 x1 x3 (ix2 f n)
      = x3 (ix3 f (Spec.cellF (Spec.coords x0 x1 2 n)) (Spec.cellF (Spec.coords x0 x1 0 n))) := by
  unfold val_main_v183 val_main_v182 val_main_v180 val_main_v181 val_main_v174 val_main_v179 val_main_v171 val_main_v173 val_main_v176 val_main_v178
  exact gather_wrapped_small _ _ _ x3 _ _ _ _ _ _ f n _ _ (Spec.cell_lt _) (Spec.cell_lt _) rfl rfl rfl rfl
    (RefCoords.v157_eq x0 x1 n) (RefCoords.v155_eq x0 x1 n)

/-- The second plane stack read at row the cell of coordinate 2 and column the next cell of coordinate 0. -/
theorem v197_eq (x0 : (⟨3, ![8192, 256, 3]⟩ : Shape).Idx → EReal) (x1 : (⟨2, ![2, 3]⟩ : Shape).Idx → EReal)
    (x3 : (⟨3, ![8, 256, 256]⟩ : Shape).Idx → EReal) (f : Fin 8) (n : Fin 2097152) :
    val_main_v197 (F := Ideal) x0 x1 x3 (ix2 f n)
      = x3 (ix3 f (Spec.cellF (Spec.coords x0 x1 2 n)) (Spec.nextF (Spec.coords x0 x1 0 n))) := by
  unfold val_main_v197 val_main_v196 val_main_v194 val_main_v195 val_main_v188 val_main_v193 val_main_v185 val_main_v187 val_main_v190 val_main_v192
  exact gather_wrapped_small _ _ _ x3 _ _ _ _ _ _ f n _ _ (Spec.cell_lt _) (Spec.next_lt _) rfl rfl rfl rfl
    (RefCoords.v157_eq x0 x1 n) (RefCoords.v161_eq x0 x1 n)

/-- The second plane stack read at row the next cell of coordinate 2 and column the cell of coordinate 0. -/
theorem v211_eq (x0 : (⟨3, ![8192, 256, 3]⟩ : Shape).Idx → EReal) (x1 : (⟨2, ![2, 3]⟩ : Shape).Idx → EReal)
    (x3 : (⟨3, ![8, 256, 256]⟩ : Shape).Idx → EReal) (f : Fin 8) (n : Fin 2097152) :
    val_main_v211 (F := Ideal) x0 x1 x3 (ix2 f n)
      = x3 (ix3 f (Spec.nextF (Spec.coords x0 x1 2 n)) (Spec.cellF (Spec.coords x0 x1 0 n))) := by
  unfold val_main_v211 val_main_v210 val_main_v208 val_main_v209 val_main_v202 val_main_v207 val_main_v199 val_main_v201 val_main_v204 val_main_v206
  exact gather_wrapped_small _ _ _ x3 _ _ _ _ _ _ f n _ _ (Spec.next_lt _) (Spec.cell_lt _) rfl rfl rfl rfl
    (RefCoords.v165_eq x0 x1 n) (RefCoords.v155_eq x0 x1 n)

/-- The second plane stack read at row the next cell of coordinate 2 and column the next cell of coordinate 0. -/
theorem v225_eq (x0 : (⟨3, ![8192, 256, 3]⟩ : Shape).Idx → EReal) (x1 : (⟨2, ![2, 3]⟩ : Shape).Idx → EReal)
    (x3 : (⟨3, ![8, 256, 256]⟩ : Shape).Idx → EReal) (f : Fin 8) (n : Fin 2097152) :
    val_main_v225 (F := Ideal) x0 x1 x3 (ix2 f n)
      = x3 (ix3 f (Spec.nextF (Spec.coords x0 x1 2 n)) (Spec.nextF (Spec.coords x0 x1 0 n))) := by
  unfold val_main_v225 val_main_v224 val_main_v222 val_main_v223 val_main_v216 val_main_v221 val_main_v213 val_main_v215 val_main_v218 val_main_v220
  exact gather_wrapped_small _ _ _ x3 _ _ _ _ _ _ f n _ _ (Spec.next_lt _) (Spec.next_lt _) rfl rfl rfl rfl
    (RefCoords.v165_eq x0 x1 n) (RefCoords.v161_eq x0 x1 n)

/-- The third plane stack read at row the cell of coordinate 2 and column the cell of coordinate 1. -/
theorem v302_eq (x0 : (⟨3, ![8192, 256, 3]⟩ : Shape).Idx → EReal) (x1 : (⟨2, ![2, 3]⟩ : Shape).Idx → EReal)
    (x4 : (⟨3, ![8, 256, 256]⟩ : Shape).Idx → EReal) (f : Fin 8) (n : Fin 2097152) :
    val_main_v302 (F := Ideal) x0 x1 x4 (ix2 f n)
      = x4 (ix3 f (Spec.cellF (Spec.coords x0 x1 2 n)) (Spec.cellF (Spec.coords x0 x1 1 n))) := by
  unfold val_main_v302 val_main_v301 val_main_v299 val_main_v300 val_main_v293 val_main_v298 val_main_v290 val_main_v292 val_main_v295 val_main_v297
  exact gather_wrapped_small _ _ _ x4 _ _ _ _ _ _ f n _ _ (Spec.cell_lt _) (Spec.cell_lt _) rfl rfl rfl rfl
    (RefCoords.v276_eq x0 x1 n) (RefCoords.v274_eq x0 x1 n)

/-- The third plane stack read at row the cell of coordinate 2 and column the next cell of coordinate 1. -/
theorem v316_eq (x0 : (⟨3, ![8192, 256, 3]⟩ : Shape).Idx → EReal) (x1 : (⟨2, ![2, 3]⟩ : Shape).Idx → EReal)
    (x4 : (⟨3, ![8, 256, 256]⟩ : Shape).Idx → EReal) (f : Fin 8) (n : Fin 2097152) :
    val_main_v316 (F := Ideal) x0 x1 x4 (ix2 f n)
      = x4 (ix3 f (Spec.cellF (Spec.coords x0 x1 2 n)) (Spec.nextF (Spec.coords x0 x1 1 n))) := by
  unfold val_main_v316 val_main_v315 val_main_v313 val_main_v314 val_main_v307 val_main_v312 val_main_v304 val_main_v306 val_main_v309 val_main_v311
  exact gather_wrapped_small _ _ _ x4 _ _ _ _ _ _ f n _ _ (Spec.cell_lt _) (Spec.next_lt _) rfl rfl rfl rfl
    (RefCoords.v276_eq x0 x1 n) (RefCoords.v280_eq x0 x1 n)

/-- The third plane stack read at row the next cell of coordinate 2 and column the cell of coordinate 1. -/
theorem v330_eq (x0 : (⟨3, ![8192, 256, 3]⟩ : Shape).Idx → EReal) (x1 : (⟨2, ![2, 3]⟩ : Shape).Idx → EReal)
    (x4 : (⟨3, ![8, 256, 256]⟩ : Shape).Idx → EReal) (f : Fin 8) (n : Fin 2097152) :
    val_main_v330 (F := Ideal) x0 x1 x4 (ix2 f n)
      = x4 (ix3 f (Spec.nextF (Spec.coords x0 x1 2 n)) (Spec.cellF (Spec.coords x0 x1 1 n))) := by
  unfold val_main_v330 val_main_v329 val_main_v327 val_main_v328 val_main_v321 val_main_v326 val_main_v318 val_main_v320 val_main_v323 val_main_v325
  exact gather_wrapped_small _ _ _ x4 _ _ _ _ _ _ f n _ _ (Spec.next_lt _) (Spec.cell_lt _) rfl rfl rfl rfl
    (RefCoords.v284_eq x0 x1 n) (RefCoords.v274_eq x0 x1 n)

/-- The third plane stack read at row the next cell of coordinate 2 and column the next cell of coordinate 1. -/
theorem v344_eq (x0 : (⟨3, ![8192, 256, 3]⟩ : Shape).Idx → EReal) (x1 : (⟨2, ![2, 3]⟩ : Shape).Idx → EReal)
    (x4 : (⟨3, ![8, 256, 256]⟩ : Shape).Idx → EReal) (f : Fin 8) (n : Fin 2097152) :
    val_main_v344 (F := Ideal) x0 x1 x4 (ix2 f n)
      = x4 (ix3 f (Spec.nextF (Spec.coords x0 x1 2 n)) (Spec.nextF (Spec.coords x0 x1 1 n))) := by
  unfold val_main_v344 val_main_v343 val_main_v341 val_main_v342 val_main_v335 val_main_v340 val_main_v332 val_main_v334 val_main_v337 val_main_v339
  exact gather_wrapped_small _ _ _ x4 _ _ _ _ _ _ f n _ _ (Spec.next_lt _) (Spec.next_lt _) rfl rfl rfl rfl
    (RefCoords.v284_eq x0 x1 n) (RefCoords.v280_eq x0 x1 n)

end Sites

end Cert.RefGather

end
-- ==== Proof.RefValue.lean ====
/-
  The reference's value: from the gathered neighbours to the density.

  For each of the three planes the reference has gathered, for every feature and point, the four table entries
  around the point's position.  It blends them with the fractional parts of the two positions — first the two
  entries of a row, weights `1 - frac` and `frac` of the column position, then the two rows, weights
  `1 - frac` and `frac` of the row position — and lays the result out point by feature.  That is the bilinear
  sample of the specification.  The three samples are multiplied; a contraction over the eight features against
  the first weight matrix, a contraction over the sixty-four hidden units against the second, and an exponential
  follow; the flat list of points is folded back into rays of samples.  The specification's density has the same
  factors in another order under the two sums, and multiplication of extended reals is commutative.
-/
import proofs.«108864_j88381837017835_2_alg».proof.Proof.RefRead
import proofs.«108864_j88381837017835_2_alg».proof.Proof.Spec
import proofs.«108864_j88381837017835_2_alg».proof.Proof.Consts
import proofs.«108864_j88381837017835_2_alg».proof.Proof.RefCoords
import proofs.«108864_j88381837017835_2_alg».proof.Proof.RefGather

noncomputable section

namespace Cert.RefValue

open Cert.ReferenceIdeal Cert.ReferenceIdeal.Gen Cert.ReferenceIdeal.ReadP Idealize.ShloMosaic Idealize.ShloMosaic.TcCoe
  Idealize.ShloMosaic.ValueIdx Idealize.SL.Sem Idealize.ShloMosaic.StableHlo

/-! ## One sample stage

  The same twenty-eight operations follow each plane's four gathers; they are one function of the four gathered
  arrays [8, N] and the two fraction vectors [N]. -/

/-- A vector over the points repeated along the eight features: [N] → [1, N] → [8, N]. -/
def up (v : (⟨S2097152, .f32⟩ : BufTy).Contents (Elt Ideal)) : (⟨S8x2097152, .f32⟩ : BufTy).Contents (Elt Ideal) :=
  broadcastInDim S8x2097152 ![0, 1] bcast_S1x2097152_S8x2097152_0_1
    (broadcastInDim S1x2097152 ![1] bcast_S2097152_S1x2097152_1 v)

theorem up_apply (v : (⟨S2097152, .f32⟩ : BufTy).Contents (Elt Ideal)) (f : Fin 8) (n : Fin 2097152) :
    up v (ix2 f n) = v (ix1 n) := by
  unfold up
  rw [broadcastInDim_apply _ bcast_S1x2097152_S8x2097152_0_1 _ (ix2 f n) (ix2 (0 : Fin 1) n) (fun a => match a with
      | ⟨0, _⟩ => by show 0 = if (1 : Nat) = 1 then 0 else f.val; rw [if_pos rfl]
      | ⟨1, _⟩ => by show n.val = if (2097152 : Nat) = 1 then 0 else n.val; rw [if_neg (by decide)]),
    broadcastInDim_apply _ bcast_S2097152_S1x2097152_1 _ (ix2 (0 : Fin 1) n) (ix1 n) (fun a => match a with
      | ⟨0, _⟩ => by show n.val = if (2097152 : Nat) = 1 then 0 else n.val; rw [if_neg (by decide)])]

/-- The vector of ones over the points: the scalar `1.0` repeated. -/
def ones : (⟨S2097152, .f32⟩ : BufTy).Contents (Elt Ideal) :=
  broadcastInDim S2097152 ![] bcast_S_S2097152 (constant (F := Ideal) S_ .f32 0x3F800000#32)

theorem ones_apply (i : S2097152.Idx) : ones i = 1 := by
  unfold ones
  rw [broadcastInDim_apply _ bcast_S_S2097152 _ i ix0 (fun a => a.elim0), constant_apply, Cert.Consts.ofBits_one]

/-- The blend of four neighbour arrays by two fraction vectors, laid out point by feature. -/
def sample (g00 g01 g10 g11 : (⟨S8x2097152, .f32⟩ : BufTy).Contents (Elt Ideal))
    (fx fy : (⟨S2097152, .f32⟩ : BufTy).Contents (Elt Ideal)) : (⟨S2097152x8, .f32⟩ : BufTy).Contents (Elt Ideal) :=
  transpose S2097152x8 [1, 0]
    (addf (F := Ideal) (s := S8x2097152) (φ := .f32)
      (mulf (F := Ideal) (s := S8x2097152) (φ := .f32) (addf (F := Ideal) (s := S8x2097152) (φ := .f32) (mulf (F := Ideal) (s := S8x2097152) (φ := .f32) g00 (up (subf (F := Ideal) (s := S2097152) (φ := .f32) ones fx))) (mulf (F := Ideal) (s := S8x2097152) (φ := .f32) g01 (up fx)))
        (up (subf (F := Ideal) (s := S2097152) (φ := .f32) ones fy)))
      (mulf (F := Ideal) (s := S8x2097152) (φ := .f32) (addf (F := Ideal) (s := S8x2097152) (φ := .f32) (mulf (F := Ideal) (s := S8x2097152) (φ := .f32) g10 (up (subf (F := Ideal) (s := S2097152) (φ := .f32) ones fx))) (mulf (F := Ideal) (s := S8x2097152) (φ := .f32) g11 (up fx)))
        (up fy)))
    transposes_S8x2097152_S2097152x8_1_0

theorem sample_apply (g00 g01 g10 g11 : (⟨S8x2097152, .f32⟩ : BufTy).Contents (Elt Ideal))
    (fx fy : (⟨S2097152, .f32⟩ : BufTy).Contents (Elt Ideal)) (n : Fin 2097152) (f : Fin 8) :
    sample g00 g01 g10 g11 fx fy (ix2 n f)
      = (g00 (ix2 f n) * (1 - fx (ix1 n)) + g01 (ix2 f n) * fx (ix1 n)) * (1 - fy (ix1 n))
        + (g10 (ix2 f n) * (1 - fx (ix1 n)) + g11 (ix2 f n) * fx (ix1 n)) * fy (ix1 n) := by
  unfold sample
  rw [transpose_apply [1, 0] _ transposes_S8x2097152_S2097152x8_1_0 (ix2 n f) (ix2 f n) (fun b => match b with
      | ⟨0, _⟩ => rfl
      | ⟨1, _⟩ => rfl)]
  simp only [addf_apply, mulf_apply, up_apply, subf_apply, ones_apply]

/-! ## The three plane samples -/

/-- Plane `x2`'s stage is the sample stage of its four gathered arrays and its two fraction vectors. -/
theorem v135_sample (x0 : (⟨3, ![8192, 256, 3]⟩ : Shape).Idx → EReal) (x1 : (⟨2, ![2, 3]⟩ : Shape).Idx → EReal) (x2 : (⟨3, ![8, 256, 256]⟩ : Shape).Idx → EReal) :
    val_main_v135 (F := Ideal) x0 x1 x2
      = sample (val_main_v65 (F := Ideal) x0 x1 x2) (val_main_v79 (F := Ideal) x0 x1 x2)
          (val_main_v93 (F := Ideal) x0 x1 x2) (val_main_v107 (F := Ideal) x0 x1 x2)
          (val_main_v49 (F := Ideal) x0 x1) (val_main_v51 (F := Ideal) x0 x1) := rfl

/-- The reference's sample of plane `x2` at point `n`, feature `f`, is the bilinear sample at coordinates 0 and 1. -/
theorem v135_bilerp (x0 : (⟨3, ![8192, 256, 3]⟩ : Shape).Idx → EReal) (x1 : (⟨2, ![2, 3]⟩ : Shape).Idx → EReal) (x2 : (⟨3, ![8, 256, 256]⟩ : Shape).Idx → EReal) (n : Fin 2097152) (f : Fin 8) :
    val_main_v135 (F := Ideal) x0 x1 x2 (ix2 n f)
      = Spec.bilerp (fun h w => x2 (ix3 f h w)) (Spec.coords x0 x1 0 n) (Spec.coords x0 x1 1 n) := by
  rw [v135_sample, sample_apply, Cert.RefGather.v65_eq, Cert.RefGather.v79_eq,
    Cert.RefGather.v93_eq, Cert.RefGather.v107_eq, Cert.RefCoords.v49_eq, Cert.RefCoords.v51_eq]
  rfl

/-- Plane `x3`'s stage is the sample stage of its four gathered arrays and its two fraction vectors. -/
theorem v253_sample (x0 : (⟨3, ![8192, 256, 3]⟩ : Shape).Idx → EReal) (x1 : (⟨2, ![2, 3]⟩ : Shape).Idx → EReal) (x3 : (⟨3, ![8, 256, 256]⟩ : Shape).Idx → EReal) :
    val_main_v253 (F := Ideal) x0 x1 x3
      = sample (val_main_v183 (F := Ideal) x0 x1 x3) (val_main_v197 (F := Ideal) x0 x1 x3)
          (val_main_v211 (F := Ideal) x0 x1 x3) (val_main_v225 (F := Ideal) x0 x1 x3)
          (val_main_v167 (F := Ideal) x0 x1) (val_main_v169 (F := Ideal) x0 x1) := rfl

/-- The reference's sample of plane `x3` at point `n`, feature `f`, is the bilinear sample at coordinates 0 and 2. -/
theorem v253_bilerp (x0 : (⟨3, ![8192, 256, 3]⟩ : Shape).Idx → EReal) (x1 : (⟨2, ![2, 3]⟩ : Shape).Idx → EReal) (x3 : (⟨3, ![8, 256, 256]⟩ : Shape).Idx → EReal) (n : Fin 2097152) (f : Fin 8) :
    val_main_v253 (F := Ideal) x0 x1 x3 (ix2 n f)
      = Spec.bilerp (fun h w => x3 (ix3 f h w)) (Spec.coords x0 x1 0 n) (Spec.coords x0 x1 2 n) := by
  rw [v253_sample, sample_apply, Cert.RefGather.v183_eq, Cert.RefGather.v197_eq,
    Cert.RefGather.v211_eq, Cert.RefGather.v225_eq, Cert.RefCoords.v167_eq, Cert.RefCoords.v169_eq]
  rfl

/-- Plane `x4`'s stage is the sample stage of its four gathered arrays and its two fraction vectors. -/
theorem v372_sample (x0 : (⟨3, ![8192, 256, 3]⟩ : Shape).Idx → EReal) (x1 : (⟨2, ![2, 3]⟩ : Shape).Idx → EReal) (x4 : (⟨3, ![8, 256, 256]⟩ : Shape).Idx → EReal) :
    val_main_v372 (F := Ideal) x0 x1 x4
      = sample (val_main_v302 (F := Ideal) x0 x1 x4) (val_main_v316 (F := Ideal) x0 x1 x4)
          (val_main_v330 (F := Ideal) x0 x1 x4) (val_main_v344 (F := Ideal) x0 x1 x4)
          (val_main_v286 (F := Ideal) x0 x1) (val_main_v288 (F := Ideal) x0 x1) := rfl

/-- The reference's sample of plane `x4` at point `n`, feature `f`, is the bilinear sample at coordinates 1 and 2. -/
theorem v372_bilerp (x0 : (⟨3, ![8192, 256, 3]⟩ : Shape).Idx → EReal) (x1 : (⟨2, ![2, 3]⟩ : Shape).Idx → EReal) (x4 : (⟨3, ![8, 256, 256]⟩ : Shape).Idx → EReal) (n : Fin 2097152) (f : Fin 8) :
    val_main_v372 (F := Ideal) x0 x1 x4 (ix2 n f)
      = Spec.bilerp (fun h w => x4 (ix3 f h w)) (Spec.coords x0 x1 1 n) (Spec.coords x0 x1 2 n) := by
  rw [v372_sample, sample_apply, Cert.RefGather.v302_eq, Cert.RefGather.v316_eq,
    Cert.RefGather.v330_eq, Cert.RefGather.v344_eq, Cert.RefCoords.v286_eq, Cert.RefCoords.v288_eq]
  rfl

/-! ## The result array -/

/-- The place of sample `i 1` of ray `i 0` in the flat list of points. -/
def pt (i : (⟨3, ![8192, 256, 1]⟩ : Shape).Idx) : Fin 2097152 :=
  ⟨(i 0).val * 256 + (i 1).val, by
    have h0 : (i 0).val < 8192 := (i 0).isLt
    have h1 : (i 1).val < 256 := (i 1).isLt
    omega⟩

theorem ptRow_pt (i : (⟨3, ![8192, 256, 1]⟩ : Shape).Idx) : Spec.ptRow (pt i) = i 0 := Fin.ext (by
  have h1 : (i 1).val < 256 := (i 1).isLt
  show ((i 0).val * 256 + (i 1).val) / 256 = (i 0).val
  omega)

theorem ptCol_pt (i : (⟨3, ![8192, 256, 1]⟩ : Shape).Idx) : Spec.ptCol (pt i) = i 1 := Fin.ext (by
  have h1 : (i 1).val < 256 := (i 1).isLt
  show ((i 0).val * 256 + (i 1).val) % 256 = (i 1).val
  omega)

/-- The point's normalised coordinate, read at the ray and the sample. -/
theorem coords_pt (x0 : (⟨3, ![8192, 256, 3]⟩ : Shape).Idx → EReal) (x1 : (⟨2, ![2, 3]⟩ : Shape).Idx → EReal) (k : Fin 3) (i : (⟨3, ![8192, 256, 1]⟩ : Shape).Idx) :
    Spec.coords x0 x1 k (pt i) = Spec.coord (x0 (ix3 (i 0) (i 1) k)) (x1 (ix2 0 k)) (x1 (ix2 1 k)) := by
  unfold Spec.coords
  rw [ptRow_pt, ptCol_pt]

/-- Folding the flat list back: entry `i` of the result is row `pt i` of the column of densities. -/
theorem idx_v379 (i : S8192x256x1.Idx) : idx_main_v379 i = ix2 (pt i) (0 : Fin 1) :=
  funext fun a => Fin.ext (by
    match a with
    | ⟨0, _⟩ =>
      have h2 : (i 2).val < 1 := (i 2).isLt
      show (((i 0).val * 256 + (i 1).val) * 1 + (i 2).val) / 1 = (i 0).val * 256 + (i 1).val
      omega
    | ⟨1, _⟩ => rfl)

theorem lidx_v377 (n : Fin 2097152) (j : Fin 64) : lidx_main_v377 (ix2 n (0 : Fin 1)) j = ix2 n j :=
  funext fun a => Fin.ext (by match a with | ⟨0, _⟩ => rfl | ⟨1, _⟩ => rfl)

theorem ridx_v377 (n : Fin 2097152) (j : Fin 64) : ridx_main_v377 (ix2 n (0 : Fin 1)) j = ix2 j (0 : Fin 1) :=
  funext fun a => Fin.ext (by match a with | ⟨0, _⟩ => rfl | ⟨1, _⟩ => rfl)

theorem idx_v376 (j : Fin 64) : idx_main_v376 (ix2 j (0 : Fin 1)) = ix2 (0 : Fin 1) j :=
  funext fun a => Fin.ext (by match a with | ⟨0, _⟩ => rfl | ⟨1, _⟩ => rfl)

theorem lidx_v375 (n : Fin 2097152) (j : Fin 64) (f : Fin 8) : lidx_main_v375 (ix2 n j) f = ix2 n f :=
  funext fun a => Fin.ext (by match a with | ⟨0, _⟩ => rfl | ⟨1, _⟩ => rfl)

theorem ridx_v375 (n : Fin 2097152) (j : Fin 64) (f : Fin 8) : ridx_main_v375 (ix2 n j) f = ix2 f j :=
  funext fun a => Fin.ext (by match a with | ⟨0, _⟩ => rfl | ⟨1, _⟩ => rfl)

theorem idx_v374 (f : Fin 8) (j : Fin 64) : idx_main_v374 (ix2 f j) = ix2 j f :=
  funext fun a => Fin.ext (by match a with | ⟨0, _⟩ => rfl | ⟨1, _⟩ => rfl)

/-- The product of the three samples against the first weight matrix: hidden unit `j` of point `n`. -/
theorem v375_eq (x0 : (⟨3, ![8192, 256, 3]⟩ : Shape).Idx → EReal) (x1 : (⟨2, ![2, 3]⟩ : Shape).Idx → EReal) (x2 : (⟨3, ![8, 256, 256]⟩ : Shape).Idx → EReal) (x3 : (⟨3, ![8, 256, 256]⟩ : Shape).Idx → EReal) (x4 : (⟨3, ![8, 256, 256]⟩ : Shape).Idx → EReal) (x5 : (⟨2, ![64, 8]⟩ : Shape).Idx → EReal)
    (n : Fin 2097152) (j : Fin 64) :
    val_main_v375 (F := Ideal) x0 x1 x2 x3 x4 x5 (ix2 n j)
      = ∑ f : Fin 8, x5 (ix2 j f) *
          ((Spec.bilerp (fun h w => x2 (ix3 f h w)) (Spec.coords x0 x1 0 n) (Spec.coords x0 x1 1 n)
            * Spec.bilerp (fun h w => x3 (ix3 f h w)) (Spec.coords x0 x1 0 n) (Spec.coords x0 x1 2 n))
            * Spec.bilerp (fun h w => x4 (ix3 f h w)) (Spec.coords x0 x1 1 n) (Spec.coords x0 x1 2 n)) := by
  rw [val_main_v375_apply]
  refine Finset.sum_congr rfl fun f _ => ?_
  rw [lidx_v375, ridx_v375, val_main_v374_apply, idx_v374, val_main_v373_apply, val_main_v254_apply,
    Ideal.mulf_def, Ideal.mulf_def, v135_bilerp, v253_bilerp, v372_bilerp]
  exact mul_comm _ _

/-- The reference's result array is the specification's. -/
theorem result_eq (x0 : (⟨3, ![8192, 256, 3]⟩ : Shape).Idx → EReal) (x1 : (⟨2, ![2, 3]⟩ : Shape).Idx → EReal) (x2 : (⟨3, ![8, 256, 256]⟩ : Shape).Idx → EReal) (x3 : (⟨3, ![8, 256, 256]⟩ : Shape).Idx → EReal) (x4 : (⟨3, ![8, 256, 256]⟩ : Shape).Idx → EReal) (x5 : (⟨2, ![64, 8]⟩ : Shape).Idx → EReal) (x6 : (⟨2, ![1, 64]⟩ : Shape).Idx → EReal) :
    val_main_v379 (F := Ideal) x0 x1 x2 x3 x4 x5 x6 = Spec.G x0 x1 x2 x3 x4 x5 x6 := by
  funext i
  rw [val_main_v379_apply, idx_v379, val_main_v378_apply, Ideal.hostUnary_exp_def, val_main_v377_apply]
  simp only [Spec.G, Spec.density]
  refine congrArg Ideal.exp (Finset.sum_congr rfl fun j _ => ?_)
  rw [lidx_v377, ridx_v377, val_main_v376_apply, idx_v376, v375_eq, coords_pt, coords_pt, coords_pt]
  exact mul_comm _ _

end Cert.RefValue

end
-- ==== Proof.RefRunG.lean ====
/-
  The reference's run, with its result stated by the specification.

  The reference is a straight list of host operations: every weakly fair execution terminates with the result
  array at the operations' composed term of the arguments and the arguments unchanged.  That term is the
  specification's density field (`result_eq`), which gives the run in the form the claim compares with the
  kernel's; dropping the result leaves the frame.
-/
import proofs.«108864_j88381837017835_2_alg».proof.Defs
import proofs.«108864_j88381837017835_2_alg».proof.Proof.Gen.Pre_finite_inputs
import proofs.«108864_j88381837017835_2_alg».proof.Proof.RefRunMain
import proofs.«108864_j88381837017835_2_alg».proof.Proof.RefValue

noncomputable section

namespace Cert.RefValue

open Cert.ReferenceIdeal Cert.ReferenceIdeal.Gen Cert.ReferenceIdeal.ReadP Idealize.ShloMosaic Idealize.ShloMosaic.TcCoe
  Idealize.ShloMosaic.ValueIdx Idealize.SL.Sem Idealize.ShloMosaic.StableHlo

/-! ## The reference's run -/

/-- Every weakly fair execution of the reference terminates with its result array the specification's function of
    the arguments, and the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v379)
          = Spec.G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans ((val_main_v379_eq m c).trans (result_eq _ _ _ _ _ _ _)), (h c).2⟩)
    (Cert.ReferenceIdeal.ValueP.run (F := Ideal) m ρ)

/-- The reference runs and leaves its arguments unchanged. -/
theorem frame_ri : Cert.frame_ReferenceIdeal := fun m ρ _ =>
  (θ_run Cert.ReferenceIdeal.defs _ _).mono (fun _ h c => (h c).2) (Cert.ReferenceIdeal.ValueP.run (F := Ideal) m ρ)

end Cert.RefValue

end
-- ==== Proof.lean ====
/-
  The kernel samples three feature planes bilinearly at every point, multiplies the samples, applies two linear
  maps and an exponential; the reference does the same with four gathered neighbours per plane.

  Both results are one function of the argument arrays, `Cert.Spec.G`: the kernel's contraction of a plane
  against two weight rows that vanish off two neighbouring cells is the four-neighbour formula (the weights are
  nonnegative, so the one product that meets a sum distributes on the extended reals), and the reference's scale
  `(c + 1) · 0.5 · 255` is the kernel's `(c + 1) · 127.5` by associativity.  No finiteness of the inputs is used.

  The three frames: the two kernels' from their frame certificates, the reference's from its run with the result
  dropped.  The idealization rewrote no operation, so there is nothing to preserve.
-/
import proofs.«108864_j88381837017835_2_alg».proof.Defs
import proofs.«108864_j88381837017835_2_alg».proof.Proof.Gen.Kernel
import proofs.«108864_j88381837017835_2_alg».proof.Proof.Gen.Kernel.Skeleton
import proofs.«108864_j88381837017835_2_alg».proof.Proof.Gen.Kernel.Launch
import proofs.«108864_j88381837017835_2_alg».proof.Proof.Gen.Kernel.Points
import proofs.«108864_j88381837017835_2_alg».proof.Proof.Gen.Kernel.Frame
import proofs.«108864_j88381837017835_2_alg».proof.Proof.Gen.KernelIdeal
import proofs.«108864_j88381837017835_2_alg».proof.Proof.Gen.KernelIdeal.Skeleton
import proofs.«108864_j88381837017835_2_alg».proof.Proof.Gen.KernelIdeal.Launch
import proofs.«108864_j88381837017835_2_alg».proof.Proof.Gen.KernelIdeal.Points
import proofs.«108864_j88381837017835_2_alg».proof.Proof.Gen.KernelIdeal.Frame
import proofs.«108864_j88381837017835_2_alg».proof.Proof.Gen.ReferenceIdeal
import proofs.«108864_j88381837017835_2_alg».proof.Proof.Gen.Pre_finite_inputs
import proofs.«108864_j88381837017835_2_alg».proof.Proof.KernelValue
import proofs.«108864_j88381837017835_2_alg».proof.Proof.RefRunG
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- From memories that agree on the arguments both programs end with the result array at `Spec.G` of the
    arguments. -/
theorem algebraic : Cert.algebraic_KernelIdeal_ReferenceIdeal := by
  intro m ρ m' ρ' _ hagree
  refine ⟨_, Cert.KernelValue.kernel_run m ρ, ?_⟩
  refine (θ_run Cert.ReferenceIdeal.defs _ _).mono (fun _ h c => ⟨(h c).1.trans ?_, (h c).2⟩)
    (Cert.RefValue.run_G m' ρ')
  rw [(hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.RefValue.frame_ri, trivial, algebraic⟩

end Cert.Proof

end
